-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024 .f32) (main_arg13 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x3072 : Shape := ⟨2, ![1024, 3072]⟩
abbrev S1x1024 : Shape := ⟨2, ![1, 1024]⟩
abbrev S1x2048 : Shape := ⟨2, ![1, 2048]⟩
abbrev S65536x3072 : Shape := ⟨2, ![65536, 3072]⟩
abbrev S512x1024 : Shape := ⟨2, ![512, 1024]⟩
abbrev S512x3072 : Shape := ⟨2, ![512, 3072]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩
abbrev S512x2048 : Shape := ⟨2, ![512, 2048]⟩

abbrev nBuf : Space → Nat
  | .hbm => 94
  | .vmem => 33
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3072, .f32⟩
  | .hbm, ⟨15, _⟩ => ⟨S1024x3072, .bf16⟩
  | .hbm, ⟨16, _⟩ => ⟨S1024x1024, .bf16⟩
  | .hbm, ⟨17, _⟩ => ⟨S1024x2048, .bf16⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x2048, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S65536x3072, .bf16⟩
  | .hbm, ⟨27, _⟩ => ⟨S65536x1024, .bf16⟩
  | .hbm, ⟨28, _⟩ => ⟨S65536x16x64, .bf16⟩
  | .hbm, ⟨29, _⟩ => ⟨S65536x1024, .bf16⟩
  | .hbm, ⟨30, _⟩ => ⟨S65536x16x64, .bf16⟩
  | .hbm, ⟨31, _⟩ => ⟨S65536x1024, .bf16⟩
  | .hbm, ⟨32, _⟩ => ⟨S65536x16x64, .bf16⟩
  | .hbm, ⟨33, _⟩ => ⟨S65536x16x16, .f32⟩
  | .hbm, ⟨34, _⟩ => ⟨S_, .f32⟩
  | .hbm, ⟨35, _⟩ => ⟨S65536x16x16, .f32⟩
  | .hbm, ⟨36, _⟩ => ⟨S65536x16x16, .f32⟩
  | .hbm, ⟨37, _⟩ => ⟨S_, .f32⟩
  | .hbm, ⟨38, _⟩ => ⟨S65536x16, .f32⟩
  | .hbm, ⟨39, _⟩ => ⟨S_, .f32⟩
  | .hbm, ⟨40, _⟩ => ⟨S65536x16, .f32⟩
  | .hbm, ⟨41, _⟩ => ⟨S65536x16, .f32⟩
  | .hbm, ⟨42, _⟩ => ⟨S65536x16x1, .f32⟩
  | .hbm, ⟨43, _⟩ => ⟨S65536x16x16, .f32⟩
  | .hbm, ⟨44, _⟩ => ⟨S65536x16x16, .f32⟩
  | .hbm, ⟨45, _⟩ => ⟨S65536x16x16, .f32⟩
  | .hbm, ⟨46, _⟩ => ⟨S_, .f32⟩
  | .hbm, ⟨47, _⟩ => ⟨S65536x16, .f32⟩
  | .hbm, ⟨48, _⟩ => ⟨S65536x16x1, .f32⟩
  | .hbm, ⟨49, _⟩ => ⟨S65536x16x16, .f32⟩
  | .hbm, ⟨50, _⟩ => ⟨S65536x16x16, .f32⟩
  | .hbm, ⟨51, _⟩ => ⟨S65536x16x16, .bf16⟩
  | .hbm, ⟨52, _⟩ => ⟨S65536x16x64, .f32⟩
  | .hbm, ⟨53, _⟩ => ⟨S65536x1024, .f32⟩
  | .hbm, ⟨54, _⟩ => ⟨S65536x1024, .bf16⟩
  | .hbm, ⟨55, _⟩ => ⟨S65536x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S65536x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S65536x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S65536x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x2048, .bf16⟩
  | .local _ .vmem, ⟨20, _⟩ => ⟨S1x2048, .f32⟩
  | .local _ .vmem, ⟨21, _⟩ => ⟨S2048x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1024x1024, .f32⟩
  | .local _ .vmem, ⟨26, _⟩ => ⟨S1024x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .f32⟩
  | .local _ .vmem, ⟨32, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg9_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S1024_S1x1024 : S1024.ShapeCasts S1x1024
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S65536x3072_S65536x1024_0_0 : S65536x3072.Slices ![0, 0] S65536x1024
  shapeCasts_S65536x1024_S65536x16x64 : S65536x1024.ShapeCasts S65536x16x64
  slices_S65536x3072_S65536x1024_0_1024 : S65536x3072.Slices ![0, 1024] S65536x1024
  slices_S65536x3072_S65536x1024_0_2048 : S65536x3072.Slices ![0, 2048] S65536x1024
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reducesTo_S65536x1024_S1024_d0 : S65536x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S1024x1024 : S1x1024.Broadcasts S1024x1024
  dot_S512x1024_S1024x3072_S512x3072_1_0_0_1_n_n_wf : DotDims.WF S512x1024 S1024x3072 S512x3072 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S65536x3072.size a
  hwx0_2 : ∀ i : grid0.Coords, EltTy.bits .bf16 = 32 ∨ (Rect.block (s := S65536x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S65536x1024.size a
  hwx1_0 : ∀ i : grid1.Coords, EltTy.bits .f32 = 32 ∨ (Rect.block (s := S65536x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S65536x1024.size a
  hwx1_1 : ∀ i : grid1.Coords, EltTy.bits .bf16 = 32 ∨ (Rect.block (s := S65536x1024) S512x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S65536x1024.size a
  hwx1_4 : ∀ i : grid1.Coords, EltTy.bits .f32 = 32 ∨ (Rect.block (s := S65536x1024) S512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S65536x1024.size a
  hwx2_0 : ∀ i : grid2.Coords, EltTy.bits .f32 = 32 ∨ (Rect.block (s := S65536x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S1024x2048.size a
  hwx2_5 : ∀ i : grid2.Coords, EltTy.bits .bf16 = 32 ∨ (Rect.block (s := S1024x2048) S1024x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x1024.size a ≤ S2048x1024.size a
  hwx2_7 : ∀ i : grid2.Coords, EltTy.bits .bf16 = 32 ∨ (Rect.block (s := S2048x1024) S2048x1024.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1024.size a ≤ S1x1024.size a
  hwx2_8 : ∀ i : grid2.Coords, EltTy.bits .f32 = 32 ∨ (Rect.block (s := S1x1024) S1x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x1024.size a ≤ S65536x1024.size a
  hwx2_9 : ∀ i : grid2.Coords, EltTy.bits .f32 = 32 ∨ (Rect.block (s := S65536x1024) S512x1024.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S65536x1024.size a
  hwx3_0 : ∀ i : grid3.Coords, EltTy.bits .f32 = 32 ∨ (Rect.block (s := S65536x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S65536x1024.size a
  hwx3_5 : ∀ i : grid3.Coords, EltTy.bits .f32 = 32 ∨ (Rect.block (s := S65536x1024) S1024x1024.size (cc3_transform_5 i) (hinb3_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1024x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S2048x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S1x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51) S512x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v51) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where
  halias3_5 : Pipeline.Aliased win3 0 5

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩
abbrev S1x1024 : Shape := ⟨2, ![1, 1024]⟩
abbrev S65536x2048 : Shape := ⟨2, ![65536, 2048]⟩
abbrev S1x2048 : Shape := ⟨2, ![1, 2048]⟩

abbrev nBuf : Space → Nat
  | .hbm => 117
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S65536x1024, .f32⟩
  | .hbm, ⟨15, _⟩ => ⟨S65536x16x64, .f32⟩
  | .hbm, ⟨16, _⟩ => ⟨S65536x1024, .f32⟩
  | .hbm, ⟨17, _⟩ => ⟨S65536x16x64, .f32⟩
  | .hbm, ⟨18, _⟩ => ⟨S65536x1024, .f32⟩
  | .hbm, ⟨19, _⟩ => ⟨S65536x16x64, .f32⟩
  | .hbm, ⟨20, _⟩ => ⟨S65536x16x16, .f32⟩
  | .hbm, ⟨21, _⟩ => ⟨S_, .f32⟩
  | .hbm, ⟨22, _⟩ => ⟨S65536x16x16, .f32⟩
  | .hbm, ⟨23, _⟩ => ⟨S65536x16x16, .f32⟩
  | .hbm, ⟨24, _⟩ => ⟨S_, .f32⟩
  | .hbm, ⟨25, _⟩ => ⟨S65536x16, .f32⟩
  | .hbm, ⟨26, _⟩ => ⟨S_, .f32⟩
  | .hbm, ⟨27, _⟩ => ⟨S65536x16, .f32⟩
  | .hbm, ⟨28, _⟩ => ⟨S65536x16, .f32⟩
  | .hbm, ⟨29, _⟩ => ⟨S65536x16x1, .f32⟩
  | .hbm, ⟨30, _⟩ => ⟨S65536x16x16, .f32⟩
  | .hbm, ⟨31, _⟩ => ⟨S65536x16x16, .f32⟩
  | .hbm, ⟨32, _⟩ => ⟨S65536x16x16, .f32⟩
  | .hbm, ⟨33, _⟩ => ⟨S_, .f32⟩
  | .hbm, ⟨34, _⟩ => ⟨S65536x16, .f32⟩
  | .hbm, ⟨35, _⟩ => ⟨S65536x16x1, .f32⟩
  | .hbm, ⟨36, _⟩ => ⟨S65536x16x16, .f32⟩
  | .hbm, ⟨37, _⟩ => ⟨S65536x16x16, .f32⟩
  | .hbm, ⟨38, _⟩ => ⟨S65536x16x64, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x2048, .f32⟩
  | .hbm, ⟨76, _⟩ => ⟨S1x2048, .f32⟩
  | .hbm, ⟨77, _⟩ => ⟨S65536x2048, .f32⟩
  | .hbm, ⟨78, _⟩ => ⟨S65536x2048, .f32⟩
  | .hbm, ⟨79, _⟩ => ⟨S_, .f32⟩
  | .hbm, ⟨80, _⟩ => ⟨S65536x2048, .f32⟩
  | .hbm, ⟨81, _⟩ => ⟨S65536x2048, .f32⟩
  | .hbm, ⟨82, _⟩ => ⟨S65536x1024, .f32⟩
  | .hbm, ⟨83, _⟩ => ⟨S1x1024, .f32⟩
  | .hbm, ⟨84, _⟩ => ⟨S65536x1024, .f32⟩
  | .hbm, ⟨85, _⟩ => ⟨S65536x1024, .f32⟩
  | .hbm, ⟨86, _⟩ => ⟨S65536x1024, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1x1024, .f32⟩
  | .hbm, ⟨93, _⟩ => ⟨S65536x1024, .f32⟩
  | .hbm, ⟨94, _⟩ => ⟨S65536x1024, .f32⟩
  | .hbm, ⟨95, _⟩ => ⟨S65536x1024, .f32⟩
  | .hbm, ⟨96, _⟩ => ⟨S_, .f32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S1024, .f32⟩
  | .hbm, ⟨101, _⟩ => ⟨S1x1024, .f32⟩
  | .hbm, ⟨102, _⟩ => ⟨S65536x1024, .f32⟩
  | .hbm, ⟨103, _⟩ => ⟨S65536x1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S1x1024, .f32⟩
  | .hbm, ⟨109, _⟩ => ⟨S65536x1024, .f32⟩
  | .hbm, ⟨110, _⟩ => ⟨S65536x1024, .f32⟩
  | .hbm, ⟨111, _⟩ => ⟨S1x1024, .f32⟩
  | .hbm, ⟨112, _⟩ => ⟨S65536x1024, .f32⟩
  | .hbm, ⟨113, _⟩ => ⟨S65536x1024, .f32⟩
  | .hbm, ⟨114, _⟩ => ⟨S1x1024, .f32⟩
  | .hbm, ⟨115, _⟩ => ⟨S65536x1024, .f32⟩
  | .hbm, ⟨116, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S1024_d0 : S65536x1024.ReducesTo [0] S1024
  bcast_S_S1024 : S_.BroadcastsInDim S1024 (![] : Fin 0 → Fin S1024.rank)
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  dot_S65536x1024_S1024x1024_S65536x1024_1_0_0_1_n_n_wf : DotDims.WF S65536x1024 S1024x1024 S65536x1024 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]
  dot_S65536x1024_S1024x2048_S65536x2048_1_0_0_1_n_n_wf : DotDims.WF S65536x1024 S1024x2048 S65536x2048 [1] [0] [0] [1] [] []
  dot_S65536x2048_S2048x1024_S65536x1024_1_0_0_1_n_n_wf : DotDims.WF S65536x2048 S2048x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf
def dot_S65536x1024_S1024x2048_S65536x2048_1_0_0_1_n_n : DotDims S65536x1024 S1024x2048 S65536x2048 where
  lhsContracting := [1]
  rhsContracting := [0]
  lhsNonContracting := [0]
  rhsNonContracting := [1]
  lhsBatch := []
  rhsBatch := []
  wf := dot_S65536x1024_S1024x2048_S65536x2048_1_0_0_1_n_n_wf
def dot_S65536x2048_S2048x1024_S65536x1024_1_0_0_1_n_n : DotDims S65536x2048 S2048x1024 S65536x1024 where
  lhsContracting := [1]
  rhsContracting := [0]
  lhsNonContracting := [0]
  rhsNonContracting := [1]
  lhsBatch := []
  rhsBatch := []
  wf := dot_S65536x2048_S2048x1024_S65536x1024_1_0_0_1_n_n_wf

class Facts : Prop extends Facts₀ where

variable [Facts]
-- ==== Proof.KB.Region0.lean ====
import proofs.«165553_j30348238914117_2_alg».proof.Proof.Gen.Kernel.Launch
import proofs.«165553_j30348238914117_2_alg».proof.Proof.Gen.Kernel.Skeleton
import proofs.«165553_j30348238914117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of the program: the pallas_call `cc0__qkv_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out0_2`) of the input blocks.  From that: the proof data of the pipeline and its body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, for any proof data over
    the arrays `V` whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, for any proof data over
    the arrays `V` whose body leaves that buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's buffer after the body, as a function of the input windows' blocks: the body's one
    whole-buffer store of its one computed value. -/
def out0_2 (x0 : Vec F S512x1024 .f32) (x1 : Vec F S1024x3072 .bf16) : Vec F S512x3072 .bf16 :=
  View.canon [⟨(Rect.unit (s := S512x3072) ![0, 0] S512x3072.size inb_S512x3072_S512x3072_0_0), k0_pay1 (View.ld x0 (Rect.unit (s := S512x1024) ![0, 0] S512x1024.size inb_S512x1024_S512x1024_0_0)) (View.ld x1 (Rect.unit (s := S1024x3072) ![0, 0] S1024x3072.size inb_S1024x3072_S1024x3072_0_0))⟩]

/-- The one store covers the whole buffer. -/
theorem cover0_2 (p0 : Vec F S512x3072 .bf16) (y : S512x3072.Idx) :
    ∃ pc ∈ ([⟨(Rect.unit (s := S512x3072) ![0, 0] S512x3072.size inb_S512x3072_S512x3072_0_0), p0⟩] : List (View.Piece (Elt F) S512x3072 .bf16)), y ∈ pc.1.set :=
  View.cover_of_tiled [⟨(Rect.unit (s := S512x3072) ![0, 0] S512x3072.size inb_S512x3072_S512x3072_0_0), p0⟩] S512x3072.size (by rfl) y

set_option maxHeartbeats 4000000 in
/-- The body, called on whole staging buffers — the inputs' holding `x·`, the output's holding anything — runs to
    its end with the inputs' buffers as they were and the output's at `out0_2` of the inputs. -/
theorem sound_kernel0 (c : Dev nD) (E : Set ℕ) (i : grid0.Coords) (arg0 : Memref sig .tc .vmem S512x1024 .f32) (harg0 : arg0.IsWhole) (arg1 : Memref sig .tc .vmem S1024x3072 .bf16) (harg1 : arg1.IsWhole) (arg2 : Memref sig .tc .vmem S512x3072 .bf16) (harg2 : arg2.IsWhole)
    (x0 : Vec F S512x1024 .f32) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t`
    each input's buffer still at its block and the output's at `out0_2` of the input blocks; the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«165553_j30348238914117_2_alg».proof.Proof.Gen.Kernel.Launch
import proofs.«165553_j30348238914117_2_alg».proof.Proof.Gen.Kernel.Skeleton
import proofs.«165553_j30348238914117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of the program: the pallas_call `cc1__proj_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out1_4`) of the input blocks.  From that: the proof data of the pipeline and its body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, for any proof data over
    the arrays `V` whose body leaves that buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, for any proof data over
    the arrays `V` whose body leaves that buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, for any proof data over
    the arrays `V` whose body leaves that buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, for any proof data over
    the arrays `V` whose body leaves that buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body, as a function of the input windows' blocks: the body's one
    whole-buffer store of its one computed value. -/
def out1_4 (x0 : Vec F S512x1024 .f32) (x1 : Vec F S512x1024 .bf16) (x2 : Vec F S1024x1024 .bf16) (x3 : Vec F S1x1024 .f32) : Vec F S512x1024 .f32 :=
  View.canon [⟨(Rect.unit (s := S512x1024) ![0, 0] S512x1024.size inb_S512x1024_S512x1024_0_0), k1_pay1 (View.ld x0 (Rect.unit (s := S512x1024) ![0, 0] S512x1024.size inb_S512x1024_S512x1024_0_0)) (View.ld x1 (Rect.unit (s := S512x1024) ![0, 0] S512x1024.size inb_S512x1024_S512x1024_0_0)) (View.ld x2 (Rect.unit (s := S1024x1024) ![0, 0] S1024x1024.size inb_S1024x1024_S1024x1024_0_0)) (View.ld x3 (Rect.unit (s := S1x1024) ![0, 0] S1x1024.size inb_S1x1024_S1x1024_0_0))⟩]

/-- The one store covers the whole buffer. -/
theorem cover1_4 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, called on whole staging buffers — the inputs' holding `x·`, the output's holding anything — runs to
    its end with the inputs' buffers as they were and the output's at `out1_4` of the inputs. -/
theorem sound_kernel1 (c : Dev nD) (E : Set ℕ) (i : grid1.Coords) (arg0 : Memref sig .tc .vmem S512x1024 .f32) (harg0 : arg0.IsWhole) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S512x1024 .bf16) (x2 : Vec F S1024x1024 .bf16) (x3 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__proj_kernel i arg0 harg0 arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the pipeline on core `c`: the arrays as the region finds them; after the body at point `t`
    each input's buffer still at its block and the output's at `out1_4` of the input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«165553_j30348238914117_2_alg».proof.Proof.Gen.Kernel.Launch
import proofs.«165553_j30348238914117_2_alg».proof.Proof.Gen.Kernel.Skeleton
import proofs.«165553_j30348238914117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of the program: the pallas_call `cc2__ffn_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out2_9`) of the input blocks.  From that: the proof data of the pipeline and its body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, for any proof data over
    the arrays `V` whose body leaves that buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, for any proof data over
    the arrays `V` whose body leaves that buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, for any proof data over
    the arrays `V` whose body leaves that buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, for any proof data over
    the arrays `V` whose body leaves that buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, for any proof data over
    the arrays `V` whose body leaves that buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, for any proof data over
    the arrays `V` whose body leaves that buffer as it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, for any proof data over
    the arrays `V` whose body leaves that buffer as it found it. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, for any proof data over
    the arrays `V` whose body leaves that buffer as it found it. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds the window's block at every point, for any proof data over
    the arrays `V` whose body leaves that buffer as it found it. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The output window's buffer after the body, as a function of the input windows' blocks: the body's one
    whole-buffer store of its one computed value. -/
def out2_9 (x0 : Vec F S512x1024 .f32) (x1 : Vec F S1x1024 .f32) (x2 : Vec F S1x1024 .f32) (x3 : Vec F S1x1024 .f32) (x4 : Vec F S1x1024 .f32) (x5 : Vec F S1024x2048 .bf16) (x6 : Vec F S1x2048 .f32) (x7 : Vec F S2048x1024 .bf16) (x8 : Vec F S1x1024 .f32) : Vec F S512x1024 .f32 :=
  View.canon [⟨(Rect.unit (s := S512x1024) ![0, 0] S512x1024.size inb_S512x1024_S512x1024_0_0), k2_pay1 (k2_pay2 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0))) (k2_pay3 (View.ld x8 (Rect.unit (s := S1x1024) ![0, 0] S1x1024.size inb_S1x1024_S1x1024_0_0))) (k2_pay4 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0)) (View.ld x5 (Rect.unit (s := S1024x2048) ![0, 0] S1024x2048.size inb_S1024x2048_S1024x2048_0_0)) (View.ld x6 (Rect.unit (s := S1x2048) ![0, 0] S1x2048.size inb_S1x2048_S1x2048_0_0)) (View.ld x7 (Rect.unit (s := S2048x1024) ![0, 0] S2048x1024.size inb_S2048x1024_S2048x1024_0_0)))⟩]

/-- The one store covers the whole buffer. -/
theorem cover2_9 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, called on whole staging buffers — the inputs' holding `x·`, the output's holding anything — runs to
    its end with the inputs' buffers as they were and the output's at `out2_9` of the inputs. -/
theorem sound_kernel2 (c : Dev nD) (E : Set ℕ) (i : grid2.Coords) (arg0 : Memref sig .tc .vmem S512x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S512x1024 .f32) (harg9 : arg9.IsWhole)
    (x0 : Vec F S512x1024 .f32) (x1 : Vec F S1x1024 .f32) (x2 : Vec F S1x1024 .f32) (x3 : Vec F S1x1024 .f32) (x4 : Vec F S1x1024 .f32) (x5 : Vec F S1024x2048 .bf16) (x6 : Vec F S1x2048 .f32) (x7 : Vec F S2048x1024 .bf16) (x8 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__ffn_kernel i arg0 harg0 arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of the pipeline on core `c`: the arrays as the region finds them; after the body at point `t`
    each input's buffer still at its block and the output's at `out2_9` of the input blocks; the class's
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so `sound_kernel2` applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Region3.lean ====
import proofs.«165553_j30348238914117_2_alg».proof.Proof.Gen.Kernel.Launch
import proofs.«165553_j30348238914117_2_alg».proof.Proof.Gen.Kernel.Skeleton
import proofs.«165553_j30348238914117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 of the program: the pallas_call `cc3__bn_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out3_5`) of the input blocks.  From that: the proof data of the pipeline and its body obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, for any proof data over
    the arrays `V` whose body leaves that buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, for any proof data over
    the arrays `V` whose body leaves that buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, for any proof data over
    the arrays `V` whose body leaves that buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, for any proof data over
    the arrays `V` whose body leaves that buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block at every point, for any proof data over
    the arrays `V` whose body leaves that buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's buffer after the body, as a function of the input windows' blocks: the body's one
    whole-buffer store of its one computed value. -/
def out3_5 (x0 : Vec F S1024x1024 .f32) (x1 : Vec F S1x1024 .f32) (x2 : Vec F S1x1024 .f32) (x3 : Vec F S1x1024 .f32) (x4 : Vec F S1x1024 .f32) : Vec F S1024x1024 .f32 :=
  View.canon [⟨(Rect.unit (s := S1024x1024) ![0, 0] S1024x1024.size inb_S1024x1024_S1024x1024_0_0), k3_pay1 (View.ld x0 (Rect.unit (s := S1024x1024) ![0, 0] S1024x1024.size inb_S1024x1024_S1024x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0))⟩]

/-- The one store covers the whole buffer. -/
theorem cover3_5 (p0 : Vec F S1024x1024 .f32) (y : S1024x1024.Idx) :
    ∃ pc ∈ ([⟨(Rect.unit (s := S1024x1024) ![0, 0] S1024x1024.size inb_S1024x1024_S1024x1024_0_0), p0⟩] : List (View.Piece (Elt F) S1024x1024 .f32)), y ∈ pc.1.set :=
  View.cover_of_tiled [⟨(Rect.unit (s := S1024x1024) ![0, 0] S1024x1024.size inb_S1024x1024_S1024x1024_0_0), p0⟩] S1024x1024.size (by rfl) y

set_option maxHeartbeats 4000000 in
/-- The body, called on whole staging buffers — the inputs' holding `x·`, the output's holding anything — runs to
    its end with the inputs' buffers as they were and the output's at `out3_5` of the inputs. -/
theorem sound_kernel3 (c : Dev nD) (E : Set ℕ) (i : grid3.Coords) (arg0 : Memref sig .tc .vmem S1024x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of the pipeline on core `c`: the arrays as the region finds them; after the body at point `t`
    each input's buffer still at its block and the output's at `out3_5` of the input blocks; the class's
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
import proofs.«165553_j30348238914117_2_alg».proof.Proof.KB.Region0
import proofs.«165553_j30348238914117_2_alg».proof.Proof.KB.Region1
import proofs.«165553_j30348238914117_2_alg».proof.Proof.KB.Region2
import proofs.«165553_j30348238914117_2_alg».proof.Proof.KB.Region3
import proofs.«165553_j30348238914117_2_alg».proof.Proof.Gen.Kernel.Regions

/-!
# The run of the whole program: four pallas_calls among four stretches of host operations

The buffer contents at each boundary are a fold from the launch memory: a host stretch applies its operations; a
pallas_call leaves each of its arrays at what its write-backs leave (an input array as entered) and every other buffer
as entered.  Each stretch is a host segment, each pallas_call a region segment whose body obligation is its region
module's; the launch theorem then says that every weakly fair execution terminates and that every unscoped buffer ends
at the last boundary's contents — from which both the arguments' buffers (unchanged) and the result's are read.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0: what pallas_call 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After pallas_call 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves alone what none of its operations writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- An input window's array leaves the pallas_call as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: what pallas_call 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After pallas_call 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves alone what none of its operations writes. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves the pallas_call as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: what pallas_call 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After pallas_call 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves alone what none of its operations writes. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- An input window's array leaves the pallas_call as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: what pallas_call 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After pallas_call 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves alone what none of its operations writes. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- An input window's array leaves the pallas_call as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments end as launched -/

theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <| (W6_of_ne m ρ c main_arg0 (by decide)).trans <| (W5_of m ρ c main_arg0 (by decide)).trans <| (W4_in m ρ c 0 rfl).trans <| (W3_of m ρ c main_arg0 (by decide)).trans <| (W2_in m ρ c 0 rfl).trans <| (W1_of m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W8_main_arg6 (c : Dev nD) : W8 m ρ c (Proc.devRef .tc main_arg6) = m ((c : Thread nD τ).loc main_arg6) :=
  (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W8_main_arg7 (c : Dev nD) : W8 m ρ c (Proc.devRef .tc main_arg7) = m ((c : Thread nD τ).loc main_arg7) :=
  (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl
theorem W8_main_arg8 (c : Dev nD) : W8 m ρ c (Proc.devRef .tc main_arg8) = m ((c : Thread nD τ).loc main_arg8) :=
  (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W8_main_arg9 (c : Dev nD) : W8 m ρ c (Proc.devRef .tc main_arg9) = m ((c : Thread nD τ).loc main_arg9) :=
  (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W8_main_arg10 (c : Dev nD) : W8 m ρ c (Proc.devRef .tc main_arg10) = m ((c : Thread nD τ).loc main_arg10) :=
  (W8_of_ne m ρ c main_arg10 (by decide)).trans <| (W7_of m ρ c main_arg10 (by decide)).trans <| (W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide)).trans rfl
theorem W8_main_arg11 (c : Dev nD) : W8 m ρ c (Proc.devRef .tc main_arg11) = m ((c : Thread nD τ).loc main_arg11) :=
  (W8_of_ne m ρ c main_arg11 (by decide)).trans <| (W7_of m ρ c main_arg11 (by decide)).trans <| (W6_of_ne m ρ c main_arg11 (by decide)).trans <| (W5_of m ρ c main_arg11 (by decide)).trans <| (W4_of_ne m ρ c main_arg11 (by decide)).trans <| (W3_of m ρ c main_arg11 (by decide)).trans <| (W2_of_ne m ρ c main_arg11 (by decide)).trans <| (W1_of m ρ c main_arg11 (by decide)).trans rfl
theorem W8_main_arg12 (c : Dev nD) : W8 m ρ c (Proc.devRef .tc main_arg12) = m ((c : Thread nD τ).loc main_arg12) :=
  (W8_of_ne m ρ c main_arg12 (by decide)).trans <| (W7_of m ρ c main_arg12 (by decide)).trans <| (W6_of_ne m ρ c main_arg12 (by decide)).trans <| (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W8_main_arg13 (c : Dev nD) : W8 m ρ c (Proc.devRef .tc main_arg13) = m ((c : Thread nD τ).loc main_arg13) :=
  (W8_of_ne m ρ c main_arg13 (by decide)).trans <| (W7_of m ρ c main_arg13 (by decide)).trans <| (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl

/-! ## The proof data family and the thread state -/

abbrev adm : (p : Fin 4) → (pcfgs (F := F) p).Adm := fun p => (cfgs p).toPCfg_adm
/-- Every pipeline's proof data, each at its pallas_call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W8 m ρ c) ∗ ∃ r, prngReg c r)

/-! ## The pallas_calls as segments -/

set_option backward.isDefEq.respectTransparency.types false in
/-- pallas_call 0 over the thread state: entered from every unscoped buffer at `W1`, left at `W2`; its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at `W3`, left at `W4`; its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 over the thread state: entered from every unscoped buffer at `W5`, left at `W6`; its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3 over the thread state: entered from every unscoped buffer at `W7`, left at `W8`; its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters, every weakly fair execution of the program terminates, nothing
    faulting, and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c)⟩) (run_main m ρ)

end Cert.Kernel.Hand

end
-- ==== Proof.KI.Region0.lean ====
import proofs.«165553_j30348238914117_2_alg».proof.Proof.Gen.KernelIdeal.Launch
import proofs.«165553_j30348238914117_2_alg».proof.Proof.Gen.KernelIdeal.Skeleton
import proofs.«165553_j30348238914117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of the program: the pallas_call `cc0__qkv_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out0_2`) of the input blocks.  From that: the proof data of the pipeline and its body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, for any proof data over
    the arrays `V` whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, for any proof data over
    the arrays `V` whose body leaves that buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output window's buffer after the body, as a function of the input windows' blocks: the body's one
    whole-buffer store of its one computed value. -/
def out0_2 (x0 : Vec F S512x1024 .f32) (x1 : Vec F S1024x3072 .bf16) : Vec F S512x3072 .bf16 :=
  View.canon [⟨(Rect.unit (s := S512x3072) ![0, 0] S512x3072.size inb_S512x3072_S512x3072_0_0), k0_pay1 (View.ld x0 (Rect.unit (s := S512x1024) ![0, 0] S512x1024.size inb_S512x1024_S512x1024_0_0)) (View.ld x1 (Rect.unit (s := S1024x3072) ![0, 0] S1024x3072.size inb_S1024x3072_S1024x3072_0_0))⟩]

/-- The one store covers the whole buffer. -/
theorem cover0_2 (p0 : Vec F S512x3072 .bf16) (y : S512x3072.Idx) :
    ∃ pc ∈ ([⟨(Rect.unit (s := S512x3072) ![0, 0] S512x3072.size inb_S512x3072_S512x3072_0_0), p0⟩] : List (View.Piece (Elt F) S512x3072 .bf16)), y ∈ pc.1.set :=
  View.cover_of_tiled [⟨(Rect.unit (s := S512x3072) ![0, 0] S512x3072.size inb_S512x3072_S512x3072_0_0), p0⟩] S512x3072.size (by rfl) y

set_option maxHeartbeats 4000000 in
/-- The body, called on whole staging buffers — the inputs' holding `x·`, the output's holding anything — runs to
    its end with the inputs' buffers as they were and the output's at `out0_2` of the inputs. -/
theorem sound_kernel0 (c : Dev nD) (E : Set ℕ) (i : grid0.Coords) (arg0 : Memref sig .tc .vmem S512x1024 .f32) (harg0 : arg0.IsWhole) (arg1 : Memref sig .tc .vmem S1024x3072 .bf16) (harg1 : arg1.IsWhole) (arg2 : Memref sig .tc .vmem S512x3072 .bf16) (harg2 : arg2.IsWhole)
    (x0 : Vec F S512x1024 .f32) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t`
    each input's buffer still at its block and the output's at `out0_2` of the input blocks; the class's
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«165553_j30348238914117_2_alg».proof.Proof.Gen.KernelIdeal.Launch
import proofs.«165553_j30348238914117_2_alg».proof.Proof.Gen.KernelIdeal.Skeleton
import proofs.«165553_j30348238914117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of the program: the pallas_call `cc1__proj_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out1_4`) of the input blocks.  From that: the proof data of the pipeline and its body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, for any proof data over
    the arrays `V` whose body leaves that buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, for any proof data over
    the arrays `V` whose body leaves that buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, for any proof data over
    the arrays `V` whose body leaves that buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, for any proof data over
    the arrays `V` whose body leaves that buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body, as a function of the input windows' blocks: the body's one
    whole-buffer store of its one computed value. -/
def out1_4 (x0 : Vec F S512x1024 .f32) (x1 : Vec F S512x1024 .bf16) (x2 : Vec F S1024x1024 .bf16) (x3 : Vec F S1x1024 .f32) : Vec F S512x1024 .f32 :=
  View.canon [⟨(Rect.unit (s := S512x1024) ![0, 0] S512x1024.size inb_S512x1024_S512x1024_0_0), k1_pay1 (View.ld x0 (Rect.unit (s := S512x1024) ![0, 0] S512x1024.size inb_S512x1024_S512x1024_0_0)) (View.ld x1 (Rect.unit (s := S512x1024) ![0, 0] S512x1024.size inb_S512x1024_S512x1024_0_0)) (View.ld x2 (Rect.unit (s := S1024x1024) ![0, 0] S1024x1024.size inb_S1024x1024_S1024x1024_0_0)) (View.ld x3 (Rect.unit (s := S1x1024) ![0, 0] S1x1024.size inb_S1x1024_S1x1024_0_0))⟩]

/-- The one store covers the whole buffer. -/
theorem cover1_4 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, called on whole staging buffers — the inputs' holding `x·`, the output's holding anything — runs to
    its end with the inputs' buffers as they were and the output's at `out1_4` of the inputs. -/
theorem sound_kernel1 (c : Dev nD) (E : Set ℕ) (i : grid1.Coords) (arg0 : Memref sig .tc .vmem S512x1024 .f32) (harg0 : arg0.IsWhole) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .f32) (x1 : Vec F S512x1024 .bf16) (x2 : Vec F S1024x1024 .bf16) (x3 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__proj_kernel i arg0 harg0 arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the pipeline on core `c`: the arrays as the region finds them; after the body at point `t`
    each input's buffer still at its block and the output's at `out1_4` of the input blocks; the class's
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«165553_j30348238914117_2_alg».proof.Proof.Gen.KernelIdeal.Launch
import proofs.«165553_j30348238914117_2_alg».proof.Proof.Gen.KernelIdeal.Skeleton
import proofs.«165553_j30348238914117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of the program: the pallas_call `cc2__ffn_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out2_9`) of the input blocks.  From that: the proof data of the pipeline and its body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, for any proof data over
    the arrays `V` whose body leaves that buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, for any proof data over
    the arrays `V` whose body leaves that buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, for any proof data over
    the arrays `V` whose body leaves that buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, for any proof data over
    the arrays `V` whose body leaves that buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, for any proof data over
    the arrays `V` whose body leaves that buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, for any proof data over
    the arrays `V` whose body leaves that buffer as it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, for any proof data over
    the arrays `V` whose body leaves that buffer as it found it. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, for any proof data over
    the arrays `V` whose body leaves that buffer as it found it. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds the window's block at every point, for any proof data over
    the arrays `V` whose body leaves that buffer as it found it. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The output window's buffer after the body, as a function of the input windows' blocks: the body's one
    whole-buffer store of its one computed value. -/
def out2_9 (x0 : Vec F S512x1024 .f32) (x1 : Vec F S1x1024 .f32) (x2 : Vec F S1x1024 .f32) (x3 : Vec F S1x1024 .f32) (x4 : Vec F S1x1024 .f32) (x5 : Vec F S1024x2048 .bf16) (x6 : Vec F S1x2048 .f32) (x7 : Vec F S2048x1024 .bf16) (x8 : Vec F S1x1024 .f32) : Vec F S512x1024 .f32 :=
  View.canon [⟨(Rect.unit (s := S512x1024) ![0, 0] S512x1024.size inb_S512x1024_S512x1024_0_0), k2_pay1 (k2_pay2 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0))) (k2_pay3 (View.ld x8 (Rect.unit (s := S1x1024) ![0, 0] S1x1024.size inb_S1x1024_S1x1024_0_0))) (k2_pay4 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0)) (View.ld x5 (Rect.unit (s := S1024x2048) ![0, 0] S1024x2048.size inb_S1024x2048_S1024x2048_0_0)) (View.ld x6 (Rect.unit (s := S1x2048) ![0, 0] S1x2048.size inb_S1x2048_S1x2048_0_0)) (View.ld x7 (Rect.unit (s := S2048x1024) ![0, 0] S2048x1024.size inb_S2048x1024_S2048x1024_0_0)))⟩]

/-- The one store covers the whole buffer. -/
theorem cover2_9 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, called on whole staging buffers — the inputs' holding `x·`, the output's holding anything — runs to
    its end with the inputs' buffers as they were and the output's at `out2_9` of the inputs. -/
theorem sound_kernel2 (c : Dev nD) (E : Set ℕ) (i : grid2.Coords) (arg0 : Memref sig .tc .vmem S512x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S512x1024 .f32) (harg9 : arg9.IsWhole)
    (x0 : Vec F S512x1024 .f32) (x1 : Vec F S1x1024 .f32) (x2 : Vec F S1x1024 .f32) (x3 : Vec F S1x1024 .f32) (x4 : Vec F S1x1024 .f32) (x5 : Vec F S1024x2048 .bf16) (x6 : Vec F S1x2048 .f32) (x7 : Vec F S2048x1024 .bf16) (x8 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__ffn_kernel i arg0 harg0 arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-- The proof data of the pipeline on core `c`: the arrays as the region finds them; after the body at point `t`
    each input's buffer still at its block and the output's at `out2_9` of the input blocks; the class's
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so `sound_kernel2` applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«165553_j30348238914117_2_alg».proof.Proof.Gen.KernelIdeal.Launch
import proofs.«165553_j30348238914117_2_alg».proof.Proof.Gen.KernelIdeal.Skeleton
import proofs.«165553_j30348238914117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 of the program: the pallas_call `cc3__bn_kernel` at a parameter `V`

`V` is what the TensorCore's buffers hold when the region is entered.  Every window of this call is
uncut and never idle, so an input window's staging buffer holds, at every grid point, the block of its
array that the point's index map names (whether or not it was fetched afresh at that point: an unfetched
window's index has not moved).  The body loads every input buffer whole, computes one value from them and
stores it whole into the output window's buffer; what it leaves there is therefore one function
(`out3_5`) of the input blocks.  From that: the proof data of the pipeline and its body obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, for any proof data over
    the arrays `V` whose body leaves that buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, for any proof data over
    the arrays `V` whose body leaves that buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, for any proof data over
    the arrays `V` whose body leaves that buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, for any proof data over
    the arrays `V` whose body leaves that buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block at every point, for any proof data over
    the arrays `V` whose body leaves that buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's buffer after the body, as a function of the input windows' blocks: the body's one
    whole-buffer store of its one computed value. -/
def out3_5 (x0 : Vec F S1024x1024 .f32) (x1 : Vec F S1x1024 .f32) (x2 : Vec F S1x1024 .f32) (x3 : Vec F S1x1024 .f32) (x4 : Vec F S1x1024 .f32) : Vec F S1024x1024 .f32 :=
  View.canon [⟨(Rect.unit (s := S1024x1024) ![0, 0] S1024x1024.size inb_S1024x1024_S1024x1024_0_0), k3_pay1 (View.ld x0 (Rect.unit (s := S1024x1024) ![0, 0] S1024x1024.size inb_S1024x1024_S1024x1024_0_0)) (View.ld x1 (Rect.unit (s := S1x1024) ![0, 0] S1x1024.size inb_S1x1024_S1x1024_0_0)) (View.ld x2 (Rect.unit (s := S1x1024) ![0, 0] S1x1024.size inb_S1x1024_S1x1024_0_0)) (View.ld x3 (Rect.unit (s := S1x1024) ![0, 0] S1x1024.size inb_S1x1024_S1x1024_0_0)) (View.ld x4 (Rect.unit (s := S1x1024) ![0, 0] S1x1024.size inb_S1x1024_S1x1024_0_0))⟩]

/-- The one store covers the whole buffer. -/
theorem cover3_5 (p0 : Vec F S1024x1024 .f32) (y : S1024x1024.Idx) :
    ∃ pc ∈ ([⟨(Rect.unit (s := S1024x1024) ![0, 0] S1024x1024.size inb_S1024x1024_S1024x1024_0_0), p0⟩] : List (View.Piece (Elt F) S1024x1024 .f32)), y ∈ pc.1.set :=
  View.cover_of_tiled [⟨(Rect.unit (s := S1024x1024) ![0, 0] S1024x1024.size inb_S1024x1024_S1024x1024_0_0), p0⟩] S1024x1024.size (by rfl) y

set_option maxHeartbeats 4000000 in
/-- The body, called on whole staging buffers — the inputs' holding `x·`, the output's holding anything — runs to
    its end with the inputs' buffers as they were and the output's at `out3_5` of the inputs. -/
theorem sound_kernel3 (c : Dev nD) (E : Set ℕ) (i : grid3.Coords) (arg0 : Memref sig .tc .vmem S1024x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (x0 : Vec F S1024x1024 .f32) (x1 : Vec F S1x1024 .f32) (x2 : Vec F S1x1024 .f32) (x3 : Vec F S1x1024 .f32) (x4 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of the pipeline on core `c`: the arrays as the region finds them; after the body at point `t`
    each input's buffer still at its block and the output's at `out3_5` of the input blocks; the class's
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«165553_j30348238914117_2_alg».proof.Proof.KI.Region0
import proofs.«165553_j30348238914117_2_alg».proof.Proof.KI.Region1
import proofs.«165553_j30348238914117_2_alg».proof.Proof.KI.Region2
import proofs.«165553_j30348238914117_2_alg».proof.Proof.KI.Region3
import proofs.«165553_j30348238914117_2_alg».proof.Proof.Gen.KernelIdeal.Regions

/-!
# The run of the whole program: four pallas_calls among four stretches of host operations

The buffer contents at each boundary are a fold from the launch memory: a host stretch applies its operations; a
pallas_call leaves each of its arrays at what its write-backs leave (an input array as entered) and every other buffer
as entered.  Each stretch is a host segment, each pallas_call a region segment whose body obligation is its region
module's; the launch theorem then says that every weakly fair execution terminates and that every unscoped buffer ends
at the last boundary's contents — from which both the arguments' buffers (unchanged) and the result's are read.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0: what pallas_call 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After pallas_call 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves alone what none of its operations writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- An input window's array leaves the pallas_call as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: what pallas_call 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After pallas_call 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves alone what none of its operations writes. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves the pallas_call as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: what pallas_call 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After pallas_call 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves alone what none of its operations writes. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- An input window's array leaves the pallas_call as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: what pallas_call 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After pallas_call 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves alone what none of its operations writes. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- An input window's array leaves the pallas_call as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## The arguments end as launched -/

theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <| (W6_of_ne m ρ c main_arg0 (by decide)).trans <| (W5_of m ρ c main_arg0 (by decide)).trans <| (W4_in m ρ c 0 rfl).trans <| (W3_of m ρ c main_arg0 (by decide)).trans <| (W2_in m ρ c 0 rfl).trans <| (W1_of m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <| (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W8_main_arg6 (c : Dev nD) : W8 m ρ c (Proc.devRef .tc main_arg6) = m ((c : Thread nD τ).loc main_arg6) :=
  (W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W8_main_arg7 (c : Dev nD) : W8 m ρ c (Proc.devRef .tc main_arg7) = m ((c : Thread nD τ).loc main_arg7) :=
  (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl
theorem W8_main_arg8 (c : Dev nD) : W8 m ρ c (Proc.devRef .tc main_arg8) = m ((c : Thread nD τ).loc main_arg8) :=
  (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W8_main_arg9 (c : Dev nD) : W8 m ρ c (Proc.devRef .tc main_arg9) = m ((c : Thread nD τ).loc main_arg9) :=
  (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W8_main_arg10 (c : Dev nD) : W8 m ρ c (Proc.devRef .tc main_arg10) = m ((c : Thread nD τ).loc main_arg10) :=
  (W8_of_ne m ρ c main_arg10 (by decide)).trans <| (W7_of m ρ c main_arg10 (by decide)).trans <| (W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide)).trans rfl
theorem W8_main_arg11 (c : Dev nD) : W8 m ρ c (Proc.devRef .tc main_arg11) = m ((c : Thread nD τ).loc main_arg11) :=
  (W8_of_ne m ρ c main_arg11 (by decide)).trans <| (W7_of m ρ c main_arg11 (by decide)).trans <| (W6_of_ne m ρ c main_arg11 (by decide)).trans <| (W5_of m ρ c main_arg11 (by decide)).trans <| (W4_of_ne m ρ c main_arg11 (by decide)).trans <| (W3_of m ρ c main_arg11 (by decide)).trans <| (W2_of_ne m ρ c main_arg11 (by decide)).trans <| (W1_of m ρ c main_arg11 (by decide)).trans rfl
theorem W8_main_arg12 (c : Dev nD) : W8 m ρ c (Proc.devRef .tc main_arg12) = m ((c : Thread nD τ).loc main_arg12) :=
  (W8_of_ne m ρ c main_arg12 (by decide)).trans <| (W7_of m ρ c main_arg12 (by decide)).trans <| (W6_of_ne m ρ c main_arg12 (by decide)).trans <| (W5_of m ρ c main_arg12 (by decide)).trans <| (W4_of_ne m ρ c main_arg12 (by decide)).trans <| (W3_of m ρ c main_arg12 (by decide)).trans <| (W2_of_ne m ρ c main_arg12 (by decide)).trans <| (W1_of m ρ c main_arg12 (by decide)).trans rfl
theorem W8_main_arg13 (c : Dev nD) : W8 m ρ c (Proc.devRef .tc main_arg13) = m ((c : Thread nD τ).loc main_arg13) :=
  (W8_of_ne m ρ c main_arg13 (by decide)).trans <| (W7_of m ρ c main_arg13 (by decide)).trans <| (W6_of_ne m ρ c main_arg13 (by decide)).trans <| (W5_of m ρ c main_arg13 (by decide)).trans <| (W4_of_ne m ρ c main_arg13 (by decide)).trans <| (W3_of m ρ c main_arg13 (by decide)).trans <| (W2_of_ne m ρ c main_arg13 (by decide)).trans <| (W1_of m ρ c main_arg13 (by decide)).trans rfl

/-! ## The proof data family and the thread state -/

abbrev adm : (p : Fin 4) → (pcfgs (F := F) p).Adm := fun p => (cfgs p).toPCfg_adm
/-- Every pipeline's proof data, each at its pallas_call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W8 m ρ c) ∗ ∃ r, prngReg c r)

/-! ## The pallas_calls as segments -/

set_option backward.isDefEq.respectTransparency.types false in
/-- pallas_call 0 over the thread state: entered from every unscoped buffer at `W1`, left at `W2`; its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at `W3`, left at `W4`; its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 over the thread state: entered from every unscoped buffer at `W5`, left at `W6`; its arrays split
    out of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3 over the thread state: entered from every unscoped buffer at `W7`, left at `W8`; its arrays split
    out of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters, every weakly fair execution of the program terminates, nothing
    faulting, and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun r h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c)⟩) (run_main m ρ)

end Cert.KernelIdeal.Hand

end
-- ==== Proof.RefFrame.lean ====
import proofs.«165553_j30348238914117_2_alg».proof.Proof.RefRunP

/-!
# The reference runs, and leaves its arguments alone

The reference is a straight line of host operations, none of which writes an argument's buffer: after the fold of all of
them each argument's buffer holds what it held at launch.
-/

noncomputable section

namespace Cert.ReferenceIdeal.RefFrame

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

set_option maxHeartbeats 4000000 in
theorem kept_main_arg0 (V : Valuation τ sig (Elt F)) : after (ops (F := F)) V (Proc.devRef .tc main_arg0) = V (Proc.devRef .tc main_arg0) := by
  after_results_simp
set_option maxHeartbeats 4000000 in
theorem kept_main_arg1 (V : Valuation τ sig (Elt F)) : after (ops (F := F)) V (Proc.devRef .tc main_arg1) = V (Proc.devRef .tc main_arg1) := by
  after_results_simp
set_option maxHeartbeats 4000000 in
theorem kept_main_arg2 (V : Valuation τ sig (Elt F)) : after (ops (F := F)) V (Proc.devRef .tc main_arg2) = V (Proc.devRef .tc main_arg2) := by
  after_results_simp
set_option maxHeartbeats 4000000 in
theorem kept_main_arg3 (V : Valuation τ sig (Elt F)) : after (ops (F := F)) V (Proc.devRef .tc main_arg3) = V (Proc.devRef .tc main_arg3) := by
  after_results_simp
set_option maxHeartbeats 4000000 in
theorem kept_main_arg4 (V : Valuation τ sig (Elt F)) : after (ops (F := F)) V (Proc.devRef .tc main_arg4) = V (Proc.devRef .tc main_arg4) := by
  after_results_simp
set_option maxHeartbeats 4000000 in
theorem kept_main_arg5 (V : Valuation τ sig (Elt F)) : after (ops (F := F)) V (Proc.devRef .tc main_arg5) = V (Proc.devRef .tc main_arg5) := by
  after_results_simp
set_option maxHeartbeats 4000000 in
theorem kept_main_arg6 (V : Valuation τ sig (Elt F)) : after (ops (F := F)) V (Proc.devRef .tc main_arg6) = V (Proc.devRef .tc main_arg6) := by
  after_results_simp
set_option maxHeartbeats 4000000 in
theorem kept_main_arg7 (V : Valuation τ sig (Elt F)) : after (ops (F := F)) V (Proc.devRef .tc main_arg7) = V (Proc.devRef .tc main_arg7) := by
  after_results_simp
set_option maxHeartbeats 4000000 in
theorem kept_main_arg8 (V : Valuation τ sig (Elt F)) : after (ops (F := F)) V (Proc.devRef .tc main_arg8) = V (Proc.devRef .tc main_arg8) := by
  after_results_simp
set_option maxHeartbeats 4000000 in
theorem kept_main_arg9 (V : Valuation τ sig (Elt F)) : after (ops (F := F)) V (Proc.devRef .tc main_arg9) = V (Proc.devRef .tc main_arg9) := by
  after_results_simp
set_option maxHeartbeats 4000000 in
theorem kept_main_arg10 (V : Valuation τ sig (Elt F)) : after (ops (F := F)) V (Proc.devRef .tc main_arg10) = V (Proc.devRef .tc main_arg10) := by
  after_results_simp
set_option maxHeartbeats 4000000 in
theorem kept_main_arg11 (V : Valuation τ sig (Elt F)) : after (ops (F := F)) V (Proc.devRef .tc main_arg11) = V (Proc.devRef .tc main_arg11) := by
  after_results_simp
set_option maxHeartbeats 4000000 in
theorem kept_main_arg12 (V : Valuation τ sig (Elt F)) : after (ops (F := F)) V (Proc.devRef .tc main_arg12) = V (Proc.devRef .tc main_arg12) := by
  after_results_simp
set_option maxHeartbeats 4000000 in
theorem kept_main_arg13 (V : Valuation τ sig (Elt F)) : after (ops (F := F)) V (Proc.devRef .tc main_arg13) = V (Proc.devRef .tc main_arg13) := by
  after_results_simp

/-- Every weakly fair execution of the reference terminates, nothing faulting, with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun _ h c => ⟨(h c main_arg0).trans (kept_main_arg0 _),
    (h c main_arg1).trans (kept_main_arg1 _),
    (h c main_arg2).trans (kept_main_arg2 _),
    (h c main_arg3).trans (kept_main_arg3 _),
    (h c main_arg4).trans (kept_main_arg4 _),
    (h c main_arg5).trans (kept_main_arg5 _),
    (h c main_arg6).trans (kept_main_arg6 _),
    (h c main_arg7).trans (kept_main_arg7 _),
    (h c main_arg8).trans (kept_main_arg8 _),
    (h c main_arg9).trans (kept_main_arg9 _),
    (h c main_arg10).trans (kept_main_arg10 _),
    (h c main_arg11).trans (kept_main_arg11 _),
    (h c main_arg12).trans (kept_main_arg12 _),
    (h c main_arg13).trans (kept_main_arg13 _)⟩)
    (run_after m ρ)

end Cert.ReferenceIdeal.RefFrame

end
-- ==== Proof.Spec.lean ====
import Idealize.ShloMosaic.PureOps.Ideal
import Idealize.ShloMosaic.Lib.ValueIdx

/-!
# Matrix product on the extended reals, entry by entry

`mm A B` is the row-by-column product of an `[n, k]` and a `[k, m]` array of extended reals: its entry `(a, b)` is the sum
over `c` of `A (a, c) · B (c, b)`.
-/

noncomputable section

namespace Cert.Spec

open Idealize.ShloMosaic Idealize.ShloMosaic.ValueIdx

/-- The row-by-column product of two matrices of extended reals. -/
def mm {n k m : ℕ} (A : (⟨2, ![n, k]⟩ : Shape).Idx → EReal) (B : (⟨2, ![k, m]⟩ : Shape).Idx → EReal) :
    (⟨2, ![n, m]⟩ : Shape).Idx → EReal :=
  fun i => ∑ c : Fin k, A (ix2 (i 0) c) * B (ix2 c (i 1))

theorem mm_apply {n k m : ℕ} (A : (⟨2, ![n, k]⟩ : Shape).Idx → EReal) (B : (⟨2, ![k, m]⟩ : Shape).Idx → EReal)
    (a : Fin n) (b : Fin m) : mm A B (ix2 a b) = ∑ c : Fin k, A (ix2 a c) * B (ix2 c b) := rfl

end Cert.Spec

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KI.Value0.lean ====
import proofs.«165553_j30348238914117_2_alg».proof.Proof.KI.Region0
import proofs.«165553_j30348238914117_2_alg».proof.Proof.Spec
import proofs.«165553_j30348238914117_2_alg».proof.Proof.LibDenseLayers
import Idealize.ShloMosaic.Lib.Pipeline.Value
import Idealize.ShloMosaic.Lib.ValueIdx
import Idealize.ShloMosaic.Lib.ValueLayout

/-!
# What the first pallas_call leaves in its output array, at the ideal values

Each grid point multiplies 512 consecutive rows of the first operand (all 1024 columns) by the whole `[1024, 3072]`
second operand; the changes of float format are the identity at the ideal values; the row blocks tile the output.  So the
output array ends as the matrix product of the two operand arrays.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

theorem hz22' : (![0, 0] : Fin 2 → Nat) = fun _ => 0 := funext fun a => by fin_cases a <;> rfl

/-- The body's value at an entry of its block: a row of the first block against a column of the second operand. -/
theorem pay0_apply (x0 : Vec Ideal S512x1024 .f32) (x1 : Vec Ideal S1024x3072 .bf16) (p : Fin 512) (q : Fin 3072) :
    k0_pay1 x0 x1 (ix2 p q) = ∑ k : Fin 1024, x0 (ix2 p k) * x1 (ix2 k q) := by
  unfold k0_pay1
  simp only [shapeCast_self]
  rw [truncf_apply]
  exact DenseLayers.matmul_rowcol_zero_apply dot_S512x1024_S1024x3072_S512x3072_1_0_0_1_n_n_wf none _ _ p q

variable (V : (c : Dev nD) → (b : Ref sig .tc) → Buf (Elt Ideal) ((c : Thread nD τ).loc b))

/-- The printed index maps over the grid: the row-block windows move together, the weight window stays. -/
theorem idx_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- WHAT POINT `t` WRITES BACK is block `t` of the product of the operand arrays as the call finds them. -/
theorem flushed0_eq (c : Dev nD) (t : Fin cfg0.N) :
    (dat0 V c).flushed 2 t = ((cfg0.win 2).blk t).view.read (Elt Ideal)
      (mm (n := 65536) (k := 1024) (m := 3072) (V c main_arg0) (V c main_v1)) := by
  show (cfg0.win 2).cut (grid0.coords t) ((dat0 V c).after 2 t) = _
  rw [after0_2]
  unfold out0_2
  rw [View.canon_unit_zero hz22']
  simp only [View.ld_unit_zero (S := S512x1024) hz22', View.ld_unit_zero (S := S1024x3072) hz22']
  obtain ⟨e0, e1, e2, e3, e4, e5⟩ := idx_facts0 t
  funext j
  obtain ⟨p, q, rfl⟩ : ∃ (p : Fin 512) (q : Fin 3072), j = ix2 p q := ⟨j 0, j 1, eq_ix2 j⟩
  show k0_pay1 (iblk0 V c 0 t) (iblk0 V c 1 t) (ix2 p q)
    = mm (n := 65536) (k := 1024) (m := 3072) (V c main_arg0) (V c main_v1) (((cfg0.win 2).blk t).view.emb (ix2 p q))
  rw [pay0_apply]
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : iblk0 V c 1 t (ix2 k q) = V c main_v1 (ix2 k ((((cfg0.win 2).blk t).view.emb (ix2 p q)) 1)) := by
    show V c main_v1 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  exact congrArg₂ (· * ·) h0 h1

/-- An index of the output array is in point `t`'s block iff each coordinate is in the block's range on its axis. -/
theorem mem_blk0 (t : Fin cfg0.N) (i : S65536x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v12).slice (win0_2.rect t)).set ↔ _
  rw [View.set_slice_whole, Rect.mem_set_unit]
  exact Iff.rfl

/-- The row blocks tile the output array: row `r` lies in the block of point `r / 512`. -/
theorem cover0 (i : S65536x3072.Idx) : ∃ t : Fin cfg0.N, (cfg0.win 2).flush t = true ∧ i ∈ ((cfg0.win 2).blk t).view.set := by
  have hi0 : (i 0).val < 65536 := (i 0).isLt
  have hi1 : (i 1).val < 3072 := (i 1).isLt
  have ht : (i 0).val / 512 < cfg0.N := by show _ < grid0.N; rw [N_0]; omega
  refine ⟨⟨(i 0).val / 512, ht⟩, flush0_2 _, ?_⟩
  rw [mem_blk0]
  obtain ⟨e0, e1, e2, e3, e4, e5⟩ := idx_facts0 ⟨(i 0).val / 512, ht⟩
  have e5' : win0_2.index ⟨(i 0).val / 512, ht⟩ (0 : Fin 2) = (i 0).val / 512 := e5
  intro a
  match a with
  | ⟨0, _⟩ => show win0_2.index ⟨(i 0).val / 512, ht⟩ (0 : Fin 2) * 512 ≤ (i 0).val ∧ (i 0).val < win0_2.index ⟨(i 0).val / 512, ht⟩ (0 : Fin 2) * 512 + 512; omega
  | ⟨1, _⟩ => show win0_2.index ⟨(i 0).val / 512, ht⟩ (1 : Fin 2) * 3072 ≤ (i 1).val ∧ (i 1).val < win0_2.index ⟨(i 0).val / 512, ht⟩ (1 : Fin 2) * 3072 + 3072; omega

/-- THE OUTPUT ARRAY after the call: the product of the operand arrays as the call finds them. -/
theorem final0 (c : Dev nD) : (dat0 V c).arrAt 2 cfg0.N
    = mm (n := 65536) (k := 1024) (m := 3072) (V c main_arg0) (V c main_v1) :=
  (dat0 V c).arrAt_eq_of_cover 2 _ (fun t _ => flushed0_eq V c t) (cover0)

end Cert.KernelIdeal.Hand

end
-- ==== Proof.KI.Value1.lean ====
import proofs.«165553_j30348238914117_2_alg».proof.Proof.KI.Region1
import proofs.«165553_j30348238914117_2_alg».proof.Proof.Spec
import proofs.«165553_j30348238914117_2_alg».proof.Proof.LibDenseLayers
import Idealize.ShloMosaic.Lib.Pipeline.Value
import Idealize.ShloMosaic.Lib.ValueIdx
import Idealize.ShloMosaic.Lib.ValueLayout

/-!
# What the second pallas_call leaves in its output array, at the ideal values

Each grid point takes 512 consecutive rows of the residual operand and of the attention operand, multiplies the latter
by the whole `[1024, 1024]` weight, adds the one-row bias to every row and the residual rows to the result.  The row
blocks tile the output, so the output array ends as `h + (attn · Wo + bias)` of the operand arrays.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

/-- A residual plus a projection with a one-row bias. -/
def projRes (h a : S65536x1024.Idx → EReal) (w : S1024x1024.Idx → EReal) (bo : S1x1024.Idx → EReal) :
    S65536x1024.Idx → EReal :=
  fun i => h i + (mm (n := 65536) (k := 1024) (m := 1024) a w i + bo (ix2 (0 : Fin 1) (i 1)))

theorem hz22'' : (![0, 0] : Fin 2 → Nat) = fun _ => 0 := funext fun a => by fin_cases a <;> rfl

/-- The body's value at an entry of its block. -/
theorem pay1_apply (x0 : Vec Ideal S512x1024 .f32) (x1 : Vec Ideal S512x1024 .bf16) (x2 : Vec Ideal S1024x1024 .bf16)
    (x3 : Vec Ideal S1x1024 .f32) (p : Fin 512) (q : Fin 1024) :
    k1_pay1 x0 x1 x2 x3 (ix2 p q)
      = x0 (ix2 p q) + ((∑ k : Fin 1024, x1 (ix2 p k) * x2 (ix2 k q)) + x3 (ix2 (0 : Fin 1) q)) := by
  unfold k1_pay1
  simp only [shapeCast_self]
  rw [addf_apply, addf_apply, broadcastTo_1b_ab_apply]
  exact congrArg₂ (· + ·) rfl (congrArg₂ (· + ·)
    (DenseLayers.matmul_rowcol_zero_apply dot_S512x1024_S1024x1024_S512x1024_1_0_0_1_n_n_wf none _ _ p q) rfl)

variable (V : (c : Dev nD) → (b : Ref sig .tc) → Buf (Elt Ideal) ((c : Thread nD τ).loc b))

/-- The printed index maps over the grid: the row-block windows move together, the whole-array windows stay. -/
theorem idx_facts1 : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val :=
  (by decide +kernel : ∀ t : Fin grid1.N, _)

/-- WHAT POINT `t` WRITES BACK is block `t` of `h + (attn · Wo + bias)` of the operand arrays as the call finds them. -/
theorem flushed1_eq (c : Dev nD) (t : Fin cfg1.N) :
    (dat1 V c).flushed 4 t = ((cfg1.win 4).blk t).view.read (Elt Ideal)
      (projRes (V c main_arg0) (V c main_v36) (V c main_v2) (V c main_v5)) := by
  show (cfg1.win 4).cut (grid1.coords t) ((dat1 V c).after 4 t) = _
  rw [after1_4]
  unfold out1_4
  rw [View.canon_unit_zero hz22'']
  simp only [View.ld_unit_zero (S := S512x1024) hz22'', View.ld_unit_zero (S := S1024x1024) hz22'',
    View.ld_unit_zero (S := S1x1024) hz22'']
  obtain ⟨e0, e1, e2, e3, e4, e5, e6, e7, e8, e9⟩ := idx_facts1 t
  funext j
  obtain ⟨p, q, rfl⟩ : ∃ (p : Fin 512) (q : Fin 1024), j = ix2 p q := ⟨j 0, j 1, eq_ix2 j⟩
  show k1_pay1 (iblk1 V c 0 t) (iblk1 V c 1 t) (iblk1 V c 2 t) (iblk1 V c 3 t) (ix2 p q)
    = projRes (V c main_arg0) (V c main_v36) (V c main_v2) (V c main_v5) (((cfg1.win 4).blk t).view.emb (ix2 p q))
  rw [pay1_apply]
  have h0 : iblk1 V c 0 t (ix2 p q) = V c main_arg0 (((cfg1.win 4).blk t).view.emb (ix2 p q)) := by
    show V c main_arg0 (((cfg1.win 0).blk t).view.emb (ix2 p q)) = _
    refine congrArg _ (funext fun a => Fin.ext ?_)
    match a with
    | ⟨0, _⟩ => show win1_0.index t (0 : Fin 2) * 512 + 1 * p.val = win1_4.index t (0 : Fin 2) * 512 + 1 * p.val; omega
    | ⟨1, _⟩ => show win1_0.index t (1 : Fin 2) * 1024 + 1 * q.val = win1_4.index t (1 : Fin 2) * 1024 + 1 * q.val; omega
  have h1 : ∀ k : Fin 1024, iblk1 V c 1 t (ix2 p k) = V c main_v36 (ix2 ((((cfg1.win 4).blk t).view.emb (ix2 p q)) 0) k) := fun k => by
    show V c main_v36 (((cfg1.win 1).blk t).view.emb (ix2 p k)) = _
    refine congrArg _ (funext fun a => Fin.ext ?_)
    match a with
    | ⟨0, _⟩ => show win1_1.index t (0 : Fin 2) * 512 + 1 * p.val = win1_4.index t (0 : Fin 2) * 512 + 1 * p.val; omega
    | ⟨1, _⟩ => show win1_1.index t (1 : Fin 2) * 1024 + 1 * k.val = k.val; omega
  have h2 : ∀ k : Fin 1024, iblk1 V c 2 t (ix2 k q) = V c main_v2 (ix2 k ((((cfg1.win 4).blk t).view.emb (ix2 p q)) 1)) := fun k => by
    show V c main_v2 (((cfg1.win 2).blk t).view.emb (ix2 k q)) = _
    refine congrArg _ (funext fun a => Fin.ext ?_)
    match a with
    | ⟨0, _⟩ => show win1_2.index t (0 : Fin 2) * 1024 + 1 * k.val = k.val; omega
    | ⟨1, _⟩ => show win1_2.index t (1 : Fin 2) * 1024 + 1 * q.val = win1_4.index t (1 : Fin 2) * 1024 + 1 * q.val; omega
  have h3 : iblk1 V c 3 t (ix2 (0 : Fin 1) q) = V c main_v5 (ix2 (0 : Fin 1) ((((cfg1.win 4).blk t).view.emb (ix2 p q)) 1)) := by
    show V c main_v5 (((cfg1.win 3).blk t).view.emb (ix2 (0 : Fin 1) q)) = _
    refine congrArg _ (funext fun a => Fin.ext ?_)
    match a with
    | ⟨0, _⟩ => show win1_3.index t (0 : Fin 2) * 1 + 1 * ((0 : Fin 1) : ℕ) = ((0 : Fin 1) : ℕ); rw [e7]; rfl
    | ⟨1, _⟩ => show win1_3.index t (1 : Fin 2) * 1024 + 1 * q.val = win1_4.index t (1 : Fin 2) * 1024 + 1 * q.val; omega
  exact congrArg₂ (· + ·) h0 (congrArg₂ (· + ·) (Finset.sum_congr rfl fun k _ => congrArg₂ (· * ·) (h1 k) (h2 k)) h3)

/-- An index of the output array is in point `t`'s block iff each coordinate is in the block's range on its axis. -/
theorem mem_blk1 (t : Fin cfg1.N) (i : S65536x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v37).slice (win1_4.rect t)).set ↔ _
  rw [View.set_slice_whole, Rect.mem_set_unit]
  exact Iff.rfl

/-- The row blocks tile the output array: row `r` lies in the block of point `r / 512`. -/
theorem cover1 (i : S65536x1024.Idx) : ∃ t : Fin cfg1.N, (cfg1.win 4).flush t = true ∧ i ∈ ((cfg1.win 4).blk t).view.set := by
  have hi0 : (i 0).val < 65536 := (i 0).isLt
  have hi1 : (i 1).val < 1024 := (i 1).isLt
  have ht : (i 0).val / 512 < cfg1.N := by show _ < grid1.N; rw [N_1]; omega
  refine ⟨⟨(i 0).val / 512, ht⟩, flush1_4 _, ?_⟩
  rw [mem_blk1]
  obtain ⟨e0, e1, e2, e3, e4, e5, e6, e7, e8, e9⟩ := idx_facts1 ⟨(i 0).val / 512, ht⟩
  have e9' : win1_4.index ⟨(i 0).val / 512, ht⟩ (0 : Fin 2) = (i 0).val / 512 := e9
  intro a
  match a with
  | ⟨0, _⟩ => show win1_4.index ⟨(i 0).val / 512, ht⟩ (0 : Fin 2) * 512 ≤ (i 0).val ∧ (i 0).val < win1_4.index ⟨(i 0).val / 512, ht⟩ (0 : Fin 2) * 512 + 512; omega
  | ⟨1, _⟩ => show win1_4.index ⟨(i 0).val / 512, ht⟩ (1 : Fin 2) * 1024 ≤ (i 1).val ∧ (i 1).val < win1_4.index ⟨(i 0).val / 512, ht⟩ (1 : Fin 2) * 1024 + 1024; omega

/-- THE OUTPUT ARRAY after the call. -/
theorem final1 (c : Dev nD) : (dat1 V c).arrAt 4 cfg1.N
    = projRes (V c main_arg0) (V c main_v36) (V c main_v2) (V c main_v5) :=
  (dat1 V c).arrAt_eq_of_cover 4 _ (fun t _ => flushed1_eq V c t) (cover1)

end Cert.KernelIdeal.Hand

end
-- ==== Proof.KI.Value3.lean ====
import proofs.«165553_j30348238914117_2_alg».proof.Proof.KI.Region3
import Idealize.ShloMosaic.Lib.Pipeline.Value
import Idealize.ShloMosaic.Lib.ValueIdx
import Idealize.ShloMosaic.Lib.ValueLayout

/-!
# What the last pallas_call leaves in its output array, at the ideal values

The call normalises its first operand column by column: with one row `mu`, `var`, `g`, `b` each, the entry at row `n`,
column `j` is `(x n j − mu j) · (var j + ε)^(−1/2) · g j + b j`.  Each grid point handles 1024 consecutive rows (all
columns), the four one-row operands are read whole at every point, and the row blocks tile the array; so the output
array ends as that one function of the five operand arrays.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- Column-wise normalisation of an `[N, 1024]` array by one-row statistics and an affine map. -/
def bnApply {N : Nat} (x : (⟨2, ![N, 1024]⟩ : Shape).Idx → EReal) (mu var g b : S1x1024.Idx → EReal) :
    (⟨2, ![N, 1024]⟩ : Shape).Idx → EReal :=
  fun i => (x i - mu (ix2 (0 : Fin 1) (i 1))) * Ideal.rsqrt (var (ix2 (0 : Fin 1) (i 1)) + Ideal.ofBits .f32 0x3727C5AC#32)
    * g (ix2 (0 : Fin 1) (i 1)) + b (ix2 (0 : Fin 1) (i 1))

theorem hz22 : (![0, 0] : Fin 2 → Nat) = fun _ => 0 := funext fun a => by fin_cases a <;> rfl

/-- The body's value at an index of its block. -/
theorem pay3_apply (x0 : Vec Ideal S1024x1024 .f32) (x1 x2 x3 x4 : Vec Ideal S1x1024 .f32) (p q : Fin 1024) :
    k3_pay1 x0 x1 x2 x3 x4 (ix2 p q)
      = (x0 (ix2 p q) - x1 (ix2 (0 : Fin 1) q)) * Ideal.rsqrt (x2 (ix2 (0 : Fin 1) q) + Ideal.ofBits .f32 0x3727C5AC#32)
        * x3 (ix2 (0 : Fin 1) q) + x4 (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-- Equal entries give equal normalised values. -/
theorem bn_point {a0 a1 a2 a3 a4 b0 b1 b2 b3 b4 : EReal} (h0 : a0 = b0) (h1 : a1 = b1) (h2 : a2 = b2) (h3 : a3 = b3) (h4 : a4 = b4) :
    (a0 - a1) * Ideal.rsqrt (a2 + Ideal.ofBits .f32 0x3727C5AC#32) * a3 + a4
      = (b0 - b1) * Ideal.rsqrt (b2 + Ideal.ofBits .f32 0x3727C5AC#32) * b3 + b4 := by
  subst h0 h1 h2 h3 h4; rfl

variable (V : (c : Dev nD) → (b : Ref sig .tc) → Buf (Elt Ideal) ((c : Thread nD τ).loc b))

/-- The printed index maps over the grid: the row-block windows move together, the one-row windows stay. -/
theorem idx_facts3 : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val :=
  (by decide +kernel : ∀ t : Fin grid3.N, _)

/-- WHAT POINT `t` WRITES BACK is block `t` of the normalisation of the operand arrays as the call finds them. -/
theorem flushed3_eq (c : Dev nD) (t : Fin cfg3.N) :
    (dat3 V c).flushed 5 t = ((cfg3.win 5).blk t).view.read (Elt Ideal)
      (bnApply (N := 65536) (V c main_v51) (V c main_v58) (V c main_v64) (V c main_v10) (V c main_v11)) := by
  show (cfg3.win 5).cut (grid3.coords t) ((dat3 V c).after 5 t) = _
  rw [after3_5]
  unfold out3_5
  rw [View.canon_unit_zero hz22]
  simp only [View.ld_unit_zero (S := S1024x1024) hz22, View.ld_unit_zero (S := S1x1024) hz22]
  obtain ⟨e0, e1, e2, e3, e4, e5, e6, e7, e8, e9, e10, e11⟩ := idx_facts3 t
  funext j
  obtain ⟨p, q, rfl⟩ : ∃ (p : Fin 1024) (q : Fin 1024), j = ix2 p q := ⟨j 0, j 1, eq_ix2 j⟩
  show k3_pay1 (iblk3 V c 0 t) (iblk3 V c 1 t) (iblk3 V c 2 t) (iblk3 V c 3 t) (iblk3 V c 4 t) (ix2 p q)
    = bnApply (N := 65536) (V c main_v51) (V c main_v58) (V c main_v64) (V c main_v10) (V c main_v11) (((cfg3.win 5).blk t).view.emb (ix2 p q))
  rw [pay3_apply]
  have h0 : iblk3 V c 0 t (ix2 p q) = V c main_v51 (((cfg3.win 5).blk t).view.emb (ix2 p q)) := by
    show V c main_v51 (((cfg3.win 0).blk t).view.emb (ix2 p q)) = _
    refine congrArg _ (funext fun a => Fin.ext ?_)
    match a with
    | ⟨0, _⟩ => show win3_0.index t (0 : Fin 2) * 1024 + 1 * p.val = win3_5.index t (0 : Fin 2) * 1024 + 1 * p.val; omega
    | ⟨1, _⟩ => show win3_0.index t (1 : Fin 2) * 1024 + 1 * q.val = win3_5.index t (1 : Fin 2) * 1024 + 1 * q.val; omega
  have h1 : iblk3 V c 1 t (ix2 (0 : Fin 1) q) = V c main_v58 (ix2 (0 : Fin 1) ((((cfg3.win 5).blk t).view.emb (ix2 p q)) 1)) := by
    show V c main_v58 (((cfg3.win 1).blk t).view.emb (ix2 (0 : Fin 1) q)) = _
    refine congrArg _ (funext fun a => Fin.ext ?_)
    match a with
    | ⟨0, _⟩ => show win3_1.index t (0 : Fin 2) * 1 + 1 * ((0 : Fin 1) : ℕ) = ((0 : Fin 1) : ℕ); rw [e3]; rfl
    | ⟨1, _⟩ => show win3_1.index t (1 : Fin 2) * 1024 + 1 * q.val = win3_5.index t (1 : Fin 2) * 1024 + 1 * q.val; omega
  have h2 : iblk3 V c 2 t (ix2 (0 : Fin 1) q) = V c main_v64 (ix2 (0 : Fin 1) ((((cfg3.win 5).blk t).view.emb (ix2 p q)) 1)) := by
    show V c main_v64 (((cfg3.win 2).blk t).view.emb (ix2 (0 : Fin 1) q)) = _
    refine congrArg _ (funext fun a => Fin.ext ?_)
    match a with
    | ⟨0, _⟩ => show win3_2.index t (0 : Fin 2) * 1 + 1 * ((0 : Fin 1) : ℕ) = ((0 : Fin 1) : ℕ); rw [e5]; rfl
    | ⟨1, _⟩ => show win3_2.index t (1 : Fin 2) * 1024 + 1 * q.val = win3_5.index t (1 : Fin 2) * 1024 + 1 * q.val; omega
  have h3 : iblk3 V c 3 t (ix2 (0 : Fin 1) q) = V c main_v10 (ix2 (0 : Fin 1) ((((cfg3.win 5).blk t).view.emb (ix2 p q)) 1)) := by
    show V c main_v10 (((cfg3.win 3).blk t).view.emb (ix2 (0 : Fin 1) q)) = _
    refine congrArg _ (funext fun a => Fin.ext ?_)
    match a with
    | ⟨0, _⟩ => show win3_3.index t (0 : Fin 2) * 1 + 1 * ((0 : Fin 1) : ℕ) = ((0 : Fin 1) : ℕ); rw [e7]; rfl
    | ⟨1, _⟩ => show win3_3.index t (1 : Fin 2) * 1024 + 1 * q.val = win3_5.index t (1 : Fin 2) * 1024 + 1 * q.val; omega
  have h4 : iblk3 V c 4 t (ix2 (0 : Fin 1) q) = V c main_v11 (ix2 (0 : Fin 1) ((((cfg3.win 5).blk t).view.emb (ix2 p q)) 1)) := by
    show V c main_v11 (((cfg3.win 4).blk t).view.emb (ix2 (0 : Fin 1) q)) = _
    refine congrArg _ (funext fun a => Fin.ext ?_)
    match a with
    | ⟨0, _⟩ => show win3_4.index t (0 : Fin 2) * 1 + 1 * ((0 : Fin 1) : ℕ) = ((0 : Fin 1) : ℕ); rw [e9]; rfl
    | ⟨1, _⟩ => show win3_4.index t (1 : Fin 2) * 1024 + 1 * q.val = win3_5.index t (1 : Fin 2) * 1024 + 1 * q.val; omega
  exact bn_point h0 h1 h2 h3 h4

/-- An index of the output array is in point `t`'s block iff each coordinate is in the block's range on its axis. -/
theorem mem_blk3 (t : Fin cfg3.N) (i : S65536x1024.Idx) :
    i ∈ ((cfg3.win 5).blk t).view.set ↔ ∀ a : Fin 2, win3_5.index t a * S1024x1024.size a ≤ (i a).val ∧ (i a).val < win3_5.index t a * S1024x1024.size a + S1024x1024.size a := by
  show i ∈ ((View.whole main_v65).slice (win3_5.rect t)).set ↔ _
  rw [View.set_slice_whole, Rect.mem_set_unit]
  exact Iff.rfl

/-- The row blocks tile the output array: row `r` lies in the block of point `r / 1024`. -/
theorem cover3 (i : S65536x1024.Idx) : ∃ t : Fin cfg3.N, (cfg3.win 5).flush t = true ∧ i ∈ ((cfg3.win 5).blk t).view.set := by
  have hi0 : (i 0).val < 65536 := (i 0).isLt
  have hi1 : (i 1).val < 1024 := (i 1).isLt
  have ht : (i 0).val / 1024 < cfg3.N := by show _ < grid3.N; rw [N_3]; omega
  refine ⟨⟨(i 0).val / 1024, ht⟩, flush3_5 _, ?_⟩
  rw [mem_blk3]
  obtain ⟨e0, e1, e2, e3, e4, e5, e6, e7, e8, e9, e10, e11⟩ := idx_facts3 ⟨(i 0).val / 1024, ht⟩
  have e11' : win3_5.index ⟨(i 0).val / 1024, ht⟩ (0 : Fin 2) = (i 0).val / 1024 := e11
  intro a
  match a with
  | ⟨0, _⟩ => show win3_5.index ⟨(i 0).val / 1024, ht⟩ (0 : Fin 2) * 1024 ≤ (i 0).val ∧ (i 0).val < win3_5.index ⟨(i 0).val / 1024, ht⟩ (0 : Fin 2) * 1024 + 1024; omega
  | ⟨1, _⟩ => show win3_5.index ⟨(i 0).val / 1024, ht⟩ (1 : Fin 2) * 1024 ≤ (i 1).val ∧ (i 1).val < win3_5.index ⟨(i 0).val / 1024, ht⟩ (1 : Fin 2) * 1024 + 1024; omega

/-- THE OUTPUT ARRAY after the call: the normalisation of the operand arrays as the call finds them. -/
theorem final3 (c : Dev nD) : (dat3 V c).arrAt 5 cfg3.N
    = bnApply (N := 65536) (V c main_v51) (V c main_v58) (V c main_v64) (V c main_v10) (V c main_v11) :=
  (dat3 V c).arrAt_eq_of_cover 5 _ (fun t _ => flushed3_eq V c t) (cover3)

end Cert.KernelIdeal.Hand

end
-- ==== Proof.KI.Value2.lean ====
import proofs.«165553_j30348238914117_2_alg».proof.Proof.KI.Region2
import proofs.«165553_j30348238914117_2_alg».proof.Proof.KI.Value3
import proofs.«165553_j30348238914117_2_alg».proof.Proof.Spec
import proofs.«165553_j30348238914117_2_alg».proof.Proof.LibDenseLayers
import Idealize.ShloMosaic.Lib.Pipeline.Value
import Idealize.ShloMosaic.Lib.ValueIdx
import Idealize.ShloMosaic.Lib.ValueLayout

/-!
# What the third pallas_call leaves in its output array, at the ideal values

Each grid point normalises 512 consecutive rows of its first operand column by column (one-row mean, variance, scale and
shift), passes them through a two-layer feed-forward block — a product with the whole `[1024, 2048]` weight plus a
one-row bias, a rectifier, a product with the whole `[2048, 1024]` weight plus a one-row bias — and adds the normalised
rows to the result.  The row blocks tile the output.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

/-- A two-layer feed-forward block with a rectifier, added to its input. -/
def ffnRes (xn : S65536x1024.Idx → EReal) (w1 : S1024x2048.Idx → EReal) (bf1 : S1x2048.Idx → EReal)
    (w2 : S2048x1024.Idx → EReal) (bf2 : S1x1024.Idx → EReal) : S65536x1024.Idx → EReal :=
  fun i => xn i + (mm (n := 65536) (k := 2048) (m := 1024)
      (fun j => max (mm (n := 65536) (k := 1024) (m := 2048) xn w1 j + bf1 (ix2 (0 : Fin 1) (j 1))) (Ideal.ofBits .f32 0x00000000#32)) w2 i
    + bf2 (ix2 (0 : Fin 1) (i 1)))

/-- The normalised entry of the block. -/
theorem pay22_apply (x0 : Vec Ideal S512x1024 .f32) (x1 x2 x3 x4 : Vec Ideal S1x1024 .f32) (p : Fin 512) (q : Fin 1024) :
    k2_pay2 x0 x1 x2 x3 x4 (ix2 p q)
      = (x0 (ix2 p q) - x1 (ix2 (0 : Fin 1) q)) * Ideal.rsqrt (x2 (ix2 (0 : Fin 1) q) + Ideal.ofBits .f32 0x3727C5AC#32)
        * x3 (ix2 (0 : Fin 1) q) + x4 (ix2 (0 : Fin 1) q) := by
  unfold k2_pay2
  simp only [shapeCast_self]
  rw [addf_apply, mulf_apply, mulf_apply, subf_apply, broadcastTo_1b_ab_apply, broadcastTo_1b_ab_apply,
    broadcastTo_1b_ab_apply, broadcastTo_1b_ab_apply]
  rfl

/-- The second product's entry: over the hidden coordinate, the rectified first product plus bias, times the weight. -/
theorem pay24_apply (x0 : Vec Ideal S512x1024 .f32) (x1 x2 x3 x4 : Vec Ideal S1x1024 .f32) (x5 : FVec Ideal S1024x2048 .bf16)
    (x6 : Vec Ideal S1x2048 .f32) (x7 : FVec Ideal S2048x1024 .bf16) (p : Fin 512) (q : Fin 1024) :
    k2_pay4 x0 x1 x2 x3 x4 x5 x6 x7 (ix2 p q)
      = ∑ k : Fin 2048, max ((∑ l : Fin 1024, k2_pay2 x0 x1 x2 x3 x4 (ix2 p l) * x5 (ix2 l k)) + x6 (ix2 (0 : Fin 1) k))
          (Ideal.ofBits .f32 0x00000000#32) * x7 (ix2 k q) := by
  unfold k2_pay4
  simp only [shapeCast_self]
  refine (DenseLayers.matmul_rowcol_zero_apply (φ₁ := .bf16) (φ₂ := .bf16) dot_S512x2048_S2048x1024_S512x1024_1_0_0_1_n_n_wf none _ x7 p q).trans ?_
  refine Finset.sum_congr rfl fun k _ => ?_
  rw [truncf_apply, maximumf_apply, addf_apply, broadcastTo_1b_ab_apply, broadcast_apply]
  exact congrArg₂ (· * ·) (congrArg₂ max (congrArg₂ (· + ·)
    (DenseLayers.matmul_rowcol_zero_apply (φ₁ := .bf16) (φ₂ := .bf16) dot_S512x1024_S1024x2048_S512x2048_1_0_0_1_n_n_wf none _ x5 p k) rfl) rfl) rfl

/-- The stored entry: the normalised entry plus the second product's plus the bias. -/
theorem pay21_apply (v20 : FVec Ideal S512x1024 .f32) (v35 : FVec Ideal S1x1024 .f32) (v36 : FVec Ideal S512x1024 .f32)
    (p : Fin 512) (q : Fin 1024) :
    k2_pay1 v20 v35 v36 (ix2 p q) = v20 (ix2 p q) + (v36 (ix2 p q) + v35 (ix2 (0 : Fin 1) q)) := by
  unfold k2_pay1
  rw [addf_apply, addf_apply, broadcastTo_1b_ab_apply]

theorem pay23_eq (x8 : Vec Ideal S1x1024 .f32) : k2_pay3 x8 = x8 := by
  unfold k2_pay3
  simp only [shapeCast_self]

variable (V : (c : Dev nD) → (b : Ref sig .tc) → Buf (Elt Ideal) ((c : Thread nD τ).loc b))

/-- The printed index maps over the grid: the row-block windows move together, the whole-array windows stay. -/
theorem idx_facts2 : ∀ t : Fin cfg2.N, win2_0.index t (0 : Fin 2) = win2_9.index t (0 : Fin 2)
    ∧ win2_0.index t (1 : Fin 2) = 0 ∧ win2_9.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val :=
  (by decide +kernel : ∀ t : Fin grid2.N, _)

set_option maxHeartbeats 2000000 in
/-- WHAT POINT `t` WRITES BACK is block `t` of the feed-forward block of the normalised operand. -/
theorem flushed2_eq (c : Dev nD) (t : Fin cfg2.N) :
    (dat2 V c).flushed 9 t = ((cfg2.win 9).blk t).view.read (Elt Ideal)
      (ffnRes (bnApply (N := 65536) (V c main_v37) (V c main_v44) (V c main_v50) (V c main_v6) (V c main_v7))
        (V c main_v3) (V c main_v8) (V c main_v4) (V c main_v9)) := by
  show (cfg2.win 9).cut (grid2.coords t) ((dat2 V c).after 9 t) = _
  rw [after2_9]
  unfold out2_9
  rw [View.canon_unit_zero hz22]
  simp only [View.ld_unit_zero (S := S512x1024) hz22, View.ld_unit_zero (S := S1x1024) hz22,
    View.ld_unit_zero (S := S1024x2048) hz22, View.ld_unit_zero (S := S1x2048) hz22, View.ld_unit_zero (S := S2048x1024) hz22]
  obtain ⟨e0, e1, e2, e3, e4, e5, e6, e7, e8, e9, e10, e11, e12, e13, e14, e15, e16, e17, e18, e19⟩ := idx_facts2 t
  funext j
  obtain ⟨p, q, rfl⟩ : ∃ (p : Fin 512) (q : Fin 1024), j = ix2 p q := ⟨j 0, j 1, eq_ix2 j⟩
  show k2_pay1 (k2_pay2 (iblk2 V c 0 t) (iblk2 V c 1 t) (iblk2 V c 2 t) (iblk2 V c 3 t) (iblk2 V c 4 t)) (k2_pay3 (iblk2 V c 8 t))
      (k2_pay4 (iblk2 V c 0 t) (iblk2 V c 1 t) (iblk2 V c 2 t) (iblk2 V c 3 t) (iblk2 V c 4 t) (iblk2 V c 5 t) (iblk2 V c 6 t) (iblk2 V c 7 t)) (ix2 p q)
    = ffnRes (bnApply (N := 65536) (V c main_v37) (V c main_v44) (V c main_v50) (V c main_v6) (V c main_v7))
        (V c main_v3) (V c main_v8) (V c main_v4) (V c main_v9) (((cfg2.win 9).blk t).view.emb (ix2 p q))
  rw [pay21_apply, pay23_eq, pay24_apply]
  have h0 : ∀ l : Fin 1024, iblk2 V c 0 t (ix2 p l) = V c main_v37 (ix2 ((((cfg2.win 9).blk t).view.emb (ix2 p q)) 0) l) := fun l => by
    show V c main_v37 (((cfg2.win 0).blk t).view.emb (ix2 p l)) = _
    refine congrArg _ (funext fun a => Fin.ext ?_)
    match a with
    | ⟨0, _⟩ => show win2_0.index t (0 : Fin 2) * 512 + 1 * p.val = win2_9.index t (0 : Fin 2) * 512 + 1 * p.val; omega
    | ⟨1, _⟩ => show win2_0.index t (1 : Fin 2) * 1024 + 1 * l.val = l.val; omega
  have h0q : iblk2 V c 0 t (ix2 p q) = V c main_v37 (((cfg2.win 9).blk t).view.emb (ix2 p q)) := by
    show V c main_v37 (((cfg2.win 0).blk t).view.emb (ix2 p q)) = _
    refine congrArg _ (funext fun a => Fin.ext ?_)
    match a with
    | ⟨0, _⟩ => show win2_0.index t (0 : Fin 2) * 512 + 1 * p.val = win2_9.index t (0 : Fin 2) * 512 + 1 * p.val; omega
    | ⟨1, _⟩ => show win2_0.index t (1 : Fin 2) * 1024 + 1 * q.val = win2_9.index t (1 : Fin 2) * 1024 + 1 * q.val; omega
  have h1 : ∀ l : Fin 1024, iblk2 V c 1 t (ix2 (0 : Fin 1) l) = V c main_v44 (ix2 (0 : Fin 1) l) := fun l => by
    show V c main_v44 (((cfg2.win 1).blk t).view.emb (ix2 (0 : Fin 1) l)) = _
    refine congrArg _ (funext fun a => Fin.ext ?_)
    match a with
    | ⟨0, _⟩ => show win2_1.index t (0 : Fin 2) * 1 + 1 * ((0 : Fin 1) : ℕ) = ((0 : Fin 1) : ℕ); rw [e3]; rfl
    | ⟨1, _⟩ => show win2_1.index t (1 : Fin 2) * 1024 + 1 * l.val = l.val; omega
  have h2 : ∀ l : Fin 1024, iblk2 V c 2 t (ix2 (0 : Fin 1) l) = V c main_v50 (ix2 (0 : Fin 1) l) := fun l => by
    show V c main_v50 (((cfg2.win 2).blk t).view.emb (ix2 (0 : Fin 1) l)) = _
    refine congrArg _ (funext fun a => Fin.ext ?_)
    match a with
    | ⟨0, _⟩ => show win2_2.index t (0 : Fin 2) * 1 + 1 * ((0 : Fin 1) : ℕ) = ((0 : Fin 1) : ℕ); rw [e5]; rfl
    | ⟨1, _⟩ => show win2_2.index t (1 : Fin 2) * 1024 + 1 * l.val = l.val; omega
  have h3 : ∀ l : Fin 1024, iblk2 V c 3 t (ix2 (0 : Fin 1) l) = V c main_v6 (ix2 (0 : Fin 1) l) := fun l => by
    show V c main_v6 (((cfg2.win 3).blk t).view.emb (ix2 (0 : Fin 1) l)) = _
    refine congrArg _ (funext fun a => Fin.ext ?_)
    match a with
    | ⟨0, _⟩ => show win2_3.index t (0 : Fin 2) * 1 + 1 * ((0 : Fin 1) : ℕ) = ((0 : Fin 1) : ℕ); rw [e7]; rfl
    | ⟨1, _⟩ => show win2_3.index t (1 : Fin 2) * 1024 + 1 * l.val = l.val; omega
  have h4 : ∀ l : Fin 1024, iblk2 V c 4 t (ix2 (0 : Fin 1) l) = V c main_v7 (ix2 (0 : Fin 1) l) := fun l => by
    show V c main_v7 (((cfg2.win 4).blk t).view.emb (ix2 (0 : Fin 1) l)) = _
    refine congrArg _ (funext fun a => Fin.ext ?_)
    match a with
    | ⟨0, _⟩ => show win2_4.index t (0 : Fin 2) * 1 + 1 * ((0 : Fin 1) : ℕ) = ((0 : Fin 1) : ℕ); rw [e9]; rfl
    | ⟨1, _⟩ => show win2_4.index t (1 : Fin 2) * 1024 + 1 * l.val = l.val; omega
  have h5 : ∀ (l : Fin 1024) (k : Fin 2048), iblk2 V c 5 t (ix2 l k) = V c main_v3 (ix2 l k) := fun l k => by
    show V c main_v3 (((cfg2.win 5).blk t).view.emb (ix2 l k)) = _
    refine congrArg _ (funext fun a => Fin.ext ?_)
    match a with
    | ⟨0, _⟩ => show win2_5.index t (0 : Fin 2) * 1024 + 1 * l.val = l.val; omega
    | ⟨1, _⟩ => show win2_5.index t (1 : Fin 2) * 2048 + 1 * k.val = k.val; omega
  have h6 : ∀ k : Fin 2048, iblk2 V c 6 t (ix2 (0 : Fin 1) k) = V c main_v8 (ix2 (0 : Fin 1) k) := fun k => by
    show V c main_v8 (((cfg2.win 6).blk t).view.emb (ix2 (0 : Fin 1) k)) = _
    refine congrArg _ (funext fun a => Fin.ext ?_)
    match a with
    | ⟨0, _⟩ => show win2_6.index t (0 : Fin 2) * 1 + 1 * ((0 : Fin 1) : ℕ) = ((0 : Fin 1) : ℕ); rw [e13]; rfl
    | ⟨1, _⟩ => show win2_6.index t (1 : Fin 2) * 2048 + 1 * k.val = k.val; omega
  have h7 : ∀ k : Fin 2048, iblk2 V c 7 t (ix2 k q) = V c main_v4 (ix2 k ((((cfg2.win 9).blk t).view.emb (ix2 p q)) 1)) := fun k => by
    show V c main_v4 (((cfg2.win 7).blk t).view.emb (ix2 k q)) = _
    refine congrArg _ (funext fun a => Fin.ext ?_)
    match a with
    | ⟨0, _⟩ => show win2_7.index t (0 : Fin 2) * 2048 + 1 * k.val = k.val; omega
    | ⟨1, _⟩ => show win2_7.index t (1 : Fin 2) * 1024 + 1 * q.val = win2_9.index t (1 : Fin 2) * 1024 + 1 * q.val; omega
  have h8 : iblk2 V c 8 t (ix2 (0 : Fin 1) q) = V c main_v9 (ix2 (0 : Fin 1) ((((cfg2.win 9).blk t).view.emb (ix2 p q)) 1)) := by
    show V c main_v9 (((cfg2.win 8).blk t).view.emb (ix2 (0 : Fin 1) q)) = _
    refine congrArg _ (funext fun a => Fin.ext ?_)
    match a with
    | ⟨0, _⟩ => show win2_8.index t (0 : Fin 2) * 1 + 1 * ((0 : Fin 1) : ℕ) = ((0 : Fin 1) : ℕ); rw [e17]; rfl
    | ⟨1, _⟩ => show win2_8.index t (1 : Fin 2) * 1024 + 1 * q.val = win2_9.index t (1 : Fin 2) * 1024 + 1 * q.val; omega
  have hq1 : ((((cfg2.win 9).blk t).view.emb (ix2 p q)) 1).val = q.val := by
    show win2_9.index t (1 : Fin 2) * 1024 + 1 * q.val = q.val; omega
  have hq : ∀ (X : S1x1024.Idx → EReal), X (ix2 (0 : Fin 1) q) = X (ix2 (0 : Fin 1) ((((cfg2.win 9).blk t).view.emb (ix2 p q)) 1)) := fun X =>
    congrArg X (funext fun a => Fin.ext (by
      match a with
      | ⟨0, _⟩ => rfl
      | ⟨1, _⟩ => exact hq1.symm))
  unfold ffnRes mm bnApply
  exact congrArg₂ (· + ·) ((pay22_apply _ _ _ _ _ p q).trans
      (bn_point h0q ((h1 q).trans (hq _)) ((h2 q).trans (hq _)) ((h3 q).trans (hq _)) ((h4 q).trans (hq _))))
    (congrArg₂ (· + ·) (Finset.sum_congr rfl fun k _ => congrArg₂ (· * ·)
      (congrArg₂ max (congrArg₂ (· + ·) (Finset.sum_congr rfl fun l _ => congrArg₂ (· * ·)
        ((pay22_apply _ _ _ _ _ p l).trans (bn_point (h0 l) (h1 l) (h2 l) (h3 l) (h4 l))) (h5 l k)) (h6 k)) rfl) (h7 k)) h8)

/-- An index of the output array is in point `t`'s block iff each coordinate is in the block's range on its axis. -/
theorem mem_blk2 (t : Fin cfg2.N) (i : S65536x1024.Idx) :
    i ∈ ((cfg2.win 9).blk t).view.set ↔ ∀ a : Fin 2, win2_9.index t a * S512x1024.size a ≤ (i a).val ∧ (i a).val < win2_9.index t a * S512x1024.size a + S512x1024.size a := by
  show i ∈ ((View.whole main_v51).slice (win2_9.rect t)).set ↔ _
  rw [View.set_slice_whole, Rect.mem_set_unit]
  exact Iff.rfl

/-- The row blocks tile the output array: row `r` lies in the block of point `r / 512`. -/
theorem cover2 (i : S65536x1024.Idx) : ∃ t : Fin cfg2.N, (cfg2.win 9).flush t = true ∧ i ∈ ((cfg2.win 9).blk t).view.set := by
  have hi0 : (i 0).val < 65536 := (i 0).isLt
  have hi1 : (i 1).val < 1024 := (i 1).isLt
  have ht : (i 0).val / 512 < cfg2.N := by show _ < grid2.N; rw [N_2]; omega
  refine ⟨⟨(i 0).val / 512, ht⟩, flush2_9 _, ?_⟩
  rw [mem_blk2]
  obtain ⟨e0, e1, e2, e3, e4, e5, e6, e7, e8, e9, e10, e11, e12, e13, e14, e15, e16, e17, e18, e19⟩ := idx_facts2 ⟨(i 0).val / 512, ht⟩
  have e19' : win2_9.index ⟨(i 0).val / 512, ht⟩ (0 : Fin 2) = (i 0).val / 512 := e19
  intro a
  match a with
  | ⟨0, _⟩ => show win2_9.index ⟨(i 0).val / 512, ht⟩ (0 : Fin 2) * 512 ≤ (i 0).val ∧ (i 0).val < win2_9.index ⟨(i 0).val / 512, ht⟩ (0 : Fin 2) * 512 + 512; omega
  | ⟨1, _⟩ => show win2_9.index ⟨(i 0).val / 512, ht⟩ (1 : Fin 2) * 1024 ≤ (i 1).val ∧ (i 1).val < win2_9.index ⟨(i 0).val / 512, ht⟩ (1 : Fin 2) * 1024 + 1024; omega

/-- THE OUTPUT ARRAY after the call. -/
theorem final2 (c : Dev nD) : (dat2 V c).arrAt 9 cfg2.N
    = ffnRes (bnApply (N := 65536) (V c main_v37) (V c main_v44) (V c main_v50) (V c main_v6) (V c main_v7))
        (V c main_v3) (V c main_v8) (V c main_v4) (V c main_v9) :=
  (dat2 V c).arrAt_eq_of_cover 9 _ (fun t _ => flushed2_eq V c t) (cover2)

end Cert.KernelIdeal.Hand

end
-- ==== Proof.LibNaryThree.lean ====
/-
  A host operation over a literal family of THREE references — a concatenation of three arrays — read at its result.

  Run over a valuation `F`, an `n`-ary operation's result is its function applied to `fun k => F (xs k)`: the operands'
  contents under a binder. When the operands are themselves results of earlier operations, nothing can go on rewriting
  `F (xs k)` there, because `xs k` is not a literal reference. For a literal family of three the function's argument is
  the same family written out, each operand's contents at its own reference (`Fin.cons` three times), and every one of
  them can be rewritten further. The library states this for four operands; this is the statement for three, with the
  form a `simp` pass can use (the result's reference un-indexed, as the library's primed lemmas are), and the one-pass
  tactic over the library's result lemmas with it in place of the binder form. Also: a line of operations split in two runs as
  its first part and then its second (`after_append`), so that the part before such an operation can be read on its own.
-/
import Idealize.ShloMosaic.Lib.StableHlo.Run

noncomputable section

namespace Idealize.ShloMosaic.StableHlo.NaryThree

open Idealize.ShloMosaic Idealize.ShloMosaic.StableHlo

variable {nD : Nat} {τ : Topo} {sig : RefSig} {Val : EltTy → Type} {x a b y : Ref sig .tc}

/-- The result of an operation over the literal family `![x, a, b]`: its function of the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result's reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The buffers after two lines of operations run one after the other: the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo.NaryThree

namespace Idealize.ShloMosaic.StableHlo

/-- The buffers after a line of host operations, by one `simp` pass over the result lemmas, a three- or four-operand
    operation's operands written out so that the pass goes on into them. -/
macro "after_results_simp3" : tactic =>
  `(tactic| (simp (disch := decide) only [after_cons, after_nil,
      nullary_result', unary_result', binary_result', ternary_result', quaternary_result', reshape_result', nary4_result',
      Idealize.ShloMosaic.StableHlo.NaryThree.nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.Chain.lean ====
import proofs.«165553_j30348238914117_2_alg».proof.Proof.KI.Run
import proofs.«165553_j30348238914117_2_alg».proof.Proof.KI.Value0
import proofs.«165553_j30348238914117_2_alg».proof.Proof.KI.Value1
import proofs.«165553_j30348238914117_2_alg».proof.Proof.KI.Value2
import proofs.«165553_j30348238914117_2_alg».proof.Proof.KI.Value3
import proofs.«165553_j30348238914117_2_alg».proof.Proof.LibNaryThree

/-!
# The kernel's result as one nested function of its argument arrays

Reading the fold of the buffer contents backwards from the result: the last pallas_call normalises the third call's
output by statistics the fourth host stretch computes from it; the third call's output is the feed-forward block of the
second call's output normalised by statistics the third stretch computes from it; the second call's output is the
residual plus the projection of what the second stretch (the attention between the heads of a node) makes of the first
call's output; the first call's output is the product of the first argument with the three projection weights side by
side, as the first stretch lays them out.  Every stretch's result is named as a function of the one array it reads, so a
value read several times is written once.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo
open Idealize.SL Idealize.SL.Sem

/-! ## The host stretches' results, each as a function of the array it reads -/

/-- The one-row column means as the kernel's host code computes them: the column sums times `2⁻¹⁶`. -/
def kMean (x : FVec Ideal S65536x1024 .f32) : FVec Ideal S1x1024 .f32 :=
  mulf (broadcastInDim S1x1024 ![1] bcast_S1024_S1x1024_1
      (Host.reduceAdd x (constant (F := Ideal) S_ .f32 0x00000000#32) reducesTo_S65536x1024_S1024_d0 h_S_))
    (broadcastInDim S1x1024 ![] bcast_S_S1x1024 (constant (F := Ideal) S_ .f32 0x37800000#32))

/-- The one-row column variances as the kernel's host code computes them: the mean of the squares less the squared
    mean, clamped at zero. -/
def kVar (x : FVec Ideal S65536x1024 .f32) : FVec Ideal S1x1024 .f32 :=
  maximumf (subf
      (mulf (broadcastInDim S1x1024 ![1] bcast_S1024_S1x1024_1
          (Host.reduceAdd (mulf x x) (constant (F := Ideal) S_ .f32 0x00000000#32) reducesTo_S65536x1024_S1024_d0 h_S_))
        (broadcastInDim S1x1024 ![] bcast_S_S1x1024 (constant (F := Ideal) S_ .f32 0x37800000#32)))
      (mulf (kMean x) (kMean x)))
    (broadcastInDim S1x1024 ![] bcast_S_S1x1024 (constant (F := Ideal) S_ .f32 0x00000000#32))

theorem mean_of_stretch2 (W : Valuation τ sig (Elt Ideal)) :
    after (hostOps2 (F := Ideal)) W (Proc.devRef .tc main_v44) = kMean (W (Proc.devRef .tc main_v37)) := by
  after_results; rfl
theorem var_of_stretch2 (W : Valuation τ sig (Elt Ideal)) :
    after (hostOps2 (F := Ideal)) W (Proc.devRef .tc main_v50) = kVar (W (Proc.devRef .tc main_v37)) := by
  after_results; rfl
theorem mean_of_stretch3 (W : Valuation τ sig (Elt Ideal)) :
    after (hostOps3 (F := Ideal)) W (Proc.devRef .tc main_v58) = kMean (W (Proc.devRef .tc main_v51)) := by
  after_results; rfl
theorem var_of_stretch3 (W : Valuation τ sig (Elt Ideal)) :
    after (hostOps3 (F := Ideal)) W (Proc.devRef .tc main_v64) = kVar (W (Proc.devRef .tc main_v51)) := by
  after_results; rfl

/-- The softmax over the last axis of the scores, as the host code spells it. -/
def smax (s : FVec Ideal S65536x16x16 .f32) : FVec Ideal S65536x16x16 .f32 :=
  Host.divf
    (Host.exp (subf s (broadcastInDim S65536x16x16 ![0, 1, 2] bcast_S65536x16x1_S65536x16x16_0_1_2
      (broadcastInDim S65536x16x1 ![0, 1] bcast_S65536x16_S65536x16x1_0_1
        (maximumf (broadcastInDim S65536x16 ![] bcast_S_S65536x16 (constant (F := Ideal) S_ .f32 0xFF800000#32))
          (Host.reduce FloatOps.maximumf s (constant (F := Ideal) S_ .f32 0xFF800000#32) reducesTo_S65536x16x16_S65536x16_d2 h_S_))))))
    (broadcastInDim S65536x16x16 ![0, 1, 2] bcast_S65536x16x1_S65536x16x16_0_1_2
      (broadcastInDim S65536x16x1 ![0, 1] bcast_S65536x16_S65536x16x1_0_1
        (Host.reduceAdd
          (Host.exp (subf s (broadcastInDim S65536x16x16 ![0, 1, 2] bcast_S65536x16x1_S65536x16x16_0_1_2
            (broadcastInDim S65536x16x1 ![0, 1] bcast_S65536x16_S65536x16x1_0_1
              (maximumf (broadcastInDim S65536x16 ![] bcast_S_S65536x16 (constant (F := Ideal) S_ .f32 0xFF800000#32))
                (Host.reduce FloatOps.maximumf s (constant (F := Ideal) S_ .f32 0xFF800000#32) reducesTo_S65536x16x16_S65536x16_d2 h_S_))))))
          (constant (F := Ideal) S_ .f32 0x00000000#32) reducesTo_S65536x16x16_S65536x16_d2 h_S_)))

/-- The attention between the sixteen heads of each node, from queries, keys and values and a scaling of the scores. -/
def attnOf (q k v : FVec Ideal S65536x16x64 .f32) (scale : FVec Ideal S65536x16x16 .f32 → FVec Ideal S65536x16x16 .f32) :
    FVec Ideal S65536x1024 .f32 :=
  shapeCast S65536x1024
    (Host.dotGeneral dot_S65536x16x16_S65536x16x64_S65536x16x64_2_1_1_2_0_0 none
      (smax (scale (Host.dotGeneral dot_S65536x16x64_S65536x16x64_S65536x16x16_2_2_1_1_0_0 none q k))) v)
    shapeCasts_S65536x16x64_S65536x1024

/-- The three column blocks of the first call's output, each as sixteen heads of width 64. -/
def headsAt (off : Fin 2 → Nat) (h : S65536x3072.Slices off S65536x1024) (qkv : FVec Ideal S65536x3072 .f32) : FVec Ideal S65536x16x64 .f32 :=
  shapeCast S65536x16x64 (extractStridedSlice S65536x1024 off qkv h) shapeCasts_S65536x1024_S65536x16x64

/-- What the second stretch makes of the first call's output. -/
def kAttn (qkv : FVec Ideal S65536x3072 .f32) : FVec Ideal S65536x1024 .f32 :=
  attnOf (headsAt ![0, 0] slices_S65536x3072_S65536x1024_0_0 qkv) (headsAt ![0, 1024] slices_S65536x3072_S65536x1024_0_1024 qkv)
    (headsAt ![0, 2048] slices_S65536x3072_S65536x1024_0_2048 qkv)
    (fun s => mulf s (broadcastInDim S65536x16x16 ![] bcast_S_S65536x16x16 (constant (F := Ideal) S_ .f32 0x3E000000#32)))

set_option maxHeartbeats 4000000 in
theorem attn_of_stretch1 (W : Valuation τ sig (Elt Ideal)) :
    after (hostOps1 (F := Ideal)) W (Proc.devRef .tc main_v36) = kAttn (W (Proc.devRef .tc main_v12)) := by
  after_results_simp; rfl

/-- The three projection weights side by side, as the first stretch lays them out. -/
def kWcat (wq wk wv : FVec Ideal S1024x1024 .f32) : FVec Ideal S1024x3072 .f32 :=
  concatenate S1024x3072 1 [⟨S1024x1024, wq⟩, ⟨S1024x1024, wk⟩, ⟨S1024x1024, wv⟩] concatenates_S1024x1024_S1024x1024_S1024x1024_S1024x3072_d1

theorem wcat_of_stretch0 (W : Valuation τ sig (Elt Ideal)) :
    after (hostOps0 (F := Ideal)) W (Proc.devRef .tc main_v1)
      = kWcat (W (Proc.devRef .tc main_arg1)) (W (Proc.devRef .tc main_arg2)) (W (Proc.devRef .tc main_arg3)) := by
  after_results_simp3; rfl

/-- A one-row copy of a vector. -/
def row1024 (v : FVec Ideal S1024 .f32) : FVec Ideal S1x1024 .f32 := shapeCast S1x1024 v shapeCasts_S1024_S1x1024
def row2048 (v : FVec Ideal S2048 .f32) : FVec Ideal S1x2048 .f32 := shapeCast S1x2048 v shapeCasts_S2048_S1x2048

theorem stretch0_v2 (W : Valuation τ sig (Elt Ideal)) : after (hostOps0 (F := Ideal)) W (Proc.devRef .tc main_v2) = W (Proc.devRef .tc main_arg4) := by
  after_results_simp3; rfl
theorem stretch0_v3 (W : Valuation τ sig (Elt Ideal)) : after (hostOps0 (F := Ideal)) W (Proc.devRef .tc main_v3) = W (Proc.devRef .tc main_arg8) := by
  after_results_simp3; rfl
theorem stretch0_v4 (W : Valuation τ sig (Elt Ideal)) : after (hostOps0 (F := Ideal)) W (Proc.devRef .tc main_v4) = W (Proc.devRef .tc main_arg10) := by
  after_results_simp3; rfl
theorem stretch0_v5 (W : Valuation τ sig (Elt Ideal)) : after (hostOps0 (F := Ideal)) W (Proc.devRef .tc main_v5) = row1024 (W (Proc.devRef .tc main_arg5)) := by
  after_results_simp3; rfl
theorem stretch0_v6 (W : Valuation τ sig (Elt Ideal)) : after (hostOps0 (F := Ideal)) W (Proc.devRef .tc main_v6) = row1024 (W (Proc.devRef .tc main_arg6)) := by
  after_results_simp3; rfl
theorem stretch0_v7 (W : Valuation τ sig (Elt Ideal)) : after (hostOps0 (F := Ideal)) W (Proc.devRef .tc main_v7) = row1024 (W (Proc.devRef .tc main_arg7)) := by
  after_results_simp3; rfl
theorem stretch0_v8 (W : Valuation τ sig (Elt Ideal)) : after (hostOps0 (F := Ideal)) W (Proc.devRef .tc main_v8) = row2048 (W (Proc.devRef .tc main_arg9)) := by
  after_results_simp3; rfl
theorem stretch0_v9 (W : Valuation τ sig (Elt Ideal)) : after (hostOps0 (F := Ideal)) W (Proc.devRef .tc main_v9) = row1024 (W (Proc.devRef .tc main_arg11)) := by
  after_results_simp3; rfl
theorem stretch0_v10 (W : Valuation τ sig (Elt Ideal)) : after (hostOps0 (F := Ideal)) W (Proc.devRef .tc main_v10) = row1024 (W (Proc.devRef .tc main_arg12)) := by
  after_results_simp3; rfl
theorem stretch0_v11 (W : Valuation τ sig (Elt Ideal)) : after (hostOps0 (F := Ideal)) W (Proc.devRef .tc main_v11) = row1024 (W (Proc.devRef .tc main_arg13)) := by
  after_results_simp3; rfl

end Cert.KernelIdeal.Hand

end
-- ==== Proof.KI.Result.lean ====
import proofs.«165553_j30348238914117_2_alg».proof.Proof.KI.Chain

/-!
# The kernel's result array, closed

The contents of the result buffer at the last boundary, read back through the four pallas_calls and the host stretches to
the launch memory: one nested function of the fourteen argument arrays.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo
open Idealize.SL Idealize.SL.Sem

/-- The attention's output projected, with bias, added to the node rows. -/
def kX1 (h : FVec Ideal S65536x1024 .f32) (wq wk wv wo : FVec Ideal S1024x1024 .f32) (bo : FVec Ideal S1024 .f32) :
    FVec Ideal S65536x1024 .f32 :=
  projRes h (kAttn (mm (n := 65536) (k := 1024) (m := 3072) h (kWcat wq wk wv))) wo (row1024 bo)

/-- Column-wise normalisation by the kernel's statistics, then the affine map. -/
def kNorm (x : FVec Ideal S65536x1024 .f32) (g b : FVec Ideal S1024 .f32) : FVec Ideal S65536x1024 .f32 :=
  bnApply (N := 65536) x (kMean x) (kVar x) (row1024 g) (row1024 b)

/-- The feed-forward block of the normalised rows, added to them. -/
def kX2 (x1 : FVec Ideal S65536x1024 .f32) (g1 b1 : FVec Ideal S1024 .f32) (w1 : FVec Ideal S1024x2048 .f32)
    (bf1 : FVec Ideal S2048 .f32) (w2 : FVec Ideal S2048x1024 .f32) (bf2 : FVec Ideal S1024 .f32) : FVec Ideal S65536x1024 .f32 :=
  ffnRes (kNorm x1 g1 b1) w1 (row2048 bf1) w2 (row1024 bf2)

variable (m : (ℓ : Loc nD τ sig) → Buf (Elt Ideal) ℓ) (ρ : Dev nD → PrngReg)

/-! ## What passes through untouched -/

theorem pass7 (c : Dev nD) (r : Ref sig .tc) (h3 : r ∉ hostOps3_W) (h2 : r ∉ hostOps2_W) (h1 : r ∉ hostOps1_W)
    (n2 : ∀ w, Pipeline.arrRef spec2 w ≠ r) (n1 : ∀ w, Pipeline.arrRef spec1 w ≠ r) (n0 : ∀ w, Pipeline.arrRef spec0 w ≠ r) :
    W7 m ρ c (Proc.devRef .tc r) = W1 m ρ c (Proc.devRef .tc r) :=
  (W7_of m ρ c r h3).trans <| (W6_of_ne m ρ c r n2).trans <| (W5_of m ρ c r h2).trans <| (W4_of_ne m ρ c r n1).trans <|
    (W3_of m ρ c r h1).trans (W2_of_ne m ρ c r n0)
theorem pass5 (c : Dev nD) (r : Ref sig .tc) (h2 : r ∉ hostOps2_W) (h1 : r ∉ hostOps1_W)
    (n1 : ∀ w, Pipeline.arrRef spec1 w ≠ r) (n0 : ∀ w, Pipeline.arrRef spec0 w ≠ r) :
    W5 m ρ c (Proc.devRef .tc r) = W1 m ρ c (Proc.devRef .tc r) :=
  (W5_of m ρ c r h2).trans <| (W4_of_ne m ρ c r n1).trans <| (W3_of m ρ c r h1).trans (W2_of_ne m ρ c r n0)
theorem pass3 (c : Dev nD) (r : Ref sig .tc) (h1 : r ∉ hostOps1_W) (n0 : ∀ w, Pipeline.arrRef spec0 w ≠ r) :
    W3 m ρ c (Proc.devRef .tc r) = W1 m ρ c (Proc.devRef .tc r) :=
  (W3_of m ρ c r h1).trans (W2_of_ne m ρ c r n0)

/-! ## The four outputs, innermost first -/

/-- The first call's output: the node rows times the three weights side by side. -/
theorem out0_eq (c : Dev nD) : W2 m ρ c (Proc.devRef .tc main_v12)
    = mm (n := 65536) (k := 1024) (m := 3072) (m ((c : Thread nD τ).loc main_arg0))
        (kWcat (m ((c : Thread nD τ).loc main_arg1)) (m ((c : Thread nD τ).loc main_arg2)) (m ((c : Thread nD τ).loc main_arg3))) := by
  have e := (W2_arr m ρ c 2).trans (final0 (V1 m ρ) c)
  have a0 : V1 m ρ c main_arg0 = m ((c : Thread nD τ).loc main_arg0) := W1_of m ρ c main_arg0 (by decide)
  have a1 : V1 m ρ c main_v1 = kWcat (m ((c : Thread nD τ).loc main_arg1)) (m ((c : Thread nD τ).loc main_arg2)) (m ((c : Thread nD τ).loc main_arg3)) :=
    wcat_of_stretch0 (W0 m ρ c)
  rw [a0, a1] at e
  exact e

/-- The second call's output. -/
theorem out1_eq (c : Dev nD) : W4 m ρ c (Proc.devRef .tc main_v37)
    = kX1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have e := (W4_arr m ρ c 4).trans (final1 (V3 m ρ) c)
  have a0 : V3 m ρ c main_arg0 = m ((c : Thread nD τ).loc main_arg0) :=
    (W3_of m ρ c main_arg0 (by decide)).trans <| (W2_in m ρ c 0 rfl).trans (W1_of m ρ c main_arg0 (by decide))
  have a1 : V3 m ρ c main_v36 = kAttn (W2 m ρ c (Proc.devRef .tc main_v12)) := attn_of_stretch1 (W2 m ρ c)
  have a2 : V3 m ρ c main_v2 = m ((c : Thread nD τ).loc main_arg4) :=
    (pass3 m ρ c main_v2 (by decide) (by decide)).trans (stretch0_v2 (W0 m ρ c))
  have a3 : V3 m ρ c main_v5 = row1024 (m ((c : Thread nD τ).loc main_arg5)) :=
    (pass3 m ρ c main_v5 (by decide) (by decide)).trans (stretch0_v5 (W0 m ρ c))
  rw [a0, a1, a2, a3, out0_eq] at e
  exact e

/-- The third call's output. -/
theorem out2_eq (c : Dev nD) : W6 m ρ c (Proc.devRef .tc main_v51)
    = kX2 (W4 m ρ c (Proc.devRef .tc main_v37)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  have e := (W6_arr m ρ c 9).trans (final2 (V5 m ρ) c)
  have a0 : V5 m ρ c main_v37 = W4 m ρ c (Proc.devRef .tc main_v37) := W5_of m ρ c main_v37 (by decide)
  have a1 : V5 m ρ c main_v44 = kMean (W4 m ρ c (Proc.devRef .tc main_v37)) := mean_of_stretch2 (W4 m ρ c)
  have a2 : V5 m ρ c main_v50 = kVar (W4 m ρ c (Proc.devRef .tc main_v37)) := var_of_stretch2 (W4 m ρ c)
  have a3 : V5 m ρ c main_v6 = row1024 (m ((c : Thread nD τ).loc main_arg6)) :=
    (pass5 m ρ c main_v6 (by decide) (by decide) (by decide) (by decide)).trans (stretch0_v6 (W0 m ρ c))
  have a4 : V5 m ρ c main_v7 = row1024 (m ((c : Thread nD τ).loc main_arg7)) :=
    (pass5 m ρ c main_v7 (by decide) (by decide) (by decide) (by decide)).trans (stretch0_v7 (W0 m ρ c))
  have a5 : V5 m ρ c main_v3 = m ((c : Thread nD τ).loc main_arg8) :=
    (pass5 m ρ c main_v3 (by decide) (by decide) (by decide) (by decide)).trans (stretch0_v3 (W0 m ρ c))
  have a6 : V5 m ρ c main_v8 = row2048 (m ((c : Thread nD τ).loc main_arg9)) :=
    (pass5 m ρ c main_v8 (by decide) (by decide) (by decide) (by decide)).trans (stretch0_v8 (W0 m ρ c))
  have a7 : V5 m ρ c main_v4 = m ((c : Thread nD τ).loc main_arg10) :=
    (pass5 m ρ c main_v4 (by decide) (by decide) (by decide) (by decide)).trans (stretch0_v4 (W0 m ρ c))
  have a8 : V5 m ρ c main_v9 = row1024 (m ((c : Thread nD τ).loc main_arg11)) :=
    (pass5 m ρ c main_v9 (by decide) (by decide) (by decide) (by decide)).trans (stretch0_v9 (W0 m ρ c))
  rw [a0, a1, a2, a3, a4, a5, a6, a7, a8] at e
  exact e

/-- THE KERNEL'S RESULT: the last call's output. -/
theorem kernel_result (c : Dev nD) : W8 m ρ c (Proc.devRef .tc main_v65)
    = kNorm (W6 m ρ c (Proc.devRef .tc main_v51)) (m ((c : Thread nD τ).loc main_arg12)) (m ((c : Thread nD τ).loc main_arg13)) := by
  have e := (W8_arr m ρ c 5).trans (final3 (V7 m ρ) c)
  have a0 : V7 m ρ c main_v51 = W6 m ρ c (Proc.devRef .tc main_v51) := W7_of m ρ c main_v51 (by decide)
  have a1 : V7 m ρ c main_v58 = kMean (W6 m ρ c (Proc.devRef .tc main_v51)) := mean_of_stretch3 (W6 m ρ c)
  have a2 : V7 m ρ c main_v64 = kVar (W6 m ρ c (Proc.devRef .tc main_v51)) := var_of_stretch3 (W6 m ρ c)
  have a3 : V7 m ρ c main_v10 = row1024 (m ((c : Thread nD τ).loc main_arg12)) :=
    (pass7 m ρ c main_v10 (by decide) (by decide) (by decide) (by decide) (by decide) (by decide)).trans (stretch0_v10 (W0 m ρ c))
  have a4 : V7 m ρ c main_v11 = row1024 (m ((c : Thread nD τ).loc main_arg13)) :=
    (pass7 m ρ c main_v11 (by decide) (by decide) (by decide) (by decide) (by decide) (by decide)).trans (stretch0_v11 (W0 m ρ c))
  rw [a0, a1, a2, a3, a4] at e
  exact e

end Cert.KernelIdeal.Hand

end
-- ==== Proof.RefChain.lean ====
import proofs.«165553_j30348238914117_2_alg».proof.Proof.RefRunP
import Idealize.ShloMosaic.PureOps.Ideal

/-!
# The reference's result as one nested function of its argument arrays

The reference's line of host operations is cut into four stretches — the attention with the output projection and the
residual; the first normalisation; the feed-forward block with its residual; the second normalisation — and each
stretch's result is named as a function of the arrays it reads, so that a value read several times is written once.
-/

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

/-- The four stretches of the reference's operations, in order. -/
abbrev opsA : List (HloOp τ sig (Elt F)) :=
  [ binary main_arg0 main_arg1 main_v0 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v0 main_v1 rfl shapeCasts_S65536x1024_S65536x16x64,
    binary main_arg0 main_arg2 main_v2 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v2 main_v3 rfl shapeCasts_S65536x1024_S65536x16x64,
    binary main_arg0 main_arg3 main_v4 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    reshape main_v4 main_v5 rfl shapeCasts_S65536x1024_S65536x16x64,
    binary main_v1 main_v3 main_v6 ((fun l r => Host.dotGeneral dot_S65536x16x64_S65536x16x64_S65536x16x16_2_2_1_1_0_0 none l r) : (⟨S65536x16x64, .f32⟩ : BufTy).Contents (Elt F) → (⟨S65536x16x64, .f32⟩ : BufTy).Contents (Elt F) → (⟨S65536x16x16, .f32⟩ : BufTy).Contents (Elt F)),
    nullary main_cst (constant S_ .f32 0x41000000#32),
    unary main_cst main_v7 (broadcastInDim S65536x16x16 ![] bcast_S_S65536x16x16 : (⟨S_, .f32⟩ : BufTy).Contents (Elt F) → (⟨S65536x16x16, .f32⟩ : BufTy).Contents (Elt F)),
    binary main_v6 main_v7 main_v8 (Host.divf : (⟨S65536x16x16, .f32⟩ : BufTy).Contents (Elt F) → (⟨S65536x16x16, .f32⟩ : BufTy).Contents (Elt F) → (⟨S65536x16x16, .f32⟩ : BufTy).Contents (Elt F)),
    nullary main_cst_0 (constant S_ .f32 0xFF800000#32),
    binary main_v8 main_cst_0 main_v9 ((fun x v => Host.reduce FloatOps.maximumf x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F)),
    nullary main_cst_1 (constant S_ .f32 0xFF800000#32),
    unary main_cst_1 main_v10 (broadcastInDim S65536x16 ![] bcast_S_S65536x16 : (⟨S_, .f32⟩ : BufTy).Contents (Elt F) → (⟨S65536x16, .f32⟩ : BufTy).Contents (Elt F)),
    binary main_v10 main_v9 main_v11 (maximumf : (⟨S65536x16, .f32⟩ : BufTy).Contents (Elt F) → (⟨S65536x16, .f32⟩ : BufTy).Contents (Elt F) → (⟨S65536x16, .f32⟩ : BufTy).Contents (Elt F)),
    unary main_v11 main_v12 (broadcastInDim S65536x16x1 ![0, 1] bcast_S65536x16_S65536x16x1_0_1 : (⟨S65536x16, .f32⟩ : BufTy).Contents (Elt F) → (⟨S65536x16x1, .f32⟩ : BufTy).Contents (Elt F)),
    unary main_v12 main_v13 (broadcastInDim S65536x16x16 ![0, 1, 2] bcast_S65536x16x1_S65536x16x16_0_1_2 : (⟨S65536x16x1, .f32⟩ : BufTy).Contents (Elt F) → (⟨S65536x16x16, .f32⟩ : BufTy).Contents (Elt F)),
    binary main_v8 main_v13 main_v14 (subf : (⟨S65536x16x16, .f32⟩ : BufTy).Contents (Elt F) → (⟨S65536x16x16, .f32⟩ : BufTy).Contents (Elt F) → (⟨S65536x16x16, .f32⟩ : BufTy).Contents (Elt F)),
    unary main_v14 main_v15 (Host.exp : (⟨S65536x16x16, .f32⟩ : BufTy).Contents (Elt F) → (⟨S65536x16x16, .f32⟩ : BufTy).Contents (Elt F)),
    nullary main_cst_2 (constant S_ .f32 0x00000000#32),
    binary main_v15 main_cst_2 main_v16 ((fun x v => Host.reduceAdd x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F)),
    unary main_v16 main_v17 (broadcastInDim S65536x16x1 ![0, 1] bcast_S65536x16_S65536x16x1_0_1 : (⟨S65536x16, .f32⟩ : BufTy).Contents (Elt F) → (⟨S65536x16x1, .f32⟩ : BufTy).Contents (Elt F)),
    unary main_v17 main_v18 (broadcastInDim S65536x16x16 ![0, 1, 2] bcast_S65536x16x1_S65536x16x16_0_1_2 : (⟨S65536x16x1, .f32⟩ : BufTy).Contents (Elt F) → (⟨S65536x16x16, .f32⟩ : BufTy).Contents (Elt F)),
    binary main_v15 main_v18 main_v19 (Host.divf : (⟨S65536x16x16, .f32⟩ : BufTy).Contents (Elt F) → (⟨S65536x16x16, .f32⟩ : BufTy).Contents (Elt F) → (⟨S65536x16x16, .f32⟩ : BufTy).Contents (Elt F)),
    binary main_v19 main_v5 main_v20 ((fun l r => Host.dotGeneral dot_S65536x16x16_S65536x16x64_S65536x16x64_2_1_1_2_0_0 none l r) : (⟨S65536x16x16, .f32⟩ : BufTy).Contents (Elt F) → (⟨S65536x16x64, .f32⟩ : BufTy).Contents (Elt F) → (⟨S65536x16x64, .f32⟩ : BufTy).Contents (Elt F)),
    reshape main_v20 main_v21 rfl shapeCasts_S65536x16x64_S65536x1024,
    binary main_v21 main_arg4 main_v22 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_arg5 main_v23 (broadcastInDim S1x1024 ![1] bcast_S1024_S1x1024_1 : (⟨S1024, .f32⟩ : BufTy).Contents (Elt F) → (⟨S1x1024, .f32⟩ : BufTy).Contents (Elt F)),
    unary main_v23 main_v24 (broadcastInDim S65536x1024 ![0, 1] bcast_S1x1024_S65536x1024_0_1 : (⟨S1x1024, .f32⟩ : BufTy).Contents (Elt F) → (⟨S65536x1024, .f32⟩ : BufTy).Contents (Elt F)),
    binary main_v22 main_v24 main_v25 (addf : (⟨S65536x1024, .f32⟩ : BufTy).Contents (Elt F) → (⟨S65536x1024, .f32⟩ : BufTy).Contents (Elt F) → (⟨S65536x1024, .f32⟩ : BufTy).Contents (Elt F)),
    binary main_arg0 main_v25 main_v26 (addf : (⟨S65536x1024, .f32⟩ : BufTy).Contents (Elt F) → (⟨S65536x1024, .f32⟩ : BufTy).Contents (Elt F) → (⟨S65536x1024, .f32⟩ : BufTy).Contents (Elt F)) ]
abbrev opsB : List (HloOp τ sig (Elt F)) :=
  [ nullary main_cst_3 (constant S_ .f32 0x00000000#32),
    binary main_v26 main_cst_3 main_v27 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_4 (constant S_ .f32 0x47800000#32),
    unary main_cst_4 main_v28 (broadcastInDim S1024 ![] bcast_S_S1024 : (⟨S_, .f32⟩ : BufTy).Contents (Elt F) → (⟨S1024, .f32⟩ : BufTy).Contents (Elt F)),
    binary main_v27 main_v28 main_v29 (Host.divf : (⟨S1024, .f32⟩ : BufTy).Contents (Elt F) → (⟨S1024, .f32⟩ : BufTy).Contents (Elt F) → (⟨S1024, .f32⟩ : BufTy).Contents (Elt F)),
    unary main_v29 main_v30 (broadcastInDim S1x1024 ![1] bcast_S1024_S1x1024_1 : (⟨S1024, .f32⟩ : BufTy).Contents (Elt F) → (⟨S1x1024, .f32⟩ : BufTy).Contents (Elt F)),
    unary main_v30 main_v31 (broadcastInDim S65536x1024 ![0, 1] bcast_S1x1024_S65536x1024_0_1 : (⟨S1x1024, .f32⟩ : BufTy).Contents (Elt F) → (⟨S65536x1024, .f32⟩ : BufTy).Contents (Elt F)),
    binary main_v26 main_v31 main_v32 (subf : (⟨S65536x1024, .f32⟩ : BufTy).Contents (Elt F) → (⟨S65536x1024, .f32⟩ : BufTy).Contents (Elt F) → (⟨S65536x1024, .f32⟩ : BufTy).Contents (Elt F)),
    binary main_v32 main_v32 main_v33 (mulf : (⟨S65536x1024, .f32⟩ : BufTy).Contents (Elt F) → (⟨S65536x1024, .f32⟩ : BufTy).Contents (Elt F) → (⟨S65536x1024, .f32⟩ : BufTy).Contents (Elt F)),
    nullary main_cst_5 (constant S_ .f32 0x00000000#32),
    binary main_v33 main_cst_5 main_v34 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_6 (constant S_ .f32 0x47800000#32),
    unary main_cst_6 main_v35 (broadcastInDim S1024 ![] bcast_S_S1024 : (⟨S_, .f32⟩ : BufTy).Contents (Elt F) → (⟨S1024, .f32⟩ : BufTy).Contents (Elt F)),
    binary main_v34 main_v35 main_v36 (Host.divf : (⟨S1024, .f32⟩ : BufTy).Contents (Elt F) → (⟨S1024, .f32⟩ : BufTy).Contents (Elt F) → (⟨S1024, .f32⟩ : BufTy).Contents (Elt F)),
    unary main_v29 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S65536x1024 ![0, 1] bcast_S1x1024_S65536x1024_0_1 : (⟨S1x1024, .f32⟩ : BufTy).Contents (Elt F) → (⟨S65536x1024, .f32⟩ : BufTy).Contents (Elt F)),
    binary main_v26 main_v38 main_v39 (subf : (⟨S65536x1024, .f32⟩ : BufTy).Contents (Elt F) → (⟨S65536x1024, .f32⟩ : BufTy).Contents (Elt F) → (⟨S65536x1024, .f32⟩ : BufTy).Contents (Elt F)),
    nullary main_cst_7 (constant S_ .f32 0x3727C5AC#32),
    unary main_cst_7 main_v40 (broadcastInDim S1024 ![] bcast_S_S1024 : (⟨S_, .f32⟩ : BufTy).Contents (Elt F) → (⟨S1024, .f32⟩ : BufTy).Contents (Elt F)),
    binary main_v36 main_v40 main_v41 (addf : (⟨S1024, .f32⟩ : BufTy).Contents (Elt F) → (⟨S1024, .f32⟩ : BufTy).Contents (Elt F) → (⟨S1024, .f32⟩ : BufTy).Contents (Elt F)),
    unary main_v41 main_v42 (Host.rsqrt : (⟨S1024, .f32⟩ : BufTy).Contents (Elt F) → (⟨S1024, .f32⟩ : BufTy).Contents (Elt F)),
    unary main_v42 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S65536x1024 ![0, 1] bcast_S1x1024_S65536x1024_0_1 : (⟨S1x1024, .f32⟩ : BufTy).Contents (Elt F) → (⟨S65536x1024, .f32⟩ : BufTy).Contents (Elt F)),
    binary main_v39 main_v44 main_v45 (mulf : (⟨S65536x1024, .f32⟩ : BufTy).Contents (Elt F) → (⟨S65536x1024, .f32⟩ : BufTy).Contents (Elt F) → (⟨S65536x1024, .f32⟩ : BufTy).Contents (Elt F)),
    unary main_arg6 main_v46 (broadcastInDim S1x1024 ![1] bcast_S1024_S1x1024_1 : (⟨S1024, .f32⟩ : BufTy).Contents (Elt F) → (⟨S1x1024, .f32⟩ : BufTy).Contents (Elt F)),
    unary main_v46 main_v47 (broadcastInDim S65536x1024 ![0, 1] bcast_S1x1024_S65536x1024_0_1 : (⟨S1x1024, .f32⟩ : BufTy).Contents (Elt F) → (⟨S65536x1024, .f32⟩ : BufTy).Contents (Elt F)),
    binary main_v45 main_v47 main_v48 (mulf : (⟨S65536x1024, .f32⟩ : BufTy).Contents (Elt F) → (⟨S65536x1024, .f32⟩ : BufTy).Contents (Elt F) → (⟨S65536x1024, .f32⟩ : BufTy).Contents (Elt F)),
    unary main_arg7 main_v49 (broadcastInDim S1x1024 ![1] bcast_S1024_S1x1024_1 : (⟨S1024, .f32⟩ : BufTy).Contents (Elt F) → (⟨S1x1024, .f32⟩ : BufTy).Contents (Elt F)),
    unary main_v49 main_v50 (broadcastInDim S65536x1024 ![0, 1] bcast_S1x1024_S65536x1024_0_1 : (⟨S1x1024, .f32⟩ : BufTy).Contents (Elt F) → (⟨S65536x1024, .f32⟩ : BufTy).Contents (Elt F)),
    binary main_v48 main_v50 main_v51 (addf : (⟨S65536x1024, .f32⟩ : BufTy).Contents (Elt F) → (⟨S65536x1024, .f32⟩ : BufTy).Contents (Elt F) → (⟨S65536x1024, .f32⟩ : BufTy).Contents (Elt F)) ]
abbrev opsC : List (HloOp τ sig (Elt F)) :=
  [ binary main_v51 main_arg8 main_v52 ((fun l r => Host.dotGeneral dot_S65536x1024_S1024x2048_S65536x2048_1_0_0_1_n_n none l r) : (⟨S65536x1024, .f32⟩ : BufTy).Contents (Elt F) → (⟨S1024x2048, .f32⟩ : BufTy).Contents (Elt F) → (⟨S65536x2048, .f32⟩ : BufTy).Contents (Elt F)),
    unary main_arg9 main_v53 (broadcastInDim S1x2048 ![1] bcast_S2048_S1x2048_1 : (⟨S2048, .f32⟩ : BufTy).Contents (Elt F) → (⟨S1x2048, .f32⟩ : BufTy).Contents (Elt F)),
    unary main_v53 main_v54 (broadcastInDim S65536x2048 ![0, 1] bcast_S1x2048_S65536x2048_0_1 : (⟨S1x2048, .f32⟩ : BufTy).Contents (Elt F) → (⟨S65536x2048, .f32⟩ : BufTy).Contents (Elt F)),
    binary main_v52 main_v54 main_v55 (addf : (⟨S65536x2048, .f32⟩ : BufTy).Contents (Elt F) → (⟨S65536x2048, .f32⟩ : BufTy).Contents (Elt F) → (⟨S65536x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x2048, .f32⟩) main_call0_v0) (broadcastInDim S65536x2048 ![] bcast_S_S65536x2048),
    TRef.binary (TRef.of (T := ⟨S65536x2048, .f32⟩) main_v55) (TRef.of (T := ⟨S65536x2048, .f32⟩) main_call0_v0) (TRef.of (T := ⟨S65536x2048, .f32⟩) main_v56) maximumf,
    binary main_v56 main_arg10 main_v57 ((fun l r => Host.dotGeneral dot_S65536x2048_S2048x1024_S65536x1024_1_0_0_1_n_n none l r) : (⟨S65536x2048, .f32⟩ : BufTy).Contents (Elt F) → (⟨S2048x1024, .f32⟩ : BufTy).Contents (Elt F) → (⟨S65536x1024, .f32⟩ : BufTy).Contents (Elt F)),
    unary main_arg11 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    binary main_v57 main_v59 main_v60 (addf : (⟨S65536x1024, .f32⟩ : BufTy).Contents (Elt F) → (⟨S65536x1024, .f32⟩ : BufTy).Contents (Elt F) → (⟨S65536x1024, .f32⟩ : BufTy).Contents (Elt F)),
    binary main_v51 main_v60 main_v61 (addf : (⟨S65536x1024, .f32⟩ : BufTy).Contents (Elt F) → (⟨S65536x1024, .f32⟩ : BufTy).Contents (Elt F) → (⟨S65536x1024, .f32⟩ : BufTy).Contents (Elt F)) ]
abbrev opsD : List (HloOp τ sig (Elt F)) :=
  [ nullary main_cst_8 (constant S_ .f32 0x00000000#32),
    binary main_v61 main_cst_8 main_v62 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_9 (constant S_ .f32 0x47800000#32),
    unary main_cst_9 main_v63 (broadcastInDim S1024 ![] bcast_S_S1024 : (⟨S_, .f32⟩ : BufTy).Contents (Elt F) → (⟨S1024, .f32⟩ : BufTy).Contents (Elt F)),
    binary main_v62 main_v63 main_v64 (Host.divf : (⟨S1024, .f32⟩ : BufTy).Contents (Elt F) → (⟨S1024, .f32⟩ : BufTy).Contents (Elt F) → (⟨S1024, .f32⟩ : BufTy).Contents (Elt F)),
    unary main_v64 main_v65 (broadcastInDim S1x1024 ![1] bcast_S1024_S1x1024_1 : (⟨S1024, .f32⟩ : BufTy).Contents (Elt F) → (⟨S1x1024, .f32⟩ : BufTy).Contents (Elt F)),
    unary main_v65 main_v66 (broadcastInDim S65536x1024 ![0, 1] bcast_S1x1024_S65536x1024_0_1 : (⟨S1x1024, .f32⟩ : BufTy).Contents (Elt F) → (⟨S65536x1024, .f32⟩ : BufTy).Contents (Elt F)),
    binary main_v61 main_v66 main_v67 (subf : (⟨S65536x1024, .f32⟩ : BufTy).Contents (Elt F) → (⟨S65536x1024, .f32⟩ : BufTy).Contents (Elt F) → (⟨S65536x1024, .f32⟩ : BufTy).Contents (Elt F)),
    binary main_v67 main_v67 main_v68 (mulf : (⟨S65536x1024, .f32⟩ : BufTy).Contents (Elt F) → (⟨S65536x1024, .f32⟩ : BufTy).Contents (Elt F) → (⟨S65536x1024, .f32⟩ : BufTy).Contents (Elt F)),
    nullary main_cst_10 (constant S_ .f32 0x00000000#32),
    binary main_v68 main_cst_10 main_v69 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_11 (constant S_ .f32 0x47800000#32),
    unary main_cst_11 main_v70 (broadcastInDim S1024 ![] bcast_S_S1024 : (⟨S_, .f32⟩ : BufTy).Contents (Elt F) → (⟨S1024, .f32⟩ : BufTy).Contents (Elt F)),
    binary main_v69 main_v70 main_v71 (Host.divf : (⟨S1024, .f32⟩ : BufTy).Contents (Elt F) → (⟨S1024, .f32⟩ : BufTy).Contents (Elt F) → (⟨S1024, .f32⟩ : BufTy).Contents (Elt F)),
    unary main_v64 main_v72 (broadcastInDim S1x1024 ![1] bcast_S1024_S1x1024_1 : (⟨S1024, .f32⟩ : BufTy).Contents (Elt F) → (⟨S1x1024, .f32⟩ : BufTy).Contents (Elt F)),
    unary main_v72 main_v73 (broadcastInDim S65536x1024 ![0, 1] bcast_S1x1024_S65536x1024_0_1 : (⟨S1x1024, .f32⟩ : BufTy).Contents (Elt F) → (⟨S65536x1024, .f32⟩ : BufTy).Contents (Elt F)),
    binary main_v61 main_v73 main_v74 (subf : (⟨S65536x1024, .f32⟩ : BufTy).Contents (Elt F) → (⟨S65536x1024, .f32⟩ : BufTy).Contents (Elt F) → (⟨S65536x1024, .f32⟩ : BufTy).Contents (Elt F)),
    nullary main_cst_12 (constant S_ .f32 0x3727C5AC#32),
    unary main_cst_12 main_v75 (broadcastInDim S1024 ![] bcast_S_S1024 : (⟨S_, .f32⟩ : BufTy).Contents (Elt F) → (⟨S1024, .f32⟩ : BufTy).Contents (Elt F)),
    binary main_v71 main_v75 main_v76 (addf : (⟨S1024, .f32⟩ : BufTy).Contents (Elt F) → (⟨S1024, .f32⟩ : BufTy).Contents (Elt F) → (⟨S1024, .f32⟩ : BufTy).Contents (Elt F)),
    unary main_v76 main_v77 (Host.rsqrt : (⟨S1024, .f32⟩ : BufTy).Contents (Elt F) → (⟨S1024, .f32⟩ : BufTy).Contents (Elt F)),
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S65536x1024 ![0, 1] bcast_S1x1024_S65536x1024_0_1 : (⟨S1x1024, .f32⟩ : BufTy).Contents (Elt F) → (⟨S65536x1024, .f32⟩ : BufTy).Contents (Elt F)),
    binary main_v74 main_v79 main_v80 (mulf : (⟨S65536x1024, .f32⟩ : BufTy).Contents (Elt F) → (⟨S65536x1024, .f32⟩ : BufTy).Contents (Elt F) → (⟨S65536x1024, .f32⟩ : BufTy).Contents (Elt F)),
    unary main_arg12 main_v81 (broadcastInDim S1x1024 ![1] bcast_S1024_S1x1024_1 : (⟨S1024, .f32⟩ : BufTy).Contents (Elt F) → (⟨S1x1024, .f32⟩ : BufTy).Contents (Elt F)),
    unary main_v81 main_v82 (broadcastInDim S65536x1024 ![0, 1] bcast_S1x1024_S65536x1024_0_1 : (⟨S1x1024, .f32⟩ : BufTy).Contents (Elt F) → (⟨S65536x1024, .f32⟩ : BufTy).Contents (Elt F)),
    binary main_v80 main_v82 main_v83 (mulf : (⟨S65536x1024, .f32⟩ : BufTy).Contents (Elt F) → (⟨S65536x1024, .f32⟩ : BufTy).Contents (Elt F) → (⟨S65536x1024, .f32⟩ : BufTy).Contents (Elt F)),
    unary main_arg13 main_v84 (broadcastInDim S1x1024 ![1] bcast_S1024_S1x1024_1 : (⟨S1024, .f32⟩ : BufTy).Contents (Elt F) → (⟨S1x1024, .f32⟩ : BufTy).Contents (Elt F)),
    unary main_v84 main_v85 (broadcastInDim S65536x1024 ![0, 1] bcast_S1x1024_S65536x1024_0_1 : (⟨S1x1024, .f32⟩ : BufTy).Contents (Elt F) → (⟨S65536x1024, .f32⟩ : BufTy).Contents (Elt F)),
    binary main_v83 main_v85 main_v86 (addf : (⟨S65536x1024, .f32⟩ : BufTy).Contents (Elt F) → (⟨S65536x1024, .f32⟩ : BufTy).Contents (Elt F) → (⟨S65536x1024, .f32⟩ : BufTy).Contents (Elt F)) ]

theorem ops_split : (ops (F := F)) = opsA ++ (opsB ++ (opsC ++ opsD)) := rfl

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches' results -/

/-- The softmax over the last axis of the scores, as the host code spells it. -/
def rSmax (s : FVec Ideal S65536x16x16 .f32) : FVec Ideal S65536x16x16 .f32 :=
  Host.divf
    (Host.exp (subf s (broadcastInDim S65536x16x16 ![0, 1, 2] bcast_S65536x16x1_S65536x16x16_0_1_2
      (broadcastInDim S65536x16x1 ![0, 1] bcast_S65536x16_S65536x16x1_0_1
        (maximumf (broadcastInDim S65536x16 ![] bcast_S_S65536x16 (constant (F := Ideal) S_ .f32 0xFF800000#32))
          (Host.reduce FloatOps.maximumf s (constant (F := Ideal) S_ .f32 0xFF800000#32) reducesTo_S65536x16x16_S65536x16_d2 h_S_))))))
    (broadcastInDim S65536x16x16 ![0, 1, 2] bcast_S65536x16x1_S65536x16x16_0_1_2
      (broadcastInDim S65536x16x1 ![0, 1] bcast_S65536x16_S65536x16x1_0_1
        (Host.reduceAdd
          (Host.exp (subf s (broadcastInDim S65536x16x16 ![0, 1, 2] bcast_S65536x16x1_S65536x16x16_0_1_2
            (broadcastInDim S65536x16x1 ![0, 1] bcast_S65536x16_S65536x16x1_0_1
              (maximumf (broadcastInDim S65536x16 ![] bcast_S_S65536x16 (constant (F := Ideal) S_ .f32 0xFF800000#32))
                (Host.reduce FloatOps.maximumf s (constant (F := Ideal) S_ .f32 0xFF800000#32) reducesTo_S65536x16x16_S65536x16_d2 h_S_))))))
          (constant (F := Ideal) S_ .f32 0x00000000#32) reducesTo_S65536x16x16_S65536x16_d2 h_S_)))

/-- The attention between the sixteen heads of each node, from queries, keys and values and a scaling of the scores. -/
def rAttnOf (q k v : FVec Ideal S65536x16x64 .f32) (scale : FVec Ideal S65536x16x16 .f32 → FVec Ideal S65536x16x16 .f32) :
    FVec Ideal S65536x1024 .f32 :=
  shapeCast S65536x1024
    (Host.dotGeneral dot_S65536x16x16_S65536x16x64_S65536x16x64_2_1_1_2_0_0 none
      (rSmax (scale (Host.dotGeneral dot_S65536x16x64_S65536x16x64_S65536x16x16_2_2_1_1_0_0 none q k))) v)
    shapeCasts_S65536x16x64_S65536x1024

/-- A projection of the node rows, as sixteen heads of width 64. -/
def rHeads (h : FVec Ideal S65536x1024 .f32) (w : FVec Ideal S1024x1024 .f32) : FVec Ideal S65536x16x64 .f32 :=
  shapeCast S65536x16x64 (Host.dotGeneral dot_S65536x1024_S1024x1024_S65536x1024_1_0_0_1_n_n none h w) shapeCasts_S65536x1024_S65536x16x64

/-- A one-row vector broadcast over all the rows. -/
def rRows (v : FVec Ideal S1024 .f32) : FVec Ideal S65536x1024 .f32 :=
  broadcastInDim S65536x1024 ![0, 1] bcast_S1x1024_S65536x1024_0_1 (broadcastInDim S1x1024 ![1] bcast_S1024_S1x1024_1 v)
def rRows2048 (v : FVec Ideal S2048 .f32) : FVec Ideal S65536x2048 .f32 :=
  broadcastInDim S65536x2048 ![0, 1] bcast_S1x2048_S65536x2048_0_1 (broadcastInDim S1x2048 ![1] bcast_S2048_S1x2048_1 v)

/-- The attention, the output projection with its bias, and the residual. -/
def rX1 (h : FVec Ideal S65536x1024 .f32) (wq wk wv wo : FVec Ideal S1024x1024 .f32) (bo : FVec Ideal S1024 .f32) :
    FVec Ideal S65536x1024 .f32 :=
  addf h (addf (Host.dotGeneral dot_S65536x1024_S1024x1024_S65536x1024_1_0_0_1_n_n none
      (rAttnOf (rHeads h wq) (rHeads h wk) (rHeads h wv)
        (fun s => Host.divf s (broadcastInDim S65536x16x16 ![] bcast_S_S65536x16x16 (constant (F := Ideal) S_ .f32 0x41000000#32)))) wo)
    (rRows bo))

/-- The column means: the column sums divided by 65536. -/
def rMean (x : FVec Ideal S65536x1024 .f32) : FVec Ideal S1024 .f32 :=
  Host.divf (Host.reduceAdd x (constant (F := Ideal) S_ .f32 0x00000000#32) reducesTo_S65536x1024_S1024_d0 h_S_)
    (broadcastInDim S1024 ![] bcast_S_S1024 (constant (F := Ideal) S_ .f32 0x47800000#32))

/-- The column variances: the means of the squared deviations from the column means. -/
def rVar (x : FVec Ideal S65536x1024 .f32) : FVec Ideal S1024 .f32 :=
  Host.divf (Host.reduceAdd (mulf (subf x (rRows (rMean x))) (subf x (rRows (rMean x))))
      (constant (F := Ideal) S_ .f32 0x00000000#32) reducesTo_S65536x1024_S1024_d0 h_S_)
    (broadcastInDim S1024 ![] bcast_S_S1024 (constant (F := Ideal) S_ .f32 0x47800000#32))

/-- Column-wise normalisation by the batch statistics, then the affine map. -/
def rBN (x : FVec Ideal S65536x1024 .f32) (g b : FVec Ideal S1024 .f32) : FVec Ideal S65536x1024 .f32 :=
  addf (mulf (mulf (subf x (rRows (rMean x)))
      (rRows (Host.rsqrt (addf (rVar x) (broadcastInDim S1024 ![] bcast_S_S1024 (constant (F := Ideal) S_ .f32 0x3727C5AC#32))))))
    (rRows g)) (rRows b)

/-- The feed-forward block with a rectifier, added to its input. -/
def rFFN (x : FVec Ideal S65536x1024 .f32) (w1 : FVec Ideal S1024x2048 .f32) (bf1 : FVec Ideal S2048 .f32)
    (w2 : FVec Ideal S2048x1024 .f32) (bf2 : FVec Ideal S1024 .f32) : FVec Ideal S65536x1024 .f32 :=
  addf x (addf (Host.dotGeneral dot_S65536x2048_S2048x1024_S65536x1024_1_0_0_1_n_n none
      (maximumf (addf (Host.dotGeneral dot_S65536x1024_S1024x2048_S65536x2048_1_0_0_1_n_n none x w1) (rRows2048 bf1))
        (broadcastInDim S65536x2048 ![] bcast_S_S65536x2048 (constant (F := Ideal) S_ .f32 0x00000000#32))) w2)
    (rRows bf2))

set_option maxHeartbeats 4000000 in
theorem stretchA (V : Valuation τ sig (Elt Ideal)) :
    after (opsA (F := Ideal)) V (Proc.devRef .tc main_v26)
      = rX1 (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  after_results_simp; rfl

set_option maxHeartbeats 4000000 in
theorem stretchB (V : Valuation τ sig (Elt Ideal)) :
    after (opsB (F := Ideal)) V (Proc.devRef .tc main_v51)
      = rBN (V (Proc.devRef .tc main_v26)) (V (Proc.devRef .tc main_arg6)) (V (Proc.devRef .tc main_arg7)) := by
  after_results_simp; rfl

set_option maxHeartbeats 4000000 in
theorem stretchC (V : Valuation τ sig (Elt Ideal)) :
    after (opsC (F := Ideal)) V (Proc.devRef .tc main_v61)
      = rFFN (V (Proc.devRef .tc main_v51)) (V (Proc.devRef .tc main_arg8)) (V (Proc.devRef .tc main_arg9))
          (V (Proc.devRef .tc main_arg10)) (V (Proc.devRef .tc main_arg11)) := by
  after_results_simp; rfl

set_option maxHeartbeats 4000000 in
theorem stretchD (V : Valuation τ sig (Elt Ideal)) :
    after (opsD (F := Ideal)) V (Proc.devRef .tc main_v86)
      = rBN (V (Proc.devRef .tc main_v61)) (V (Proc.devRef .tc main_arg12)) (V (Proc.devRef .tc main_arg13)) := by
  after_results_simp; rfl

theorem keptA_arg6 (V : Valuation τ sig (Elt Ideal)) : after (opsA (F := Ideal)) V (Proc.devRef .tc main_arg6) = V (Proc.devRef .tc main_arg6) := by after_results_simp
theorem keptA_arg7 (V : Valuation τ sig (Elt Ideal)) : after (opsA (F := Ideal)) V (Proc.devRef .tc main_arg7) = V (Proc.devRef .tc main_arg7) := by after_results_simp
theorem keptA_arg8 (V : Valuation τ sig (Elt Ideal)) : after (opsA (F := Ideal)) V (Proc.devRef .tc main_arg8) = V (Proc.devRef .tc main_arg8) := by after_results_simp
theorem keptA_arg9 (V : Valuation τ sig (Elt Ideal)) : after (opsA (F := Ideal)) V (Proc.devRef .tc main_arg9) = V (Proc.devRef .tc main_arg9) := by after_results_simp
theorem keptA_arg10 (V : Valuation τ sig (Elt Ideal)) : after (opsA (F := Ideal)) V (Proc.devRef .tc main_arg10) = V (Proc.devRef .tc main_arg10) := by after_results_simp
theorem keptA_arg11 (V : Valuation τ sig (Elt Ideal)) : after (opsA (F := Ideal)) V (Proc.devRef .tc main_arg11) = V (Proc.devRef .tc main_arg11) := by after_results_simp
theorem keptA_arg12 (V : Valuation τ sig (Elt Ideal)) : after (opsA (F := Ideal)) V (Proc.devRef .tc main_arg12) = V (Proc.devRef .tc main_arg12) := by after_results_simp
theorem keptA_arg13 (V : Valuation τ sig (Elt Ideal)) : after (opsA (F := Ideal)) V (Proc.devRef .tc main_arg13) = V (Proc.devRef .tc main_arg13) := by after_results_simp
theorem keptB_arg8 (V : Valuation τ sig (Elt Ideal)) : after (opsB (F := Ideal)) V (Proc.devRef .tc main_arg8) = V (Proc.devRef .tc main_arg8) := by after_results_simp
theorem keptB_arg9 (V : Valuation τ sig (Elt Ideal)) : after (opsB (F := Ideal)) V (Proc.devRef .tc main_arg9) = V (Proc.devRef .tc main_arg9) := by after_results_simp
theorem keptB_arg10 (V : Valuation τ sig (Elt Ideal)) : after (opsB (F := Ideal)) V (Proc.devRef .tc main_arg10) = V (Proc.devRef .tc main_arg10) := by after_results_simp
theorem keptB_arg11 (V : Valuation τ sig (Elt Ideal)) : after (opsB (F := Ideal)) V (Proc.devRef .tc main_arg11) = V (Proc.devRef .tc main_arg11) := by after_results_simp
theorem keptB_arg12 (V : Valuation τ sig (Elt Ideal)) : after (opsB (F := Ideal)) V (Proc.devRef .tc main_arg12) = V (Proc.devRef .tc main_arg12) := by after_results_simp
theorem keptB_arg13 (V : Valuation τ sig (Elt Ideal)) : after (opsB (F := Ideal)) V (Proc.devRef .tc main_arg13) = V (Proc.devRef .tc main_arg13) := by after_results_simp
theorem keptC_arg12 (V : Valuation τ sig (Elt Ideal)) : after (opsC (F := Ideal)) V (Proc.devRef .tc main_arg12) = V (Proc.devRef .tc main_arg12) := by after_results_simp
theorem keptC_arg13 (V : Valuation τ sig (Elt Ideal)) : after (opsC (F := Ideal)) V (Proc.devRef .tc main_arg13) = V (Proc.devRef .tc main_arg13) := by after_results_simp

/-- THE REFERENCE'S RESULT: the two normalisations around the feed-forward block around the attention. -/
theorem ref_result (V : Valuation τ sig (Elt Ideal)) :
    after (ops (F := Ideal)) V (Proc.devRef .tc main_v86)
      = rBN (rFFN (rBN (rX1 (V (Proc.devRef .tc main_arg0)) (V (Proc.devRef .tc main_arg1)) (V (Proc.devRef .tc main_arg2))
            (V (Proc.devRef .tc main_arg3)) (V (Proc.devRef .tc main_arg4)) (V (Proc.devRef .tc main_arg5)))
          (V (Proc.devRef .tc main_arg6)) (V (Proc.devRef .tc main_arg7)))
        (V (Proc.devRef .tc main_arg8)) (V (Proc.devRef .tc main_arg9)) (V (Proc.devRef .tc main_arg10)) (V (Proc.devRef .tc main_arg11)))
      (V (Proc.devRef .tc main_arg12)) (V (Proc.devRef .tc main_arg13)) := by
  rw [ops_split, after_append, after_append, after_append, stretchD, stretchC, stretchB, stretchA,
    keptC_arg12, keptC_arg13, keptB_arg8, keptB_arg9, keptB_arg10, keptB_arg11, keptB_arg12, keptB_arg13,
    keptA_arg6, keptA_arg7, keptA_arg8, keptA_arg9, keptA_arg10, keptA_arg11, keptA_arg12, keptA_arg13]

end Cert.ReferenceIdeal.RefChain

end
-- ==== Proof.LibBatchMoments.lean ====
import Mathlib.Data.EReal.Inv
import Mathlib.Algebra.BigOperators.Fin
import Mathlib.Algebra.Order.BigOperators.Ring.Finset
import Mathlib.Tactic.Ring
import Mathlib.Tactic.Linarith

/-!
# Mean and biased variance of a finite family of reals, on the extended reals

For a finite family `X` of extended reals all of whose members are real numbers, and a real `c` with
`c · (number of members) = 1`, the biased variance written as the mean of the squared deviations,
`(∑ (X i − μ)²) · c` with `μ = (∑ X i) · c`, equals the one-pass form `max ((∑ X i²) · c − μ², 0)`:
over the reals `∑ (xᵢ − μ)² = ∑ xᵢ² − n μ²`, and the clamp at zero changes nothing because a mean of squares is
not negative.  Finiteness is what lets the extended reals' sums, products and differences be the reals' here.

Also: a finite sum of reals read in the extended reals is the real sum (`coe_sum`), and members that are real keep
sums, products, differences real (`isReal_*`).
-/

namespace Cert.LibBatchMoments

open Finset

variable {ι : Type*}

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]

/-- A finite sum of reals, read in the extended reals, is the real sum. -/
theorem coe_sum (x : ι → ℝ) (s : Finset ι) : (∑ i ∈ s, (x i : EReal)) = ((∑ i ∈ s, x i : ℝ) : EReal) := by
  classical
  induction s using Finset.induction_on with
  | empty => simp
  | insert a s ha ih => rw [Finset.sum_insert ha, Finset.sum_insert ha, ih, EReal.coe_add]

theorem isReal_sum (X : ι → EReal) (s : Finset ι) (hX : ∀ i ∈ s, IsReal (X i)) : IsReal (∑ i ∈ s, X i) := by
  classical
  induction s using Finset.induction_on with
  | empty => exact ⟨0, by simp⟩
  | insert a s ha ih =>
    rw [Finset.sum_insert ha]
    exact (hX a (Finset.mem_insert_self a s)).add (ih fun i hi => hX i (Finset.mem_insert_of_mem hi))

variable [Fintype ι]

/-- Over the reals: the mean of the squared deviations from the mean is the mean of the squares less the squared
    mean, when `c` is the reciprocal of the number of members. -/
theorem real_variance (x : ι → ℝ) (c : ℝ) (hc : c * (Fintype.card ι : ℝ) = 1) (S Q μ : ℝ)
    (hS : S = ∑ j, x j) (hQ : Q = ∑ i, x i * x i) (hμ : μ = S * c) :
    (∑ i, (x i - μ) * (x i - μ)) * c = Q * c - μ * μ := by
  have h1 : ∑ i, (x i - μ) * (x i - μ) = Q - 2 * μ * S + (Fintype.card ι : ℝ) * (μ * μ) := by
    have : ∀ i, (x i - μ) * (x i - μ) = x i * x i - 2 * μ * x i + μ * μ := fun i => by ring
    simp only [this, Finset.sum_add_distrib, Finset.sum_sub_distrib, ← Finset.mul_sum, Finset.sum_const,
      Finset.card_univ, nsmul_eq_mul, ← hS, ← hQ]
    ring
  have hN : (Fintype.card ι : ℝ) * c = 1 := by rw [mul_comm]; exact hc
  rw [h1]
  calc (Q - 2 * μ * S + (Fintype.card ι : ℝ) * (μ * μ)) * c
      = Q * c - 2 * μ * (S * c) + ((Fintype.card ι : ℝ) * c) * (μ * μ) := by ring
    _ = Q * c - 2 * μ * μ + 1 * (μ * μ) := by rw [← hμ, hN]
    _ = Q * c - μ * μ := by ring

theorem recip_card_nonneg (c : ℝ) (hc : c * (Fintype.card ι : ℝ) = 1) : 0 ≤ c := by
  by_contra h
  have h : c < 0 := lt_of_not_ge h
  have hN : (0 : ℝ) ≤ (Fintype.card ι : ℝ) := Nat.cast_nonneg _
  nlinarith

/-- The sum of the squared deviations of reals from a real, read in the extended reals, is the real sum. -/
theorem coe_sum_sq_dev (x : ι → ℝ) (a : ℝ) :
    (∑ i, (((x i : ℝ) : EReal) - (a : EReal)) * (((x i : ℝ) : EReal) - (a : EReal)))
      = ((∑ i, (x i - a) * (x i - a) : ℝ) : EReal) := by
  rw [← coe_sum]
  exact Finset.sum_congr rfl fun i _ => by rw [← EReal.coe_sub, ← EReal.coe_mul]

/-- THE TWO SPELLINGS OF A BIASED VARIANCE AGREE on a family of real numbers: the mean of the squared deviations
    is the clamped difference of the mean of the squares and the squared mean. -/
theorem variance_two_ways (X : ι → EReal) (hX : ∀ i, IsReal (X i)) (c : ℝ) (hc : c * (Fintype.card ι : ℝ) = 1)
    (μ : EReal) (hμ : μ = (∑ i, X i) * (c : EReal)) :
    (∑ i, (X i - μ) * (X i - μ)) * (c : EReal) = max ((∑ i, X i * X i) * (c : EReal) - μ * μ) 0 := by
  obtain ⟨x, rfl⟩ : ∃ x : ι → ℝ, X = fun i => (x i : EReal) :=
    ⟨fun i => (hX i).choose, funext fun i => (hX i).choose_spec⟩
  have hμ' : μ = (((∑ i, x i) * c : ℝ) : EReal) := by
    rw [hμ, coe_sum, EReal.coe_mul]
  subst hμ'
  have e1 := coe_sum_sq_dev x ((∑ i, x i) * c)
  have e2 : (∑ i, ((x i : ℝ) : EReal) * ((x i : ℝ) : EReal)) = ((∑ i, x i * x i : ℝ) : EReal) := by
    rw [← coe_sum]
    exact Finset.sum_congr rfl fun i _ => by rw [← EReal.coe_mul]
  rw [e1, e2, ← EReal.coe_mul, ← EReal.coe_mul, ← EReal.coe_mul, ← EReal.coe_sub,
    ← real_variance x c hc _ _ _ rfl rfl rfl]
  rw [max_eq_left]
  rw [← EReal.coe_zero, EReal.coe_le_coe_iff]
  exact mul_nonneg (Finset.sum_nonneg fun i _ => mul_self_nonneg _) (recip_card_nonneg c hc)

/-- The variance above is a real number, and not negative. -/
theorem variance_isReal_nonneg (X : ι → EReal) (hX : ∀ i, IsReal (X i)) (c : ℝ) (hc : c * (Fintype.card ι : ℝ) = 1)
    (μ : EReal) (hμ : μ = (∑ i, X i) * (c : EReal)) :
    ∃ v : ℝ, 0 ≤ v ∧ (∑ i, (X i - μ) * (X i - μ)) * (c : EReal) = (v : EReal) := by
  obtain ⟨x, rfl⟩ : ∃ x : ι → ℝ, X = fun i => (x i : EReal) :=
    ⟨fun i => (hX i).choose, funext fun i => (hX i).choose_spec⟩
  have hμ' : μ = (((∑ i, x i) * c : ℝ) : EReal) := by
    rw [hμ, coe_sum, EReal.coe_mul]
  subst hμ'
  refine ⟨(∑ i, (x i - (∑ i, x i) * c) * (x i - (∑ i, x i) * c)) * c,
    mul_nonneg (Finset.sum_nonneg fun i _ => mul_self_nonneg _) (recip_card_nonneg c hc), ?_⟩
  have e1 := coe_sum_sq_dev x ((∑ i, x i) * c)
  simp only [] at e1 ⊢
  rw [e1, ← EReal.coe_mul]

end Cert.LibBatchMoments
-- ==== Proof.Bridge.Consts.lean ====
import Idealize.ShloMosaic.PureOps.Ideal
import Idealize.ShloMosaic.PureOps.Ideal.Laws

/-!
# The float constants the two programs spell, as the extended reals they denote
-/

noncomputable section

namespace Cert.Bridge.Consts

open Idealize.ShloMosaic

/-- `65536.0`, the reference's divisor of the column sums. -/
theorem ofBits_65536 : Ideal.ofBits .f32 0x47800000#32 = ((65536 : ℝ) : EReal) := by
  simp [Ideal.ofBits, Ideal.ieee, -EReal.coe_mul]; norm_num

/-- `2⁻¹⁶`, the kernel's factor of the column sums: exactly the reciprocal of 65536. -/
theorem ofBits_inv65536 : Ideal.ofBits .f32 0x37800000#32 = ((1 / 65536 : ℝ) : EReal) := by
  simp [Ideal.ofBits, Ideal.ieee, -EReal.coe_mul]; norm_num

/-- `8.0`, the reference's divisor of the scores. -/
theorem ofBits_8 : Ideal.ofBits .f32 0x41000000#32 = ((8 : ℝ) : EReal) := by
  simp [Ideal.ofBits, Ideal.ieee, -EReal.coe_mul]; norm_num

/-- `0.125`, the kernel's factor of the scores: exactly the reciprocal of 8. -/
theorem ofBits_eighth : Ideal.ofBits .f32 0x3E000000#32 = ((1 / 8 : ℝ) : EReal) := by
  simp [Ideal.ofBits, Ideal.ieee, -EReal.coe_mul]; norm_num

/-- The shared `ε` of the two normalisations (the float nearest `10⁻⁵`) is a positive real. -/
theorem ofBits_eps : Ideal.ofBits .f32 0x3727C5AC#32 = ((10995116 / 1099511627776 : ℝ) : EReal) := by
  simp [Ideal.ofBits, Ideal.ieee, -EReal.coe_mul]; norm_num

/-- The `-inf` pattern denotes the bottom element. -/
theorem ofBits_neg_inf : Ideal.ofBits .f32 0xFF800000#32 = (⊥ : EReal) := by
  simp [Ideal.ofBits, Ideal.ieee]

end Cert.Bridge.Consts

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.Bridge.BN.lean ====
import proofs.«165553_j30348238914117_2_alg».proof.Proof.KI.Result
import proofs.«165553_j30348238914117_2_alg».proof.Proof.RefChain
import proofs.«165553_j30348238914117_2_alg».proof.Proof.LibBatchMoments
import proofs.«165553_j30348238914117_2_alg».proof.Proof.Bridge.Consts
import proofs.«165553_j30348238914117_2_alg».proof.Proof.LibHostMatmul
import Idealize.ShloMosaic.PureOps.Ideal.Laws
import Idealize.ShloMosaic.Lib.ValueLayout

/-!
# The two spellings of a batch normalisation agree on an array of real numbers

The kernel's host code takes the column means as the column sums times `2⁻¹⁶` and the column variances as the means of
the squares less the squared means, clamped at zero; the reference divides the column sums by `65536` and takes the
variances as the means of the squared deviations.  Read entry by entry the two are the same functions of a column when
every entry of the column is a real number; the affine maps after them are spelt with a one-row copy of the scale and the
shift on one side and with their broadcasts on the other, which read the same entries.
-/

set_option maxRecDepth 16384

noncomputable section

namespace Cert.Bridge

open Idealize.ShloMosaic Idealize.ShloMosaic.ValueIdx Cert.LibBatchMoments
open Cert.KernelIdeal.Hand Cert.ReferenceIdeal.RefChain

abbrev SX : Shape := ⟨2, ![65536, 1024]⟩
abbrev SRow : Shape := ⟨2, ![1, 1024]⟩
abbrev SVec : Shape := ⟨1, ![1024]⟩
abbrev S0 : Shape := ⟨0, ![]⟩

/-- A host column sum from zero, read at a column. -/
theorem colsum_apply (red : SX.ReducesTo [0] SVec) (hs : 0 < S0.numel) (x : FVec Ideal SX .f32) (j : Fin 1024) :
    Host.reduceAdd x (constant (F := Ideal) S0 .f32 0x00000000#32) red hs (ix1 j) = ∑ n : Fin 65536, x (ix2 n j) := by
  simp only [Host.reduceAdd, Ideal.hostReduceAdd_def]
  rw [Ideal.hostReduceAdd_single red (by decide)]
  rw [show (constant (F := Ideal) S0 .f32 0x00000000#32) (Shape.Idx.first hs) = (0 : EReal) from Ideal.ofBits_zero_f32, zero_add]
  exact Finset.sum_congr rfl fun k _ => congrArg x (funext fun a => Fin.ext (by match a with | ⟨0, _⟩ => rfl | ⟨1, _⟩ => rfl))

/-- A vector broadcast to one row, read at a column. -/
theorem bcastRow_apply {α : Type} (h : SVec.BroadcastsInDim SRow ![1]) (v : SVec.Idx → α) (u : Fin 1) (j : Fin 1024) :
    broadcastInDim SRow ![1] h v (ix2 u j) = v (ix1 j) :=
  broadcastInDim_apply ![1] h v (ix2 u j) (ix1 j) fun a => by
    match a with
    | ⟨0, _⟩ => rfl

/-- One row broadcast over all the rows, read at an entry. -/
theorem bcastRows_apply {α : Type} (h : SRow.BroadcastsInDim SX ![0, 1]) (v : SRow.Idx → α) (n : Fin 65536) (j : Fin 1024) :
    broadcastInDim SX ![0, 1] h v (ix2 n j) = v (ix2 (0 : Fin 1) j) :=
  broadcastInDim_apply ![0, 1] h v (ix2 n j) (ix2 (0 : Fin 1) j) fun a => by
    match a with
    | ⟨0, _⟩ => rfl
    | ⟨1, _⟩ => rfl

theorem rRows_apply (v : FVec Ideal SVec .f32) (n : Fin 65536) (j : Fin 1024) : rRows v (ix2 n j) = v (ix1 j) := by
  unfold rRows
  rw [bcastRows_apply, bcastRow_apply]

theorem row1024_apply (v : FVec Ideal SVec .f32) (j : Fin 1024) : row1024 v (ix2 (0 : Fin 1) j) = v (ix1 j) := by
  unfold row1024
  exact shapeCast_a_1a_apply v _ 0 j

/-- The kernel's column mean, read at a column. -/
theorem kMean_apply (x : FVec Ideal SX .f32) (j : Fin 1024) :
    kMean x (ix2 (0 : Fin 1) j) = (∑ n : Fin 65536, x (ix2 n j)) * ((1 / 65536 : ℝ) : EReal) := by
  unfold kMean
  rw [mulf_apply, bcastRow_apply, colsum_apply, ← Consts.ofBits_inv65536]
  rfl

/-- The kernel's column variance, read at a column. -/
theorem kVar_apply (x : FVec Ideal SX .f32) (j : Fin 1024) :
    kVar x (ix2 (0 : Fin 1) j)
      = max ((∑ n : Fin 65536, x (ix2 n j) * x (ix2 n j)) * ((1 / 65536 : ℝ) : EReal)
          - kMean x (ix2 (0 : Fin 1) j) * kMean x (ix2 (0 : Fin 1) j)) 0 := by
  unfold kVar
  rw [maximumf_apply, subf_apply, mulf_apply, mulf_apply, bcastRow_apply, colsum_apply, ← Consts.ofBits_inv65536,
    ← Ideal.ofBits_zero_f32]
  rfl

/-- A division of a vector by `65536`, read at an entry: the product with the reciprocal. -/
theorem divN_apply (a : FVec Ideal SVec .f32) (h : S0.BroadcastsInDim SVec ![]) (j : Fin 1024) :
    Host.divf a (broadcastInDim SVec ![] h (constant (F := Ideal) S0 .f32 0x47800000#32)) (ix1 j)
      = a (ix1 j) * ((1 / 65536 : ℝ) : EReal) := by
  show Ideal.div (a (ix1 j)) (Ideal.ofBits .f32 0x47800000#32) = _
  rw [Consts.ofBits_65536, Ideal.div_coe (by norm_num)]

/-- The reference's column mean, read at a column. -/
theorem rMean_apply (x : FVec Ideal SX .f32) (j : Fin 1024) :
    rMean x (ix1 j) = (∑ n : Fin 65536, x (ix2 n j)) * ((1 / 65536 : ℝ) : EReal) := by
  unfold rMean
  rw [divN_apply, colsum_apply]

/-- The reference's column variance, read at a column. -/
theorem rVar_apply (x : FVec Ideal SX .f32) (j : Fin 1024) :
    rVar x (ix1 j) = (∑ n : Fin 65536, (x (ix2 n j) - rMean x (ix1 j)) * (x (ix2 n j) - rMean x (ix1 j))) * ((1 / 65536 : ℝ) : EReal) := by
  have e : rVar x = rMean (mulf (subf x (rRows (rMean x))) (subf x (rRows (rMean x)))) := rfl
  rw [e, rMean_apply]
  refine congrArg (fun S => S * ((1 / 65536 : ℝ) : EReal)) (Finset.sum_congr rfl fun n _ => ?_)
  show (x (ix2 n j) - rRows (rMean x) (ix2 n j)) * (x (ix2 n j) - rRows (rMean x) (ix2 n j)) = _
  rw [rRows_apply]

theorem card_fact : ((1 / 65536 : ℝ)) * (Fintype.card (Fin 65536) : ℝ) = 1 := by
  rw [Fintype.card_fin]; norm_num

/-- THE STATISTICS AGREE on a column of real numbers. -/
theorem stats_agree (x : FVec Ideal SX .f32) (hx : ∀ i, IsReal (x i)) (j : Fin 1024) :
    kMean x (ix2 (0 : Fin 1) j) = rMean x (ix1 j) ∧ kVar x (ix2 (0 : Fin 1) j) = rVar x (ix1 j) := by
  have hm : kMean x (ix2 (0 : Fin 1) j) = rMean x (ix1 j) := (kMean_apply x j).trans (rMean_apply x j).symm
  refine ⟨hm, ?_⟩
  rw [kVar_apply, rVar_apply, hm]
  exact (variance_two_ways (fun n : Fin 65536 => x (ix2 n j)) (fun n => hx _) (1 / 65536) card_fact _ (rMean_apply x j)).symm

/-- THE TWO NORMALISATIONS AGREE on an array of real numbers. -/
theorem norm_agree (x : FVec Ideal SX .f32) (hx : ∀ i, IsReal (x i)) (g b : FVec Ideal SVec .f32) :
    kNorm x g b = rBN x g b := by
  funext i
  obtain ⟨n, j, rfl⟩ : ∃ (n : Fin 65536) (j : Fin 1024), i = ix2 n j := ⟨i 0, i 1, eq_ix2 i⟩
  obtain ⟨hm, hv⟩ := stats_agree x hx j
  unfold kNorm bnApply rBN
  rw [addf_apply, mulf_apply, mulf_apply, subf_apply, rRows_apply, rRows_apply, rRows_apply, rRows_apply]
  show (x (ix2 n j) - kMean x (ix2 (0 : Fin 1) j)) * Ideal.rsqrt (kVar x (ix2 (0 : Fin 1) j) + Ideal.ofBits .f32 0x3727C5AC#32)
      * row1024 g (ix2 (0 : Fin 1) j) + row1024 b (ix2 (0 : Fin 1) j)
    = (x (ix2 n j) - rMean x (ix1 j)) * Ideal.rsqrt (rVar x (ix1 j) + Ideal.ofBits .f32 0x3727C5AC#32) * g (ix1 j) + b (ix1 j)
  rw [hm, hv, row1024_apply, row1024_apply]

end Cert.Bridge

end
-- ==== Proof.Bridge.Layers.lean ====
import proofs.«165553_j30348238914117_2_alg».proof.Proof.Bridge.BN
import proofs.«165553_j30348238914117_2_alg».proof.Proof.LibHostMatmul

/-!
# The dense layers and the attention agree

Entry by entry, a product against a whole weight matrix is the same sum on both sides, a one-row bias and its broadcast
read the same entry, and the rectifier is the same maximum with zero.  The kernel's one product against the three
projection weights side by side, cut into its three column blocks, is the reference's three products; the kernel scales
the scores by `1/8` where the reference divides them by `8`, the same function of an extended real; from there on the two
attentions are the same operations on equal arrays.
-/

set_option maxRecDepth 16384

noncomputable section

namespace Cert.Bridge

open Idealize.ShloMosaic Idealize.ShloMosaic.ValueIdx Cert.LibBatchMoments Cert.Spec
open Cert.KernelIdeal.Hand Cert.ReferenceIdeal.RefChain

abbrev SH : Shape := ⟨2, ![65536, 2048]⟩

theorem row2048_apply (v : FVec Ideal (⟨1, ![2048]⟩ : Shape) .f32) (k : Fin 2048) :
    row2048 v (ix2 (0 : Fin 1) k) = v (ix1 k) := by
  unfold row2048
  exact shapeCast_a_1a_apply v _ 0 k

theorem rRows2048_apply (v : FVec Ideal (⟨1, ![2048]⟩ : Shape) .f32) (n : Fin 65536) (k : Fin 2048) :
    rRows2048 v (ix2 n k) = v (ix1 k) := by
  unfold rRows2048
  refine (broadcastInDim_apply ![0, 1] _ _ (ix2 n k) (ix2 (0 : Fin 1) k) fun a => by
    match a with
    | ⟨0, _⟩ => rfl
    | ⟨1, _⟩ => rfl).trans ?_
  exact broadcastInDim_apply ![1] _ v (ix2 (0 : Fin 1) k) (ix1 k) fun a => by
    match a with
    | ⟨0, _⟩ => rfl

/-- THE FEED-FORWARD BLOCKS AGREE. -/
theorem ffn_agree (xn : FVec Ideal SX .f32) (w1 : FVec Ideal (⟨2, ![1024, 2048]⟩ : Shape) .f32)
    (bf1 : FVec Ideal (⟨1, ![2048]⟩ : Shape) .f32) (w2 : FVec Ideal (⟨2, ![2048, 1024]⟩ : Shape) .f32) (bf2 : FVec Ideal SVec .f32) :
    ffnRes xn w1 (row2048 bf1) w2 (row1024 bf2) = rFFN xn w1 bf1 w2 bf2 := by
  funext i
  obtain ⟨n, j, rfl⟩ : ∃ (n : Fin 65536) (j : Fin 1024), i = ix2 n j := ⟨i 0, i 1, eq_ix2 i⟩
  unfold ffnRes rFFN
  refine congrArg₂ (· + ·) rfl (congrArg₂ (· + ·) ?_ ((row1024_apply bf2 j).trans (rRows_apply bf2 n j).symm))
  refine Eq.trans ?_ (DenseLayers.dotGeneral_rowcol_apply
    (Cert.ReferenceIdeal.dot_S65536x2048_S2048x1024_S65536x1024_1_0_0_1_n_n).wf none _ w2 n j).symm
  refine Finset.sum_congr rfl fun k _ => congrArg (· * _) ?_
  refine congrArg₂ max (congrArg₂ (· + ·) ?_ ?_) rfl
  · exact (DenseLayers.dotGeneral_rowcol_apply
      (Cert.ReferenceIdeal.dot_S65536x1024_S1024x2048_S65536x2048_1_0_0_1_n_n).wf none xn w1 n k).symm
  · exact (row2048_apply bf1 k).trans (rRows2048_apply bf1 n k).symm

/-! ## The three projections -/

theorem wcat_q (wq wk wv : FVec Ideal (⟨2, ![1024, 1024]⟩ : Shape) .f32) (k j : Fin 1024) (c : Fin 3072) (hc : c.val = j.val) :
    kWcat wq wk wv (ix2 k c) = wq (ix2 k j) := by
  unfold kWcat
  refine concatenate_apply_piece 1 _ _ (ix2 k c) 0 (by simp) _ wq rfl rfl 0 rfl (ix2 k j) (fun b hb => ?_) ?_
  · match b with
    | ⟨0, _⟩ => rfl
    | ⟨1, _⟩ => exact absurd rfl hb
  · show 0 + j.val = c.val; omega

theorem wcat_k (wq wk wv : FVec Ideal (⟨2, ![1024, 1024]⟩ : Shape) .f32) (k j : Fin 1024) (c : Fin 3072) (hc : c.val = 1024 + j.val) :
    kWcat wq wk wv (ix2 k c) = wk (ix2 k j) := by
  unfold kWcat
  refine concatenate_apply_piece 1 _ _ (ix2 k c) 1 (by simp) _ wk rfl rfl 1024 rfl (ix2 k j) (fun b hb => ?_) ?_
  · match b with
    | ⟨0, _⟩ => rfl
    | ⟨1, _⟩ => exact absurd rfl hb
  · show 1024 + j.val = c.val; omega

theorem wcat_v (wq wk wv : FVec Ideal (⟨2, ![1024, 1024]⟩ : Shape) .f32) (k j : Fin 1024) (c : Fin 3072) (hc : c.val = 2048 + j.val) :
    kWcat wq wk wv (ix2 k c) = wv (ix2 k j) := by
  unfold kWcat
  refine concatenate_apply_piece 1 _ _ (ix2 k c) 2 (by simp) _ wv rfl rfl 2048 rfl (ix2 k j) (fun b hb => ?_) ?_
  · match b with
    | ⟨0, _⟩ => rfl
    | ⟨1, _⟩ => exact absurd rfl hb
  · show 2048 + j.val = c.val; omega

/-- A column block of the one product is the product with that block's weight. -/
theorem heads_q (h : FVec Ideal SX .f32) (wq wk wv : FVec Ideal (⟨2, ![1024, 1024]⟩ : Shape) .f32)
    (hsl : (⟨2, ![65536, 3072]⟩ : Shape).Slices ![0, 0] SX) :
    headsAt ![0, 0] hsl (mm (n := 65536) (k := 1024) (m := 3072) h (kWcat wq wk wv))
      = rHeads h wq := by
  unfold headsAt rHeads
  refine congrArg (fun X => shapeCast _ X _) (funext fun i => ?_)
  obtain ⟨n, j, rfl⟩ : ∃ (n : Fin 65536) (j : Fin 1024), i = ix2 n j := ⟨i 0, i 1, eq_ix2 i⟩
  rw [slice2_axis1_apply 0 _ _ n j ⟨j.val, by have := j.isLt; omega⟩ (by simp)]
  refine Eq.trans ?_ (DenseLayers.dotGeneral_rowcol_apply
    (Cert.ReferenceIdeal.dot_S65536x1024_S1024x1024_S65536x1024_1_0_0_1_n_n).wf none h wq n j).symm
  exact Finset.sum_congr rfl fun k _ => congrArg (_ * ·) (wcat_q wq wk wv k j _ rfl)

theorem heads_k (h : FVec Ideal SX .f32) (wq wk wv : FVec Ideal (⟨2, ![1024, 1024]⟩ : Shape) .f32)
    (hsl : (⟨2, ![65536, 3072]⟩ : Shape).Slices ![0, 1024] SX) :
    headsAt ![0, 1024] hsl (mm (n := 65536) (k := 1024) (m := 3072) h (kWcat wq wk wv))
      = rHeads h wk := by
  unfold headsAt rHeads
  refine congrArg (fun X => shapeCast _ X _) (funext fun i => ?_)
  obtain ⟨n, j, rfl⟩ : ∃ (n : Fin 65536) (j : Fin 1024), i = ix2 n j := ⟨i 0, i 1, eq_ix2 i⟩
  rw [slice2_axis1_apply 1024 _ _ n j ⟨1024 + j.val, by have := j.isLt; omega⟩ rfl]
  refine Eq.trans ?_ (DenseLayers.dotGeneral_rowcol_apply
    (Cert.ReferenceIdeal.dot_S65536x1024_S1024x1024_S65536x1024_1_0_0_1_n_n).wf none h wk n j).symm
  exact Finset.sum_congr rfl fun k _ => congrArg (_ * ·) (wcat_k wq wk wv k j _ rfl)

theorem heads_v (h : FVec Ideal SX .f32) (wq wk wv : FVec Ideal (⟨2, ![1024, 1024]⟩ : Shape) .f32)
    (hsl : (⟨2, ![65536, 3072]⟩ : Shape).Slices ![0, 2048] SX) :
    headsAt ![0, 2048] hsl (mm (n := 65536) (k := 1024) (m := 3072) h (kWcat wq wk wv))
      = rHeads h wv := by
  unfold headsAt rHeads
  refine congrArg (fun X => shapeCast _ X _) (funext fun i => ?_)
  obtain ⟨n, j, rfl⟩ : ∃ (n : Fin 65536) (j : Fin 1024), i = ix2 n j := ⟨i 0, i 1, eq_ix2 i⟩
  rw [slice2_axis1_apply 2048 _ _ n j ⟨2048 + j.val, by have := j.isLt; omega⟩ rfl]
  refine Eq.trans ?_ (DenseLayers.dotGeneral_rowcol_apply
    (Cert.ReferenceIdeal.dot_S65536x1024_S1024x1024_S65536x1024_1_0_0_1_n_n).wf none h wv n j).symm
  exact Finset.sum_congr rfl fun k _ => congrArg (_ * ·) (wcat_v wq wk wv k j _ rfl)

/-- Scaling the scores by `1/8` is dividing them by `8`, on every extended real. -/
theorem scale_agree (h1 h2 : S0.BroadcastsInDim (⟨3, ![65536, 16, 16]⟩ : Shape) ![]) :
    (fun s : FVec Ideal (⟨3, ![65536, 16, 16]⟩ : Shape) .f32 =>
        mulf s (broadcastInDim _ ![] h1 (constant (F := Ideal) S0 .f32 0x3E000000#32)))
      = fun s => Host.divf s (broadcastInDim _ ![] h2 (constant (F := Ideal) S0 .f32 0x41000000#32)) := by
  funext s i
  show s i * Ideal.ofBits .f32 0x3E000000#32 = Ideal.div (s i) (Ideal.ofBits .f32 0x41000000#32)
  rw [Consts.ofBits_eighth, Consts.ofBits_8, Ideal.div_coe (by norm_num)]

/-- The two attentions are the same operations. -/
theorem attnOf_eq (q k v : FVec Ideal (⟨3, ![65536, 16, 64]⟩ : Shape) .f32)
    (sc : FVec Ideal (⟨3, ![65536, 16, 16]⟩ : Shape) .f32 → FVec Ideal (⟨3, ![65536, 16, 16]⟩ : Shape) .f32) :
    attnOf q k v sc = rAttnOf q k v sc := rfl

/-- THE ATTENTION, THE PROJECTION AND THE RESIDUAL AGREE. -/
theorem x1_agree (h : FVec Ideal SX .f32) (wq wk wv wo : FVec Ideal (⟨2, ![1024, 1024]⟩ : Shape) .f32) (bo : FVec Ideal SVec .f32) :
    kX1 h wq wk wv wo bo = rX1 h wq wk wv wo bo := by
  funext i
  obtain ⟨n, j, rfl⟩ : ∃ (n : Fin 65536) (j : Fin 1024), i = ix2 n j := ⟨i 0, i 1, eq_ix2 i⟩
  unfold kX1 projRes rX1 kAttn
  rw [heads_q, heads_k, heads_v, scale_agree _ (by decide), attnOf_eq]
  refine congrArg₂ (· + ·) rfl (congrArg₂ (· + ·) ?_ ((row1024_apply bo j).trans (rRows_apply bo n j).symm))
  exact (DenseLayers.dotGeneral_rowcol_apply
    (Cert.ReferenceIdeal.dot_S65536x1024_S1024x1024_S65536x1024_1_0_0_1_n_n).wf none _ wo n j).symm

end Cert.Bridge

end
-- ==== Proof.Bridge.Finite.lean ====
import proofs.«165553_j30348238914117_2_alg».proof.Proof.Bridge.BN
import Idealize.ShloMosaic.PureOps.Reduce

/-!
# Every intermediate array of the reference is an array of real numbers

On arguments all of whose entries are real numbers: a sum of products of reals is real (every matrix product), a softmax
of reals is real (the row maximum of sixteen reals is real; an exponential of a real is a positive real; a sum of sixteen
positive reals is a positive real; a real divided by a positive real is real), a batch normalisation of reals is real (the
column mean is real; the column variance is a real that is not negative, so adding the positive `ε` gives a positive
real, whose reciprocal square root is real), and the pointwise operations keep reals real.
-/

set_option maxRecDepth 16384

noncomputable section

namespace Cert.Bridge

open Idealize.ShloMosaic Idealize.ShloMosaic.ValueIdx Cert.LibBatchMoments Cert.Spec
open Cert.KernelIdeal.Hand Cert.ReferenceIdeal.RefChain

/-- An array of extended reals all of whose entries are real numbers. -/
def AllReal {s : Shape} (x : s.Idx → EReal) : Prop := ∀ i, IsReal (x i)
/-- An array of extended reals all of whose entries are positive real numbers. -/
def AllPos {s : Shape} (x : s.Idx → EReal) : Prop := ∀ i, ∃ r : ℝ, 0 < r ∧ x i = (r : EReal)

theorem AllPos.allReal {s : Shape} {x : s.Idx → EReal} (h : AllPos x) : AllReal x :=
  fun i => let ⟨r, _, e⟩ := h i; ⟨r, e⟩

section Pointwise

variable {s : Shape} {φ : FTy}

theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_mulf {a b : FVec Ideal s φ} (ha : AllReal a) (hb : AllReal b) : AllReal (mulf a b) :=
  fun i => (ha i).mul (hb i)
theorem allReal_maximumf {a b : FVec Ideal s φ} (ha : AllReal a) (hb : AllReal b) : AllReal (maximumf a b) :=
  fun i => (ha i).max (hb i)

theorem allPos_exp {a : FVec Ideal s φ} (ha : AllReal a) : AllPos (Host.exp a) := fun i => by
  obtain ⟨r, hr⟩ := ha i
  refine ⟨Real.exp r, Real.exp_pos r, ?_⟩
  show Ideal.exp (a i) = _
  rw [hr]; rfl

theorem allReal_div {a b : FVec Ideal s φ} (ha : AllReal a) (hb : AllPos b) : AllReal (Host.divf a b) := fun i => by
  obtain ⟨x, hx⟩ := ha i
  obtain ⟨y, hy, hyb⟩ := hb i
  show IsReal (Ideal.div (a i) (b i))
  rw [hx, hyb, Ideal.div_coe hy.ne']
  exact (isReal_coe _).mul (isReal_coe _)

end Pointwise

theorem allReal_bcast {s t : Shape} (dims : Fin s.rank → Fin t.rank) (h : s.BroadcastsInDim t dims) {x : s.Idx → EReal}
    (hx : AllReal x) : AllReal (broadcastInDim t dims h x) := fun j => hx _
theorem allPos_bcast {s t : Shape} (dims : Fin s.rank → Fin t.rank) (h : s.BroadcastsInDim t dims) {x : s.Idx → EReal}
    (hx : AllPos x) : AllPos (broadcastInDim t dims h x) := fun j => hx _
theorem allReal_shapeCast {s t : Shape} (h : s.ShapeCasts t) {x : s.Idx → EReal} (hx : AllReal x) :
    AllReal (shapeCast t x h) := fun j => hx _
theorem allReal_const (s : Shape) (w : BitVec 32) (r : ℝ) (hw : Ideal.ofBits .f32 w = (r : EReal)) :
    AllReal (constant (F := Ideal) s .f32 w) := fun _ => ⟨r, hw⟩
theorem allPos_const (s : Shape) (w : BitVec 32) (r : ℝ) (hr : 0 < r) (hw : Ideal.ofBits .f32 w = (r : EReal)) :
    AllPos (constant (F := Ideal) s .f32 w) := fun _ => ⟨r, hr, hw⟩

/-- A host matrix product of arrays of reals is an array of reals, whatever its dimension numbers. -/
theorem allReal_dot {sl sr so : Shape} {φ₁ φ₂ : FTy} (d : DotDims sl sr so) (prec : Option ContractPrecision)
    {A : FVec Ideal sl φ₁} {B : FVec Ideal sr φ₂} (hA : AllReal A) (hB : AllReal B) : AllReal (Host.dotGeneral d prec A B) :=
  fun j => by
    show IsReal (FloatOps.dotGeneral d prec .single A B j)
    rw [Ideal.dotGeneral_apply]
    exact isReal_sum _ _ fun k _ => (hA _).mul (hB _)

/-! ## The two reductions of the softmax -/

/-- A fold of a maximum from the bottom over a finite set of reals is the bottom on the empty set, else a real. -/
theorem fold_max_bot_or_real {ι : Type} [DecidableEq ι] (op : EReal → EReal → EReal) [Std.Commutative op] [Std.Associative op]
    (hop : ∀ a b, op a b = max a b) (f : ι → EReal) (hf : ∀ k, IsReal (f k)) (s : Finset ι) :
    (s = ∅ ∧ s.fold op ⊥ f = ⊥) ∨ IsReal (s.fold op ⊥ f) := by
  induction s using Finset.induction_on with
  | empty => exact Or.inl ⟨rfl, Finset.fold_empty⟩
  | insert a s ha ih =>
    right
    rw [Finset.fold_insert ha, hop]
    rcases ih with ⟨_, h⟩ | h
    · rw [h, max_eq_left bot_le]; exact hf a
    · exact (hf a).max h

abbrev S3 : Shape := ⟨3, ![65536, 16, 16]⟩
abbrev S2 : Shape := ⟨2, ![65536, 16]⟩

/-- The maximum over the last axis, from `-inf`, of an array of reals is an array of reals. -/
theorem allReal_rowmax (red : S3.ReducesTo [2] S2) (hs : 0 < S0.numel) {x : FVec Ideal S3 .f32} (hx : AllReal x) :
    AllReal (Host.reduce (FloatOps.maximumf (F := Ideal) (φ := .f32)) x (constant (F := Ideal) S0 .f32 0xFF800000#32) red hs) := fun j => by
  have hR : S3.Reduces [2] S2 := by decide
  rw [Host.reduce_eq_fold_single (FloatOps.maximumf (F := Ideal) (φ := .f32)) x _ red hR hs j]
  rw [show (constant (F := Ideal) S0 .f32 0xFF800000#32) (Shape.Idx.first hs) = (⊥ : EReal) from Consts.ofBits_neg_inf]
  rcases fold_max_bot_or_real (ι := Fin (S3.size 2)) (FloatOps.maximumf (F := Ideal) (φ := .f32)) (fun _ _ => rfl)
    (x ∘ hR.lift j) (fun k => hx _) Finset.univ with ⟨h, _⟩ | h
  · exact absurd h (Finset.univ_nonempty (α := Fin 16)).ne_empty
  · exact h

/-- A sum of positive reals over a non-empty finite type is a positive real. -/
theorem pos_sum {ι : Type} [Fintype ι] [Nonempty ι] (f : ι → EReal) (hf : ∀ k, ∃ r : ℝ, 0 < r ∧ f k = (r : EReal)) :
    ∃ r : ℝ, 0 < r ∧ ∑ k, f k = (r : EReal) := by
  choose g hg using hf
  refine ⟨∑ k, g k, Finset.sum_pos (fun k _ => (hg k).1) Finset.univ_nonempty, ?_⟩
  rw [← coe_sum]
  exact Finset.sum_congr rfl fun k _ => (hg k).2

/-- The sum over the last axis, from zero, of an array of positive reals is an array of positive reals. -/
theorem allPos_rowsum (red : S3.ReducesTo [2] S2) (hs : 0 < S0.numel) {x : FVec Ideal S3 .f32} (hx : AllPos x) :
    AllPos (Host.reduceAdd x (constant (F := Ideal) S0 .f32 0x00000000#32) red hs) := fun j => by
  simp only [Host.reduceAdd, Ideal.hostReduceAdd_def]
  rw [Ideal.hostReduceAdd_single red (by decide)]
  rw [show (constant (F := Ideal) S0 .f32 0x00000000#32) (Shape.Idx.first hs) = (0 : EReal) from Ideal.ofBits_zero_f32, zero_add]
  haveI : Nonempty (Fin (S3.size 2)) := ⟨⟨0, by decide⟩⟩
  exact pos_sum _ fun k => hx _

end Cert.Bridge

end
-- ==== Proof.Bridge.Pre.lean ====
import proofs.«165553_j30348238914117_2_alg».proof.Defs
import proofs.«165553_j30348238914117_2_alg».proof.Proof.Gen.Pre_finite_inputs
import proofs.«165553_j30348238914117_2_alg».proof.Proof.Bridge.Finite
import Idealize.ShloMosaic.Lib.ReduceAll

/-!
# The precondition says every entry of every argument is a real number

The precondition is the conjunction, over the fourteen arguments, of "every entry's absolute value is below `+inf`";
an extended real whose absolute value is below the top is neither infinity.
-/

set_option maxRecDepth 16384

noncomputable section

namespace Cert.Bridge

open Idealize.ShloMosaic Idealize.ShloMosaic.ValueIdx Cert.LibBatchMoments Idealize.SL.Sem

theorem ofBits_pos_inf : Ideal.ofBits .f32 0x7F800000#32 = (⊤ : EReal) := by
  simp [Ideal.ofBits, Ideal.ieee]

/-- An extended real whose absolute value compares below the top is a real number. -/
theorem isReal_of_abs_lt_top (x : EReal) (h : Ideal.cmp .olt (max x (-x)) ⊤ = 1#1) : IsReal x := by
  have h' : max x (-x) < ⊤ := by
    by_contra hn
    simp [Ideal.cmp, hn] at h
  induction x using EReal.rec with
  | bot => simp at h'
  | coe r => exact ⟨r, rfl⟩
  | top => simp at h'

instance : Subsingleton (⟨0, ![]⟩ : Shape).Idx := ⟨fun a b => funext fun d => d.elim0⟩

/-- One conjunct of the precondition: the `all` of "absolute value below `+inf`" over an argument says every entry is real. -/
theorem allReal_of_all {s : Shape} {axes : List (Fin s.rank)} (red : s.ReducesTo axes (⟨0, ![]⟩ : Shape))
    (hs : 0 < (⟨0, ![]⟩ : Shape).numel) (a : FVec Ideal s .f32) (bc : (⟨0, ![]⟩ : Shape).BroadcastsInDim s ![])
    (e : Host.reduce IntOp.andi (cmpf .olt (Host.absf a) (broadcastInDim s ![] bc (constant (F := Ideal) (⟨0, ![]⟩ : Shape) .f32 0x7F800000#32)))
      (constantI (⟨0, ![]⟩ : Shape) 1 1#1) red hs ix0 = 1#1) : AllReal a := fun i => by
  have h := Host.reduce_andi_all _ _ red hs ix0 e i
  apply isReal_of_abs_lt_top
  rw [← ofBits_pos_inf]
  exact h

/-- THE PRECONDITION, READ: every argument array is an array of real numbers. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := Cert.KernelIdeal.S65536x1024) (m ((c.tc : Thread Cert.KernelIdeal.nD Cert.KernelIdeal.τ).loc Cert.KernelIdeal.main_arg0)) ∧
    AllReal (s := Cert.KernelIdeal.S1024x1024) (m ((c.tc : Thread Cert.KernelIdeal.nD Cert.KernelIdeal.τ).loc Cert.KernelIdeal.main_arg1)) ∧
    AllReal (s := Cert.KernelIdeal.S1024x1024) (m ((c.tc : Thread Cert.KernelIdeal.nD Cert.KernelIdeal.τ).loc Cert.KernelIdeal.main_arg2)) ∧
    AllReal (s := Cert.KernelIdeal.S1024x1024) (m ((c.tc : Thread Cert.KernelIdeal.nD Cert.KernelIdeal.τ).loc Cert.KernelIdeal.main_arg3)) ∧
    AllReal (s := Cert.KernelIdeal.S1024x1024) (m ((c.tc : Thread Cert.KernelIdeal.nD Cert.KernelIdeal.τ).loc Cert.KernelIdeal.main_arg4)) ∧
    AllReal (s := Cert.KernelIdeal.S1024) (m ((c.tc : Thread Cert.KernelIdeal.nD Cert.KernelIdeal.τ).loc Cert.KernelIdeal.main_arg5)) ∧
    AllReal (s := Cert.KernelIdeal.S1024) (m ((c.tc : Thread Cert.KernelIdeal.nD Cert.KernelIdeal.τ).loc Cert.KernelIdeal.main_arg6)) ∧
    AllReal (s := Cert.KernelIdeal.S1024) (m ((c.tc : Thread Cert.KernelIdeal.nD Cert.KernelIdeal.τ).loc Cert.KernelIdeal.main_arg7)) ∧
    AllReal (s := Cert.KernelIdeal.S1024x2048) (m ((c.tc : Thread Cert.KernelIdeal.nD Cert.KernelIdeal.τ).loc Cert.KernelIdeal.main_arg8)) ∧
    AllReal (s := Cert.KernelIdeal.S2048) (m ((c.tc : Thread Cert.KernelIdeal.nD Cert.KernelIdeal.τ).loc Cert.KernelIdeal.main_arg9)) ∧
    AllReal (s := Cert.KernelIdeal.S2048x1024) (m ((c.tc : Thread Cert.KernelIdeal.nD Cert.KernelIdeal.τ).loc Cert.KernelIdeal.main_arg10)) ∧
    AllReal (s := Cert.KernelIdeal.S1024) (m ((c.tc : Thread Cert.KernelIdeal.nD Cert.KernelIdeal.τ).loc Cert.KernelIdeal.main_arg11)) ∧
    AllReal (s := Cert.KernelIdeal.S1024) (m ((c.tc : Thread Cert.KernelIdeal.nD Cert.KernelIdeal.τ).loc Cert.KernelIdeal.main_arg12)) ∧
    AllReal (s := Cert.KernelIdeal.S1024) (m ((c.tc : Thread Cert.KernelIdeal.nD Cert.KernelIdeal.τ).loc Cert.KernelIdeal.main_arg13)) := by
  have h := congrFun (hpre c) ix0
  obtain ⟨h63, h67⟩ := IntOp.andi_eq_one.1 h
  obtain ⟨h58, h62⟩ := IntOp.andi_eq_one.1 h63
  obtain ⟨h53, h57⟩ := IntOp.andi_eq_one.1 h58
  obtain ⟨h48, h52⟩ := IntOp.andi_eq_one.1 h53
  obtain ⟨h43, h47⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all _ _ _ _ h3, allReal_of_all _ _ _ _ h7, allReal_of_all _ _ _ _ h12, allReal_of_all _ _ _ _ h17,
    allReal_of_all _ _ _ _ h22, allReal_of_all _ _ _ _ h27, allReal_of_all _ _ _ _ h32, allReal_of_all _ _ _ _ h37,
    allReal_of_all _ _ _ _ h42, allReal_of_all _ _ _ _ h47, allReal_of_all _ _ _ _ h52, allReal_of_all _ _ _ _ h57,
    allReal_of_all _ _ _ _ h62, allReal_of_all _ _ _ _ h67⟩

end Cert.Bridge

end
-- ==== Proof.Bridge.FiniteRef.lean ====
import proofs.«165553_j30348238914117_2_alg».proof.Proof.Bridge.Finite

/-!
# The reference's stretches keep arrays of real numbers real
-/

set_option maxRecDepth 16384

noncomputable section

namespace Cert.Bridge

open Idealize.ShloMosaic Idealize.ShloMosaic.ValueIdx Cert.LibBatchMoments Cert.Spec
open Cert.KernelIdeal.Hand Cert.ReferenceIdeal.RefChain

/-! ## The stretches of the reference -/

/-- The maximum with `-inf` of an array of reals is that array. -/
theorem allReal_max_neginf {t : Shape} (h : S0.BroadcastsInDim t ![]) {y : FVec Ideal t .f32} (hy : AllReal y) :
    AllReal (maximumf (broadcastInDim t ![] h (constant (F := Ideal) S0 .f32 0xFF800000#32)) y) := fun j => by
  show IsReal (max (Ideal.ofBits .f32 0xFF800000#32) (y j))
  rw [Consts.ofBits_neg_inf, max_eq_right bot_le]
  exact hy j

theorem allReal_rSmax {s : FVec Ideal S3 .f32} (hs : AllReal s) : AllReal (rSmax s) := by
  unfold rSmax
  refine allReal_div (AllPos.allReal ?_) (allPos_bcast _ _ (allPos_bcast _ _ (allPos_rowsum _ _ ?_)))
  · exact allPos_exp (allReal_subf hs (allReal_bcast _ _ (allReal_bcast _ _ (allReal_max_neginf _ (allReal_rowmax _ _ hs)))))
  · exact allPos_exp (allReal_subf hs (allReal_bcast _ _ (allReal_bcast _ _ (allReal_max_neginf _ (allReal_rowmax _ _ hs)))))

theorem allReal_rRows {v : FVec Ideal SVec .f32} (hv : AllReal v) : AllReal (rRows v) :=
  allReal_bcast _ _ (allReal_bcast _ _ hv)
theorem allReal_rRows2048 {v : FVec Ideal (⟨1, ![2048]⟩ : Shape) .f32} (hv : AllReal v) : AllReal (rRows2048 v) :=
  allReal_bcast _ _ (allReal_bcast _ _ hv)

theorem allReal_rHeads {h : FVec Ideal SX .f32} {w : FVec Ideal (⟨2, ![1024, 1024]⟩ : Shape) .f32} (hh : AllReal h) (hw : AllReal w) :
    AllReal (rHeads h w) :=
  allReal_shapeCast _ (allReal_dot _ _ hh hw)

/-- The attention, its projection and the residual: an array of reals. -/
theorem allReal_rX1 {h : FVec Ideal SX .f32} {wq wk wv wo : FVec Ideal (⟨2, ![1024, 1024]⟩ : Shape) .f32} {bo : FVec Ideal SVec .f32}
    (hh : AllReal h) (hq : AllReal wq) (hk : AllReal wk) (hv : AllReal wv) (ho : AllReal wo) (hb : AllReal bo) :
    AllReal (rX1 h wq wk wv wo bo) := by
  unfold rX1 rAttnOf
  refine allReal_addf hh (allReal_addf (allReal_dot _ _ (allReal_shapeCast _ (allReal_dot _ _ (allReal_rSmax ?_) (allReal_rHeads hh hv))) ho) (allReal_rRows hb))
  exact allReal_div (allReal_dot _ _ (allReal_rHeads hh hq) (allReal_rHeads hh hk))
    (allPos_bcast _ _ (allPos_const _ _ 8 (by norm_num) Consts.ofBits_8))

/-- A batch normalisation of an array of reals with real scale and shift: an array of reals. -/
theorem allReal_rBN {x : FVec Ideal SX .f32} {g b : FVec Ideal SVec .f32} (hx : AllReal x) (hg : AllReal g) (hb : AllReal b) :
    AllReal (rBN x g b) := fun i => by
  obtain ⟨n, j, rfl⟩ : ∃ (n : Fin 65536) (j : Fin 1024), i = ix2 n j := ⟨i 0, i 1, eq_ix2 i⟩
  unfold rBN
  rw [addf_apply, mulf_apply, mulf_apply, subf_apply, rRows_apply, rRows_apply, rRows_apply, rRows_apply]
  show IsReal ((x (ix2 n j) - rMean x (ix1 j)) * Ideal.rsqrt (rVar x (ix1 j) + Ideal.ofBits .f32 0x3727C5AC#32) * g (ix1 j) + b (ix1 j))
  have hmu : IsReal (rMean x (ix1 j)) := by
    rw [rMean_apply]; exact (isReal_sum _ _ fun n _ => hx _).mul (isReal_coe _)
  obtain ⟨v, hv0, hv⟩ := variance_isReal_nonneg (fun n : Fin 65536 => x (ix2 n j)) (fun n => hx _) (1 / 65536) card_fact _ (rMean_apply x j)
  have hv' : rVar x (ix1 j) = (v : EReal) := (rVar_apply x j).trans hv
  have hrs : IsReal (Ideal.rsqrt (rVar x (ix1 j) + Ideal.ofBits .f32 0x3727C5AC#32)) := by
    rw [hv', Consts.ofBits_eps, ← EReal.coe_add, Ideal.rsqrt_coe]
    have hpos : (0 : ℝ) < v + 10995116 / 1099511627776 := by positivity
    rw [if_neg (not_lt.2 hpos.le), if_neg hpos.ne']
    exact isReal_coe _
  exact ((((hx _).sub hmu).mul hrs).mul (hg _)).add (hb _)

/-- The feed-forward block with its residual: an array of reals. -/
theorem allReal_rFFN {x : FVec Ideal SX .f32} {w1 : FVec Ideal (⟨2, ![1024, 2048]⟩ : Shape) .f32}
    {bf1 : FVec Ideal (⟨1, ![2048]⟩ : Shape) .f32} {w2 : FVec Ideal (⟨2, ![2048, 1024]⟩ : Shape) .f32} {bf2 : FVec Ideal SVec .f32}
    (hx : AllReal x) (h1 : AllReal w1) (hb1 : AllReal bf1) (h2 : AllReal w2) (hb2 : AllReal bf2) :
    AllReal (rFFN x w1 bf1 w2 bf2) := by
  unfold rFFN
  exact allReal_addf hx (allReal_addf (allReal_dot _ _ (allReal_maximumf
    (allReal_addf (allReal_dot _ _ hx h1) (allReal_rRows2048 hb1))
    (allReal_bcast _ _ (allReal_const _ _ 0 Ideal.ofBits_zero_f32))) h2) (allReal_rRows hb2))

end Cert.Bridge

end
-- ==== Proof.Algebraic.lean ====
import proofs.«165553_j30348238914117_2_alg».proof.Defs
import proofs.«165553_j30348238914117_2_alg».proof.Proof.Gen.Pre_finite_inputs
import proofs.«165553_j30348238914117_2_alg».proof.Proof.KI.Run
import proofs.«165553_j30348238914117_2_alg».proof.Proof.RefFrame
import proofs.«165553_j30348238914117_2_alg».proof.Proof.Bridge.Layers
import proofs.«165553_j30348238914117_2_alg».proof.Proof.Bridge.Pre
import proofs.«165553_j30348238914117_2_alg».proof.Proof.Bridge.FiniteRef

/-!
# The two idealized programs end with equal results

The idealized kernel's run leaves its result buffer at the last boundary's contents (the fold through the four
pallas_calls and the host stretches between them); the idealized reference's run leaves its result buffer at the fold of
its host operations.  From memories that agree on the fourteen arguments, all of them finite, the two are one array.
-/

noncomputable section

namespace Cert.Bridge

open Idealize.ShloMosaic Idealize.ShloMosaic.TcCoe Idealize.SL.Sem

/-- The agreement of the two launch memories on the arguments, as the claim states it. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- THE BRIDGE: the kernel's result array is the reference's. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD) :
    StableHlo.after (Cert.ReferenceIdeal.RunP.ops (F := Ideal)) (StableHlo.launchContents m' c) (Proc.devRef .tc Cert.ReferenceIdeal.main_v86)
      = Cert.KernelIdeal.Hand.W8 m ρ c (Proc.devRef .tc Cert.KernelIdeal.main_v65) := by
  obtain ⟨r0, r1, r2, r3, r4, r5, r6, r7, r8, r9, r10, r11, r12, r13⟩ := args_real m hpre c
  obtain ⟨g0, g1, g2, g3, g4, g5, g6, g7, g8, g9, g10, g11, g12, g13⟩ := hagree c
  -- the reference's result, over the kernel's argument arrays
  have hR := Cert.ReferenceIdeal.RefChain.ref_result (StableHlo.launchContents m' c)
  have e0 : StableHlo.launchContents m' c (Proc.devRef .tc Cert.ReferenceIdeal.main_arg0) = (m ((c.tc : Thread Cert.KernelIdeal.nD Cert.KernelIdeal.τ).loc Cert.KernelIdeal.main_arg0)) := g0
  have e1 : StableHlo.launchContents m' c (Proc.devRef .tc Cert.ReferenceIdeal.main_arg1) = (m ((c.tc : Thread Cert.KernelIdeal.nD Cert.KernelIdeal.τ).loc Cert.KernelIdeal.main_arg1)) := g1
  have e2 : StableHlo.launchContents m' c (Proc.devRef .tc Cert.ReferenceIdeal.main_arg2) = (m ((c.tc : Thread Cert.KernelIdeal.nD Cert.KernelIdeal.τ).loc Cert.KernelIdeal.main_arg2)) := g2
  have e3 : StableHlo.launchContents m' c (Proc.devRef .tc Cert.ReferenceIdeal.main_arg3) = (m ((c.tc : Thread Cert.KernelIdeal.nD Cert.KernelIdeal.τ).loc Cert.KernelIdeal.main_arg3)) := g3
  have e4 : StableHlo.launchContents m' c (Proc.devRef .tc Cert.ReferenceIdeal.main_arg4) = (m ((c.tc : Thread Cert.KernelIdeal.nD Cert.KernelIdeal.τ).loc Cert.KernelIdeal.main_arg4)) := g4
  have e5 : StableHlo.launchContents m' c (Proc.devRef .tc Cert.ReferenceIdeal.main_arg5) = (m ((c.tc : Thread Cert.KernelIdeal.nD Cert.KernelIdeal.τ).loc Cert.KernelIdeal.main_arg5)) := g5
  have e6 : StableHlo.launchContents m' c (Proc.devRef .tc Cert.ReferenceIdeal.main_arg6) = (m ((c.tc : Thread Cert.KernelIdeal.nD Cert.KernelIdeal.τ).loc Cert.KernelIdeal.main_arg6)) := g6
  have e7 : StableHlo.launchContents m' c (Proc.devRef .tc Cert.ReferenceIdeal.main_arg7) = (m ((c.tc : Thread Cert.KernelIdeal.nD Cert.KernelIdeal.τ).loc Cert.KernelIdeal.main_arg7)) := g7
  have e8 : StableHlo.launchContents m' c (Proc.devRef .tc Cert.ReferenceIdeal.main_arg8) = (m ((c.tc : Thread Cert.KernelIdeal.nD Cert.KernelIdeal.τ).loc Cert.KernelIdeal.main_arg8)) := g8
  have e9 : StableHlo.launchContents m' c (Proc.devRef .tc Cert.ReferenceIdeal.main_arg9) = (m ((c.tc : Thread Cert.KernelIdeal.nD Cert.KernelIdeal.τ).loc Cert.KernelIdeal.main_arg9)) := g9
  have e10 : StableHlo.launchContents m' c (Proc.devRef .tc Cert.ReferenceIdeal.main_arg10) = (m ((c.tc : Thread Cert.KernelIdeal.nD Cert.KernelIdeal.τ).loc Cert.KernelIdeal.main_arg10)) := g10
  have e11 : StableHlo.launchContents m' c (Proc.devRef .tc Cert.ReferenceIdeal.main_arg11) = (m ((c.tc : Thread Cert.KernelIdeal.nD Cert.KernelIdeal.τ).loc Cert.KernelIdeal.main_arg11)) := g11
  have e12 : StableHlo.launchContents m' c (Proc.devRef .tc Cert.ReferenceIdeal.main_arg12) = (m ((c.tc : Thread Cert.KernelIdeal.nD Cert.KernelIdeal.τ).loc Cert.KernelIdeal.main_arg12)) := g12
  have e13 : StableHlo.launchContents m' c (Proc.devRef .tc Cert.ReferenceIdeal.main_arg13) = (m ((c.tc : Thread Cert.KernelIdeal.nD Cert.KernelIdeal.τ).loc Cert.KernelIdeal.main_arg13)) := g13
  rw [e0, e1, e2, e3, e4, e5, e6, e7, e8, e9, e10, e11, e12, e13] at hR
  -- the kernel's result
  have hK := (Cert.KernelIdeal.Hand.kernel_result m ρ c).trans
    (congrArg (fun X => Cert.KernelIdeal.Hand.kNorm X (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
      ((Cert.KernelIdeal.Hand.out2_eq m ρ c).trans
        (congrArg (fun X => Cert.KernelIdeal.Hand.kX2 X (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
          (Cert.KernelIdeal.Hand.out1_eq m ρ c))))
  -- the attention stretch agrees, and is real
  have hx1 := x1_agree (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have hr1 := allReal_rX1 r0 r1 r2 r3 r4 r5
  -- the feed-forward stretch agrees, and is real
  have hx2 : Cert.KernelIdeal.Hand.kX2 (Cert.ReferenceIdeal.RefChain.rX1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.ReferenceIdeal.RefChain.rFFN (Cert.ReferenceIdeal.RefChain.rBN
          (Cert.ReferenceIdeal.RefChain.rX1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
    unfold Cert.KernelIdeal.Hand.kX2
    rw [norm_agree _ hr1]
    exact ffn_agree _ _ _ _ _
  have hr2 := allReal_rFFN (allReal_rBN hr1 r6 r7) r8 r9 r10 r11
  rw [hR, hK, hx1, hx2]
  exact (norm_agree _ hr2 _ _).symm

theorem algebraic : Cert.algebraic_KernelIdeal_ReferenceIdeal := by
  intro m ρ m' ρ' hpre hagree
  refine ⟨fun c => Cert.KernelIdeal.Hand.W8 m ρ c (Proc.devRef .tc Cert.KernelIdeal.main_v65), ?_, ?_⟩
  · exact (θ_run (Cert.KernelIdeal.defs (F := Ideal)) _ _).mono (fun r h c =>
      ⟨h c _ (Cert.KernelIdeal.Hand.mem_uc Cert.KernelIdeal.main_v65 (by decide)),
       (h c _ (Cert.KernelIdeal.Hand.mem_uc Cert.KernelIdeal.main_arg0 (by decide))).trans (Cert.KernelIdeal.Hand.W8_main_arg0 m ρ c),
       (h c _ (Cert.KernelIdeal.Hand.mem_uc Cert.KernelIdeal.main_arg1 (by decide))).trans (Cert.KernelIdeal.Hand.W8_main_arg1 m ρ c),
       (h c _ (Cert.KernelIdeal.Hand.mem_uc Cert.KernelIdeal.main_arg2 (by decide))).trans (Cert.KernelIdeal.Hand.W8_main_arg2 m ρ c),
       (h c _ (Cert.KernelIdeal.Hand.mem_uc Cert.KernelIdeal.main_arg3 (by decide))).trans (Cert.KernelIdeal.Hand.W8_main_arg3 m ρ c),
       (h c _ (Cert.KernelIdeal.Hand.mem_uc Cert.KernelIdeal.main_arg4 (by decide))).trans (Cert.KernelIdeal.Hand.W8_main_arg4 m ρ c),
       (h c _ (Cert.KernelIdeal.Hand.mem_uc Cert.KernelIdeal.main_arg5 (by decide))).trans (Cert.KernelIdeal.Hand.W8_main_arg5 m ρ c),
       (h c _ (Cert.KernelIdeal.Hand.mem_uc Cert.KernelIdeal.main_arg6 (by decide))).trans (Cert.KernelIdeal.Hand.W8_main_arg6 m ρ c),
       (h c _ (Cert.KernelIdeal.Hand.mem_uc Cert.KernelIdeal.main_arg7 (by decide))).trans (Cert.KernelIdeal.Hand.W8_main_arg7 m ρ c),
       (h c _ (Cert.KernelIdeal.Hand.mem_uc Cert.KernelIdeal.main_arg8 (by decide))).trans (Cert.KernelIdeal.Hand.W8_main_arg8 m ρ c),
       (h c _ (Cert.KernelIdeal.Hand.mem_uc Cert.KernelIdeal.main_arg9 (by decide))).trans (Cert.KernelIdeal.Hand.W8_main_arg9 m ρ c),
       (h c _ (Cert.KernelIdeal.Hand.mem_uc Cert.KernelIdeal.main_arg10 (by decide))).trans (Cert.KernelIdeal.Hand.W8_main_arg10 m ρ c),
       (h c _ (Cert.KernelIdeal.Hand.mem_uc Cert.KernelIdeal.main_arg11 (by decide))).trans (Cert.KernelIdeal.Hand.W8_main_arg11 m ρ c),
       (h c _ (Cert.KernelIdeal.Hand.mem_uc Cert.KernelIdeal.main_arg12 (by decide))).trans (Cert.KernelIdeal.Hand.W8_main_arg12 m ρ c),
       (h c _ (Cert.KernelIdeal.Hand.mem_uc Cert.KernelIdeal.main_arg13 (by decide))).trans (Cert.KernelIdeal.Hand.W8_main_arg13 m ρ c)⟩)
      (Cert.KernelIdeal.Hand.run_main (F := Ideal) m ρ)
  · exact (θ_run (Cert.ReferenceIdeal.defs (F := Ideal)) _ _).mono (fun r h c =>
      ⟨(h c Cert.ReferenceIdeal.main_v86).trans (result_eq m ρ m' hpre hagree c),
       (h c Cert.ReferenceIdeal.main_arg0).trans (Cert.ReferenceIdeal.RefFrame.kept_main_arg0 _),
       (h c Cert.ReferenceIdeal.main_arg1).trans (Cert.ReferenceIdeal.RefFrame.kept_main_arg1 _),
       (h c Cert.ReferenceIdeal.main_arg2).trans (Cert.ReferenceIdeal.RefFrame.kept_main_arg2 _),
       (h c Cert.ReferenceIdeal.main_arg3).trans (Cert.ReferenceIdeal.RefFrame.kept_main_arg3 _),
       (h c Cert.ReferenceIdeal.main_arg4).trans (Cert.ReferenceIdeal.RefFrame.kept_main_arg4 _),
       (h c Cert.ReferenceIdeal.main_arg5).trans (Cert.ReferenceIdeal.RefFrame.kept_main_arg5 _),
       (h c Cert.ReferenceIdeal.main_arg6).trans (Cert.ReferenceIdeal.RefFrame.kept_main_arg6 _),
       (h c Cert.ReferenceIdeal.main_arg7).trans (Cert.ReferenceIdeal.RefFrame.kept_main_arg7 _),
       (h c Cert.ReferenceIdeal.main_arg8).trans (Cert.ReferenceIdeal.RefFrame.kept_main_arg8 _),
       (h c Cert.ReferenceIdeal.main_arg9).trans (Cert.ReferenceIdeal.RefFrame.kept_main_arg9 _),
       (h c Cert.ReferenceIdeal.main_arg10).trans (Cert.ReferenceIdeal.RefFrame.kept_main_arg10 _),
       (h c Cert.ReferenceIdeal.main_arg11).trans (Cert.ReferenceIdeal.RefFrame.kept_main_arg11 _),
       (h c Cert.ReferenceIdeal.main_arg12).trans (Cert.ReferenceIdeal.RefFrame.kept_main_arg12 _),
       (h c Cert.ReferenceIdeal.main_arg13).trans (Cert.ReferenceIdeal.RefFrame.kept_main_arg13 _)⟩)
      (Cert.ReferenceIdeal.RunP.run_after (F := Ideal) m' ρ')

end Cert.Bridge

end
-- ==== Proof.lean ====
import proofs.«165553_j30348238914117_2_alg».proof.Defs
import proofs.«165553_j30348238914117_2_alg».proof.Proof.Gen.Kernel
import proofs.«165553_j30348238914117_2_alg».proof.Proof.Gen.KernelIdeal
import proofs.«165553_j30348238914117_2_alg».proof.Proof.Gen.ReferenceIdeal
import proofs.«165553_j30348238914117_2_alg».proof.Proof.Gen.Pre_finite_inputs
import proofs.«165553_j30348238914117_2_alg».proof.Proof.KB.Run
import proofs.«165553_j30348238914117_2_alg».proof.Proof.KI.Run
import proofs.«165553_j30348238914117_2_alg».proof.Proof.RefFrame
import proofs.«165553_j30348238914117_2_alg».proof.Proof.Algebraic

/-!
# The claim

A layer of a graph transformer over 65536 nodes of width 1024: per node, sixteen heads of width 64 attend to one
another (queries, keys and values from three projections of the node's row, a softmax over the sixteen scores of each
head); an output projection with bias is added to the node's row; the columns are normalised over all the nodes (batch
mean and biased variance) and mapped affinely; a two-layer feed-forward block with a rectifier is added; the columns are
normalised and mapped affinely once more.

The kernel runs the three projections as ONE matrix product against the three weight matrices side by side, the
attention between its pallas_calls, the variance of each normalisation from the sums of the entries and of their squares
(clamped at zero), and the scalings by 1/8 and 1/65536 as products with those dyadic numbers; the reference computes the
same layer with whole-array operations, the variance as the mean of the squared deviations, the scalings as divisions.
At the exact extended reals the changes of float format are the identity, the products with 1/8 and 1/65536 are the
divisions by 8 and 65536, and on finite inputs every intermediate value is a real number, where the two spellings of the
variance agree.

The three frames are the runs of the three programs with everything but the arguments' buffers dropped; `preserves` has
no conjunct (the ideal pass rewrote nothing).
-/

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.RefFrame.frame (F := Ideal) m ρ
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
